-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x1 : Shape := ⟨2, ![11008, 1]⟩
abbrev S4096x11008 : Shape := ⟨2, ![4096, 11008]⟩
abbrev S4096x1 : Shape := ⟨2, ![4096, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part1 {F : FTy → Type} [FloatOps F] (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  main_v18

def fn {F : FTy → Type} [FloatOps F] (main_arg0 : FVec F S4x2048x4096 .f32) (main_arg1 : IVec S11008x4096 32) (main_arg2 : FVec F S11008x1 .f32) (main_arg3 : IVec S11008x4096 32) (main_arg4 : FVec F S11008x1 .f32) (main_arg5 : IVec S4096x11008 32) (main_arg6 : FVec F S4096x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008x1 .f32 := Host.absf main_arg4
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  let main_v14 : FVec F S4096x1 .f32 := Host.absf main_arg6
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008x1 : Shape := ⟨2, ![11008, 1]⟩
abbrev S4096x11008 : Shape := ⟨2, ![4096, 11008]⟩
abbrev S4096x1 : Shape := ⟨2, ![4096, 1]⟩
abbrev S8192x4096 : Shape := ⟨2, ![8192, 4096]⟩
abbrev S8192x11008 : Shape := ⟨2, ![8192, 11008]⟩
abbrev S1024x4096 : Shape := ⟨2, ![1024, 4096]⟩
abbrev S256x1024 : Shape := ⟨2, ![256, 1024]⟩
abbrev S256x1 : Shape := ⟨2, ![256, 1]⟩
abbrev S1024x256 : Shape := ⟨2, ![1024, 256]⟩
abbrev S1024x1024 : Shape := ⟨2, ![1024, 1024]⟩
abbrev S2048x256 : Shape := ⟨2, ![2048, 256]⟩
abbrev S1024x1 : Shape := ⟨2, ![1024, 1]⟩
abbrev S2048x1024 : Shape := ⟨2, ![2048, 1024]⟩

abbrev nBuf : Space → Nat
  | .hbm => 15
  | .vmem => 23
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x1, .f32⟩
  | .hbm, ⟨3, _⟩ => ⟨S11008x4096, .i32⟩
  | .hbm, ⟨4, _⟩ => ⟨S11008x1, .f32⟩
  | .hbm, ⟨5, _⟩ => ⟨S4096x11008, .i32⟩
  | .hbm, ⟨6, _⟩ => ⟨S4096x1, .f32⟩
  | .hbm, ⟨7, _⟩ => ⟨S8192x4096, .f32⟩
  | .hbm, ⟨8, _⟩ => ⟨S8192x4096, .bf16⟩
  | .hbm, ⟨9, _⟩ => ⟨S11008x4096, .bf16⟩
  | .hbm, ⟨10, _⟩ => ⟨S11008x4096, .bf16⟩
  | .hbm, ⟨11, _⟩ => ⟨S4096x11008, .bf16⟩
  | .hbm, ⟨12, _⟩ => ⟨S8192x11008, .bf16⟩
  | .hbm, ⟨13, _⟩ => ⟨S8192x4096, .f32⟩
  | .hbm, ⟨14, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S256x1024, .bf16⟩
  | .local _ .vmem, ⟨3, _⟩ => ⟨S256x1024, .bf16⟩
  | .local _ .vmem, ⟨4, _⟩ => ⟨S256x1, .f32⟩
  | .local _ .vmem, ⟨5, _⟩ => ⟨S256x1, .f32⟩
  | .local _ .vmem, ⟨6, _⟩ => ⟨S256x1024, .bf16⟩
  | .local _ .vmem, ⟨7, _⟩ => ⟨S256x1024, .bf16⟩
  | .local _ .vmem, ⟨8, _⟩ => ⟨S256x1, .f32⟩
  | .local _ .vmem, ⟨9, _⟩ => ⟨S256x1, .f32⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | .local _ .vmem, ⟨13, _⟩ => ⟨S1024x256, .f32⟩
  | .local _ .vmem, ⟨14, _⟩ => ⟨S2048x256, .bf16⟩
  | .local _ .vmem, ⟨15, _⟩ => ⟨S2048x256, .bf16⟩
  | .local _ .vmem, ⟨16, _⟩ => ⟨S1024x256, .bf16⟩
  | .local _ .vmem, ⟨17, _⟩ => ⟨S1024x256, .bf16⟩
  | .local _ .vmem, ⟨18, _⟩ => ⟨S1024x1, .f32⟩
  | .local _ .vmem, ⟨19, _⟩ => ⟨S1024x1, .f32⟩
  | .local _ .vmem, ⟨20, _⟩ => ⟨S2048x1024, .f32⟩
  | .local _ .vmem, ⟨21, _⟩ => ⟨S2048x1024, .f32⟩
  | .local _ .vmem, ⟨22, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨3, ![8, 43, 4], ![false, false, false]⟩

def k0_mult1 (i : grid0.Coords) : BitVec 32 :=
  let arg2 : BitVec 32 := BitVec.ofNat 32 (i 2).val
  let c1024_i32 : BitVec 32 := 1024#32
  let v3 : BitVec 32 := Scalar.muli arg2 c1024_i32
  v3
def k0_off1 (i : grid0.Coords) : Fin 2 → Nat :=
  let c0 : Index := 0#32
  let arg2 : BitVec 32 := BitVec.ofNat 32 (i 2).val
  let c1024_i32 : BitVec 32 := 1024#32
  let v3 : BitVec 32 := Scalar.muli arg2 c1024_i32
  let v4 : BitVec 32 := v3
  let v5 : Index := Scalar.indexCast v4
  ![0, v5.toNat]
def k0_cond2 (i : grid0.Coords) : BitVec 1 :=
  let arg2 : BitVec 32 := BitVec.ofNat 32 (i 2).val
  let c3_i32 : BitVec 32 := 3#32
  let v34 : BitVec 1 := Scalar.cmpi .eq arg2 c3_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![4, 4, 43], ![false, false, false]⟩

def k1_cond2 (i : grid1.Coords) : BitVec 1 :=
  let arg2 : BitVec 32 := BitVec.ofNat 32 (i 2).val
  let c42_i32 : BitVec 32 := 42#32
  let v18 : BitVec 1 := Scalar.cmpi .eq arg2 c42_i32
  let v19 : BitVec 32 := Scalar.extui v18
  let c0_i32_10 : BitVec 32 := 0#32
  let v20 : BitVec 1 := Scalar.cmpi .ne v19 c0_i32_10
  v20

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x1_S256x1_0_0 : ∀ a, (![0, 0] : Fin 2 → Nat) a + S256x1.size a ≤ S256x1.size a
  h_S256x1 : 0 < S256x1.numel
  broadcasts_S256x1_S256x1024 : S256x1.Broadcasts S256x1024
  packedbf16_S1024x256_S1024x256_0_0 : (Rect.unit (s := S1024x256) ![0, 0] S1024x256.size inb_S1024x256_S1024x256_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x1_S1024x1_0_0 : ∀ a, (![0, 0] : Fin 2 → Nat) a + S1024x1.size a ≤ S1024x1.size a
  h_S1024x1 : 0 < S1024x1.numel
  broadcasts_S1024x1_S1024x256 : S1024x1.Broadcasts S1024x256
  shapeCasts_S8192x4096_S4x2048x4096 : S8192x4096.ShapeCasts S4x2048x4096
  dot_S1024x1024_S256x1024_S1024x256_1_1_0_0_n_n_wf : DotDims.WF S1024x1024 S256x1024 S1024x256 [1] [1] [0] [0] [] []
  dot_S2048x256_S1024x256_S2048x1024_1_1_0_0_n_n_wf : DotDims.WF S2048x256 S1024x256 S2048x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x1024.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S11008x4096.size a
  hwx0_1 : ∀ i : grid0.Coords, EltTy.bits .bf16 = 32 ∨ (Rect.block (s := S11008x4096) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S11008x4096.size a
  hwx0_3 : ∀ i : grid0.Coords, EltTy.bits .bf16 = 32 ∨ (Rect.block (s := S11008x4096) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S11008x1.size a
  hwx0_4 : ∀ i : grid0.Coords, EltTy.bits .f32 = 32 ∨ (Rect.block (s := S11008x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x11008.size a
  hwx0_5 : ∀ i : grid0.Coords, EltTy.bits .bf16 = 32 ∨ (Rect.block (s := S8192x11008) S1024x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x11008.size a
  hwx1_0 : ∀ i : grid1.Coords, EltTy.bits .bf16 = 32 ∨ (Rect.block (s := S8192x11008) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x11008.size a
  hwx1_1 : ∀ i : grid1.Coords, EltTy.bits .bf16 = 32 ∨ (Rect.block (s := S4096x11008) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .f32 = 32 ∨ (Rect.block (s := S8192x4096) S2048x1024.size (cc1_transform_3 i) (hinb1_3 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v5) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x1 : Shape := ⟨2, ![11008, 1]⟩
abbrev S4096x11008 : Shape := ⟨2, ![4096, 11008]⟩
abbrev S4096x1 : Shape := ⟨2, ![4096, 1]⟩
abbrev S8192x4096 : Shape := ⟨2, ![8192, 4096]⟩
abbrev S8192x11008 : Shape := ⟨2, ![8192, 11008]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x1, .f32⟩
  | .hbm, ⟨3, _⟩ => ⟨S11008x4096, .i32⟩
  | .hbm, ⟨4, _⟩ => ⟨S11008x1, .f32⟩
  | .hbm, ⟨5, _⟩ => ⟨S4096x11008, .i32⟩
  | .hbm, ⟨6, _⟩ => ⟨S4096x1, .f32⟩
  | .hbm, ⟨7, _⟩ => ⟨S8192x4096, .f32⟩
  | .hbm, ⟨8, _⟩ => ⟨S11008x4096, .f32⟩
  | .hbm, ⟨9, _⟩ => ⟨S11008x4096, .f32⟩
  | .hbm, ⟨10, _⟩ => ⟨S11008x4096, .f32⟩
  | .hbm, ⟨11, _⟩ => ⟨S4096x11008, .f32⟩
  | .hbm, ⟨12, _⟩ => ⟨S8192x11008, .f32⟩
  | .hbm, ⟨13, _⟩ => ⟨S11008x4096, .f32⟩
  | .hbm, ⟨14, _⟩ => ⟨S11008x4096, .f32⟩
  | .hbm, ⟨15, _⟩ => ⟨S11008x4096, .f32⟩
  | .hbm, ⟨16, _⟩ => ⟨S4096x11008, .f32⟩
  | .hbm, ⟨17, _⟩ => ⟨S8192x11008, .f32⟩
  | .hbm, ⟨18, _⟩ => ⟨S8192x11008, .f32⟩
  | .hbm, ⟨19, _⟩ => ⟨S8192x11008, .f32⟩
  | .hbm, ⟨20, _⟩ => ⟨S_, .f32⟩
  | .hbm, ⟨21, _⟩ => ⟨S8192x11008, .f32⟩
  | .hbm, ⟨22, _⟩ => ⟨S8192x11008, .f32⟩
  | .hbm, ⟨23, _⟩ => ⟨S_, .f32⟩
  | .hbm, ⟨24, _⟩ => ⟨S8192x11008, .f32⟩
  | .hbm, ⟨25, _⟩ => ⟨S8192x11008, .f32⟩
  | .hbm, ⟨26, _⟩ => ⟨S8192x11008, .f32⟩
  | .hbm, ⟨27, _⟩ => ⟨S8192x11008, .f32⟩
  | .hbm, ⟨28, _⟩ => ⟨S4096x11008, .f32⟩
  | .hbm, ⟨29, _⟩ => ⟨S4096x11008, .f32⟩
  | .hbm, ⟨30, _⟩ => ⟨S4096x11008, .f32⟩
  | .hbm, ⟨31, _⟩ => ⟨S11008x4096, .f32⟩
  | .hbm, ⟨32, _⟩ => ⟨S8192x4096, .f32⟩
  | .hbm, ⟨33, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S11008x1_S11008x4096_0_1 : S11008x1.BroadcastsInDim S11008x4096 (![0, 1] : Fin 2 → Fin S11008x4096.rank)
  transposes_S11008x4096_S4096x11008_1_0 : S11008x4096.Transposes [1, 0] S4096x11008
  bcast_S_S8192x11008 : S_.BroadcastsInDim S8192x11008 (![] : Fin 0 → Fin S8192x11008.rank)
  bcast_S4096x1_S4096x11008_0_1 : S4096x1.BroadcastsInDim S4096x11008 (![0, 1] : Fin 2 → Fin S4096x11008.rank)
  transposes_S4096x11008_S11008x4096_1_0 : S4096x11008.Transposes [1, 0] S11008x4096
  shapeCasts_S8192x4096_S4x2048x4096 : S8192x4096.ShapeCasts S4x2048x4096
  dot_S8192x4096_S4096x11008_S8192x11008_1_0_0_1_n_n_wf : DotDims.WF S8192x4096 S4096x11008 S8192x11008 [1] [0] [0] [1] [] []
  dot_S8192x11008_S11008x4096_S8192x4096_1_0_0_1_n_n_wf : DotDims.WF S8192x11008 S11008x4096 S8192x4096 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf
def dot_S8192x11008_S11008x4096_S8192x4096_1_0_0_1_n_n : DotDims S8192x11008 S11008x4096 S8192x4096 where
  lhsContracting := [1]
  rhsContracting := [0]
  lhsNonContracting := [0]
  rhsNonContracting := [1]
  lhsBatch := []
  rhsBatch := []
  wf := dot_S8192x11008_S11008x4096_S8192x4096_1_0_0_1_n_n_wf

class Facts : Prop extends Facts₀ where

variable [Facts]
-- ==== Proof.K.R0Base.lean ====
/-
  The first kernel of the layer (gate and up projections, then silu(gate) * up), seen from one grid point: what
  the point is handed and which of the body's two conditionals it takes.  The grid is 8 x 43 x 4; the last
  coordinate k walks the 4 chunks of 1024 input features.  At k = 0 the body clears its two accumulators, at
  every k it adds one chunk's two products to them, and at k = 3 it stores silu(gate) * up into the output block.
  So a point is of one of three kinds: first (k = 0), middle, last (k = 3).  The output block is touched at the
  last points only.
-/
import proofs.«158660_j59433757442706_2_alg».proof.Proof.Gen.Kernel.Launch
import proofs.«158660_j59433757442706_2_alg».proof.Proof.Gen.Kernel.Skeleton
import proofs.«158660_j59433757442706_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the kernel is entered: a parameter
variable (V : (c : Dev nD) → (b : Ref sig .tc) → Buf (Elt F) ((c : Thread nD τ).loc b))

/-- Window `w`'s block at point `t`, read off its array as the kernel finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not: where it is not fetched the block
    index has not moved. One lemma per input window (token rows, gate weights, gate scales, up weights, up scales). -/
theorem held0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4_of {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The two conditionals, as functions of the point -/

/-- "k = 0", as the body computes it from the last grid coordinate. -/
abbrev isFirst (i : grid0.Coords) : Prop := (Scalar.cmpi .ne (Scalar.extui (Scalar.cmpi .eq (BitVec.ofNat 32 (i 2).val) 0#32)) 0#32) = 1#1
/-- "k = 3". -/
abbrev isLast (i : grid0.Coords) : Prop := k0_cond2 i = 1#1
/-- In row-major order of the grid the chunk index is the point's number modulo 4. -/
theorem isFirst_iff : ∀ t : Fin cfg0.N, isFirst (grid0.coords t) ↔ t.val % 4 = 0 :=
  (by decide +kernel : ∀ t : Fin grid0.N, isFirst (grid0.coords t) ↔ t.val % 4 = 0)
theorem isLast_iff : ∀ t : Fin cfg0.N, isLast (grid0.coords t) ↔ t.val % 4 = 3 :=
  (by decide +kernel : ∀ t : Fin grid0.N, isLast (grid0.coords t) ↔ t.val % 4 = 3)

/-! ## Where a window is in use -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last chunk the output block is neither stored into nor written back. -/
theorem idle5 : ∀ t : Fin cfg0.N, ¬isLast (grid0.coords t) → cfg0.idle 5 (grid0.coords t) = true := by decide +kernel
theorem noFlush5 : ∀ t : Fin cfg0.N, ¬isLast (grid0.coords t) → (cfg0.win 5).flush t = false := by decide +kernel
theorem live5 : ∀ t : Fin cfg0.N, isLast (grid0.coords t) → cfg0.idle 5 (grid0.coords t) = false := by decide +kernel

/-! ## The memrefs the body is called with -/

abbrev mr0 (t : Fin cfg0.N) : Memref sig .tc .vmem S1024x4096 .bf16 := win0_0.stage (cfg0.slots t 0)
abbrev mr0_whole (t : Fin cfg0.N) : (mr0 t).IsWhole := hstage0_0 ((cfg0.slots t 0).cast nbuf0_0)
abbrev mr1 (t : Fin cfg0.N) : Memref sig .tc .vmem S256x1024 .bf16 := win0_1.stage (cfg0.slots t 1)
abbrev mr1_whole (t : Fin cfg0.N) : (mr1 t).IsWhole := hstage0_1 ((cfg0.slots t 1).cast nbuf0_1)
abbrev mr2 (t : Fin cfg0.N) : Memref sig .tc .vmem S256x1 .f32 := win0_2.stage (cfg0.slots t 2)
abbrev mr2_whole (t : Fin cfg0.N) : (mr2 t).IsWhole := hstage0_2 ((cfg0.slots t 2).cast nbuf0_2)
abbrev mr3 (t : Fin cfg0.N) : Memref sig .tc .vmem S256x1024 .bf16 := win0_3.stage (cfg0.slots t 3)
abbrev mr3_whole (t : Fin cfg0.N) : (mr3 t).IsWhole := hstage0_3 ((cfg0.slots t 3).cast nbuf0_3)
abbrev mr4 (t : Fin cfg0.N) : Memref sig .tc .vmem S256x1 .f32 := win0_4.stage (cfg0.slots t 4)
abbrev mr4_whole (t : Fin cfg0.N) : (mr4 t).IsWhole := hstage0_4 ((cfg0.slots t 4).cast nbuf0_4)
abbrev mr5 (t : Fin cfg0.N) : Memref sig .tc .vmem S1024x256 .bf16 := win0_5.stage (cfg0.slots t 5)
abbrev mr5_whole (t : Fin cfg0.N) : (mr5 t).IsWhole := hstage0_5 ((cfg0.slots t 5).cast nbuf0_5)
/-- The two accumulators (gate, up): whole buffers of the kernel's own, kept from one point to the next. -/
abbrev accG : Memref sig .tc .vmem S1024x256 .f32 := Memref.whole cc0_scratch0
abbrev accU : Memref sig .tc .vmem S1024x256 .f32 := Memref.whole cc0_scratch1
abbrev accGV : View sig .tc .vmem S1024x256 .f32 := accG.view
abbrev accUV : View sig .tc .vmem S1024x256 .f32 := accU.view
/-- One staging buffer of the output window, through which its contents are stated. -/
abbrev outV : View sig .tc .vmem S1024x256 .bf16 := (Memref.whole cc0_stg5_0 : Memref sig .tc .vmem S1024x256 .bf16).view

end Cert.Kernel.R0

end
-- ==== Proof.K.R0RunA.lean ====
/-
  The first kernel's body at a FIRST chunk (k = 0, not the last): it stores zeros into both accumulators, then loads
  the five input blocks and the accumulators and stores accumulator + product back into each; the output block is
  left alone.  From whole memrefs holding the inputs' blocks, the output block and both accumulators at any
  contents, the body runs to the end, returns the inputs and the output block as found, and leaves in each
  accumulator a list of stored pieces (found by running the body symbolically).
-/
import proofs.«158660_j59433757442706_2_alg».proof.Proof.K.R0Base

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : isFirst i) (hl : ¬isLast i)
    (x0 : Vec F S1024x4096 .bf16) (x1 : Vec F S256x1024 .bf16) (x2 : Vec F S256x1 .f32) (x3 : Vec F S256x1024 .bf16) (x4 : Vec F S256x1 .f32) :
    Σ' (LG : List (View.Piece (Elt F) S1024x256 .f32)), { LU : List (View.Piece (Elt F) S1024x256 .f32) //
      ∀ (xo : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LG) ∗ (∃ f, arg10.view.loc (c : Thread nD τ) ↦[arg10.view.set]{fullShare} arg10.view.writes (Elt F) f LU)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10) K } := by
  refine ⟨?_, ?_, fun xo E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dg, %fg, -, HG⟩, ⟨%du, %fu, -, HU⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HG]; · iexists _; iexact HG
    iexists _; iexact HU

end Cert.Kernel.R0

end
-- ==== Proof.K.R0RunB.lean ====
/-
  The first kernel's body at a MIDDLE chunk (neither the first nor the last): it loads the five input blocks and the
  two accumulators, stores accumulator + product back into each, and leaves the output block alone.  From whole
  memrefs holding the inputs' blocks, the output block at any contents, and the accumulators at what the previous
  point left, the body runs to the end, returns the inputs and the output block as found, and leaves in each
  accumulator a list of stored pieces (found by running the body symbolically).
-/
import proofs.«158660_j59433757442706_2_alg».proof.Proof.K.R0Base

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : ¬isLast i)
    (x0 : Vec F S1024x4096 .bf16) (x1 : Vec F S256x1024 .bf16) (x2 : Vec F S256x1 .f32) (x3 : Vec F S256x1024 .bf16) (x4 : Vec F S256x1 .f32) (xg xu : Vec F S1024x256 .f32) :
    Σ' (LG : List (View.Piece (Elt F) S1024x256 .f32)), { LU : List (View.Piece (Elt F) S1024x256 .f32) //
      ∀ (xo : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xg ∗ owns (c : Thread nD τ) arg10 fullShare xu
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LG) ∗ (∃ f, arg10.view.loc (c : Thread nD τ) ↦[arg10.view.set]{fullShare} arg10.view.writes (Elt F) f LU)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10) K } := by
  refine ⟨?_, ?_, fun xo E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fg, %hfg, HG⟩, ⟨%fu, %hfu, HU⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfg; obtain rfl := harg10.eq_unread hfu
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HG]; · iexists _; iexact HG
    iexists _; iexact HU

end Cert.Kernel.R0

end
-- ==== Proof.K.R0RunC.lean ====
/-
  The first kernel's body at a LAST chunk (k = 3, not the first): it loads the five input blocks and the two
  accumulators, stores accumulator + product back into each, then loads both accumulators again and stores
  silu(gate) * up into the output block.  From whole memrefs holding the inputs' blocks, the output block at any
  contents and the accumulators at what the previous point left, the body runs to the end, returns the inputs as
  found, and leaves lists of stored pieces in the output block and in each accumulator (found by running the body
  symbolically).
-/
import proofs.«158660_j59433757442706_2_alg».proof.Proof.K.R0Base

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i)
    (x0 : Vec F S1024x4096 .bf16) (x1 : Vec F S256x1024 .bf16) (x2 : Vec F S256x1 .f32) (x3 : Vec F S256x1024 .bf16) (x4 : Vec F S256x1 .f32) (xg xu : Vec F S1024x256 .f32) :
    Σ' (LO : List (View.Piece (Elt F) S1024x256 .bf16)) (LG : List (View.Piece (Elt F) S1024x256 .f32)), { LU : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xg ∗ owns (c : Thread nD τ) arg10 fullShare xu
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LG) ∗ (∃ f, arg10.view.loc (c : Thread nD τ) ↦[arg10.view.set]{fullShare} arg10.view.writes (Elt F) f LU)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10) K } := by
  refine ⟨?_, ?_, ?_, fun E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fg, %hfg, HG⟩, ⟨%fu, %hfu, HU⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfg; obtain rfl := harg10.eq_unread hfu
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HG]; · iexists _; iexact HG
    iexists _; iexact HU

end Cert.Kernel.R0

end
-- ==== Proof.K.R0Frame.lean ====
/-
  The first kernel over its whole grid.  After the point number n the two accumulators hold what the body's stores
  left there at that point, which depends on the point's input blocks and (except at a first chunk) on what the
  point before left: a recursion on n.  The invariant carried from point to point owns both accumulators at
  exactly those contents, beside the other buffers of the core that this kernel never touches.  With it the
  body's three runs (first, middle and last chunk) give the obligation the pipeline asks of a kernel body at
  every point.
-/
import proofs.«158660_j59433757442706_2_alg».proof.Proof.K.R0RunA
import proofs.«158660_j59433757442706_2_alg».proof.Proof.K.R0RunB
import proofs.«158660_j59433757442706_2_alg».proof.Proof.K.R0RunC

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem coverFirstG (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : isFirst i) (hl : ¬isLast i) (x0 : Vec F S1024x4096 .bf16) (x1 : Vec F S256x1024 .bf16) (x2 : Vec F S256x1 .f32) (x3 : Vec F S256x1024 .bf16) (x4 : Vec F S256x1 .f32) (y : S1024x256.Idx) :
    ∃ pc ∈ (runFirst c i arg3 harg3 arg4 harg4 arg5 harg5 arg6 harg6 arg7 harg7 arg8 harg8 arg9 harg9 arg10 harg10 hf hl x0 x1 x2 x3 x4).1, y ∈ pc.1.set :=
  View.cover_of_tiledL (runFirst c i arg3 harg3 arg4 harg4 arg5 harg5 arg6 harg6 arg7 harg7 arg8 harg8 arg9 harg9 arg10 harg10 hf hl x0 x1 x2 x3 x4).1 S1024x256.size (by sl_kernel_rfl) y
theorem coverFirstU (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : isFirst i) (hl : ¬isLast i) (x0 : Vec F S1024x4096 .bf16) (x1 : Vec F S256x1024 .bf16) (x2 : Vec F S256x1 .f32) (x3 : Vec F S256x1024 .bf16) (x4 : Vec F S256x1 .f32) (y : S1024x256.Idx) :
    ∃ pc ∈ (runFirst c i arg3 harg3 arg4 harg4 arg5 harg5 arg6 harg6 arg7 harg7 arg8 harg8 arg9 harg9 arg10 harg10 hf hl x0 x1 x2 x3 x4).2.1, y ∈ pc.1.set :=
  View.cover_of_tiledL (runFirst c i arg3 harg3 arg4 harg4 arg5 harg5 arg6 harg6 arg7 harg7 arg8 harg8 arg9 harg9 arg10 harg10 hf hl x0 x1 x2 x3 x4).2.1 S1024x256.size (by sl_kernel_rfl) y
/-- The gate accumulator after a first chunk. -/
def accFirstG (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : isFirst i) (hl : ¬isLast i) (x0 : Vec F S1024x4096 .bf16) (x1 : Vec F S256x1024 .bf16) (x2 : Vec F S256x1 .f32) (x3 : Vec F S256x1024 .bf16) (x4 : Vec F S256x1 .f32) : Vec F S1024x256 .f32 :=
  accGV.read (Elt F) (accGV.writes (Elt F) accGV.junk (runFirst c i arg3 harg3 arg4 harg4 arg5 harg5 arg6 harg6 arg7 harg7 arg8 harg8 arg9 harg9 arg10 harg10 hf hl x0 x1 x2 x3 x4).1)
/-- The up accumulator after a first chunk. -/
def accFirstU (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : isFirst i) (hl : ¬isLast i) (x0 : Vec F S1024x4096 .bf16) (x1 : Vec F S256x1024 .bf16) (x2 : Vec F S256x1 .f32) (x3 : Vec F S256x1024 .bf16) (x4 : Vec F S256x1 .f32) : Vec F S1024x256 .f32 :=
  accUV.read (Elt F) (accUV.writes (Elt F) accUV.junk (runFirst c i arg3 harg3 arg4 harg4 arg5 harg5 arg6 harg6 arg7 harg7 arg8 harg8 arg9 harg9 arg10 harg10 hf hl x0 x1 x2 x3 x4).2.1)

theorem coverMidG (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : ¬isLast i) (x0 : Vec F S1024x4096 .bf16) (x1 : Vec F S256x1024 .bf16) (x2 : Vec F S256x1 .f32) (x3 : Vec F S256x1024 .bf16) (x4 : Vec F S256x1 .f32) (xg xu : Vec F S1024x256 .f32) (y : S1024x256.Idx) :
    ∃ pc ∈ (runMid c i arg3 harg3 arg4 harg4 arg5 harg5 arg6 harg6 arg7 harg7 arg8 harg8 arg9 harg9 arg10 harg10 hf hl x0 x1 x2 x3 x4 xg xu).1, y ∈ pc.1.set :=
  View.cover_of_tiledL (runMid c i arg3 harg3 arg4 harg4 arg5 harg5 arg6 harg6 arg7 harg7 arg8 harg8 arg9 harg9 arg10 harg10 hf hl x0 x1 x2 x3 x4 xg xu).1 S1024x256.size (by sl_kernel_rfl) y
theorem coverMidU (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : ¬isLast i) (x0 : Vec F S1024x4096 .bf16) (x1 : Vec F S256x1024 .bf16) (x2 : Vec F S256x1 .f32) (x3 : Vec F S256x1024 .bf16) (x4 : Vec F S256x1 .f32) (xg xu : Vec F S1024x256 .f32) (y : S1024x256.Idx) :
    ∃ pc ∈ (runMid c i arg3 harg3 arg4 harg4 arg5 harg5 arg6 harg6 arg7 harg7 arg8 harg8 arg9 harg9 arg10 harg10 hf hl x0 x1 x2 x3 x4 xg xu).2.1, y ∈ pc.1.set :=
  View.cover_of_tiledL (runMid c i arg3 harg3 arg4 harg4 arg5 harg5 arg6 harg6 arg7 harg7 arg8 harg8 arg9 harg9 arg10 harg10 hf hl x0 x1 x2 x3 x4 xg xu).2.1 S1024x256.size (by sl_kernel_rfl) y
/-- The gate accumulator after a middle chunk, from what the point before left. -/
def accMidG (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : ¬isLast i) (x0 : Vec F S1024x4096 .bf16) (x1 : Vec F S256x1024 .bf16) (x2 : Vec F S256x1 .f32) (x3 : Vec F S256x1024 .bf16) (x4 : Vec F S256x1 .f32) (xg xu : Vec F S1024x256 .f32) : Vec F S1024x256 .f32 :=
  accGV.read (Elt F) (accGV.writes (Elt F) accGV.junk (runMid c i arg3 harg3 arg4 harg4 arg5 harg5 arg6 harg6 arg7 harg7 arg8 harg8 arg9 harg9 arg10 harg10 hf hl x0 x1 x2 x3 x4 xg xu).1)
/-- The up accumulator after a middle chunk, from what the point before left. -/
def accMidU (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : ¬isLast i) (x0 : Vec F S1024x4096 .bf16) (x1 : Vec F S256x1024 .bf16) (x2 : Vec F S256x1 .f32) (x3 : Vec F S256x1024 .bf16) (x4 : Vec F S256x1 .f32) (xg xu : Vec F S1024x256 .f32) : Vec F S1024x256 .f32 :=
  accUV.read (Elt F) (accUV.writes (Elt F) accUV.junk (runMid c i arg3 harg3 arg4 harg4 arg5 harg5 arg6 harg6 arg7 harg7 arg8 harg8 arg9 harg9 arg10 harg10 hf hl x0 x1 x2 x3 x4 xg xu).2.1)

theorem coverLastO (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) (y : S1024x256.Idx) :
    ∃ pc ∈ (runLast c i arg3 harg3 arg4 harg4 arg5 harg5 arg6 harg6 arg7 harg7 arg8 harg8 arg9 harg9 arg10 harg10 hf hl x0 x1 x2 x3 x4 xg xu).1, y ∈ pc.1.set :=
  View.cover_of_tiledL (runLast c i arg3 harg3 arg4 harg4 arg5 harg5 arg6 harg6 arg7 harg7 arg8 harg8 arg9 harg9 arg10 harg10 hf hl x0 x1 x2 x3 x4 xg xu).1 S1024x256.size (by sl_kernel_rfl) y
theorem coverLastG (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) (y : S1024x256.Idx) :
    ∃ pc ∈ (runLast c i arg3 harg3 arg4 harg4 arg5 harg5 arg6 harg6 arg7 harg7 arg8 harg8 arg9 harg9 arg10 harg10 hf hl x0 x1 x2 x3 x4 xg xu).2.1, y ∈ pc.1.set :=
  View.cover_of_tiledL (runLast c i arg3 harg3 arg4 harg4 arg5 harg5 arg6 harg6 arg7 harg7 arg8 harg8 arg9 harg9 arg10 harg10 hf hl x0 x1 x2 x3 x4 xg xu).2.1 S1024x256.size (by sl_kernel_rfl) y
theorem coverLastU (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) (y : S1024x256.Idx) :
    ∃ pc ∈ (runLast c i arg3 harg3 arg4 harg4 arg5 harg5 arg6 harg6 arg7 harg7 arg8 harg8 arg9 harg9 arg10 harg10 hf hl x0 x1 x2 x3 x4 xg xu).2.2.1, y ∈ pc.1.set :=
  View.cover_of_tiledL (runLast c i arg3 harg3 arg4 harg4 arg5 harg5 arg6 harg6 arg7 harg7 arg8 harg8 arg9 harg9 arg10 harg10 hf hl x0 x1 x2 x3 x4 xg xu).2.2.1 S1024x256.size (by sl_kernel_rfl) y
/-- The output block after a last chunk. -/
def outLast (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) : Vec F S1024x256 .bf16 :=
  outV.read (Elt F) (outV.writes (Elt F) outV.junk (runLast c i arg3 harg3 arg4 harg4 arg5 harg5 arg6 harg6 arg7 harg7 arg8 harg8 arg9 harg9 arg10 harg10 hf hl x0 x1 x2 x3 x4 xg xu).1)
/-- The gate accumulator after a last chunk. -/
def accLastG (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) : Vec F S1024x256 .f32 :=
  accGV.read (Elt F) (accGV.writes (Elt F) accGV.junk (runLast c i arg3 harg3 arg4 harg4 arg5 harg5 arg6 harg6 arg7 harg7 arg8 harg8 arg9 harg9 arg10 harg10 hf hl x0 x1 x2 x3 x4 xg xu).2.1)
/-- The up accumulator after a last chunk. -/
def accLastU (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) : Vec F S1024x256 .f32 :=
  accUV.read (Elt F) (accUV.writes (Elt F) accUV.junk (runLast c i arg3 harg3 arg4 harg4 arg5 harg5 arg6 harg6 arg7 harg7 arg8 harg8 arg9 harg9 arg10 harg10 hf hl x0 x1 x2 x3 x4 xg xu).2.2.1)

/-- A placeholder for the output block where the kernel does not touch it (nothing reads it). -/
def idleOut : Vec F S1024x256 .bf16 := outV.read (Elt F) outV.junk
/-- A placeholder for an accumulator before the very first point (nothing reads it). -/
def idleAcc : Vec F S1024x256 .f32 := accGV.read (Elt F) accGV.junk

/-! ## Point by point -/

/-- What point `t` leaves in (output block, gate accumulator, up accumulator), given what the point before left in the
    two accumulators. -/
def step (c : Dev nD) (t : Fin cfg0.N) (pg pu : Vec F S1024x256 .f32) : Vec F S1024x256 .bf16 × Vec F S1024x256 .f32 × Vec F S1024x256 .f32 :=
  if h0 : t.val % 4 = 0 then
    (idleOut, accFirstG c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) ((isFirst_iff t).mpr h0) (fun h => by have := (isLast_iff t).mp h; omega) (blk V c 0 t) (blk V c 1 t) (blk V c 2 t) (blk V c 3 t) (blk V c 4 t), accFirstU c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) ((isFirst_iff t).mpr h0) (fun h => by have := (isLast_iff t).mp h; omega) (blk V c 0 t) (blk V c 1 t) (blk V c 2 t) (blk V c 3 t) (blk V c 4 t))
  else if h2 : t.val % 4 = 3 then
    (outLast c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) ((isLast_iff t).mpr h2) (blk V c 0 t) (blk V c 1 t) (blk V c 2 t) (blk V c 3 t) (blk V c 4 t) pg pu,
     accLastG c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) ((isLast_iff t).mpr h2) (blk V c 0 t) (blk V c 1 t) (blk V c 2 t) (blk V c 3 t) (blk V c 4 t) pg pu,
     accLastU c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) ((isLast_iff t).mpr h2) (blk V c 0 t) (blk V c 1 t) (blk V c 2 t) (blk V c 3 t) (blk V c 4 t) pg pu)
  else
    (idleOut, accMidG c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) (fun h => h2 ((isLast_iff t).mp h)) (blk V c 0 t) (blk V c 1 t) (blk V c 2 t) (blk V c 3 t) (blk V c 4 t) pg pu, accMidU c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) (fun h => h2 ((isLast_iff t).mp h)) (blk V c 0 t) (blk V c 1 t) (blk V c 2 t) (blk V c 3 t) (blk V c 4 t) pg pu)

/-- (output block, gate accumulator, up accumulator) after the point number `n`. -/
def stateAt (c : Dev nD) : (n : ℕ) → n < cfg0.N → Vec F S1024x256 .bf16 × Vec F S1024x256 .f32 × Vec F S1024x256 .f32
  | 0, hn => step V c ⟨0, hn⟩ idleAcc idleAcc
  | n + 1, hn => step V c ⟨n + 1, hn⟩ (stateAt c n (Nat.lt_of_succ_lt hn)).2.1 (stateAt c n (Nat.lt_of_succ_lt hn)).2.2

theorem stateAt_pos (c : Dev nD) (t : Fin cfg0.N) (hz : t.val ≠ 0) :
    stateAt V c t.val t.isLt = step V c t (stateAt V c (t.val - 1) (Nat.lt_of_le_of_lt (Nat.sub_le _ _) t.isLt)).2.1 (stateAt V c (t.val - 1) (Nat.lt_of_le_of_lt (Nat.sub_le _ _) t.isLt)).2.2 := by
  obtain ⟨n, hn⟩ := t
  cases n with
  | zero => exact absurd rfl hz
  | succ n => rfl

theorem step_first (c : Dev nD) (t : Fin cfg0.N) (pg pu : Vec F S1024x256 .f32) (h0 : t.val % 4 = 0) :
    step V c t pg pu = (idleOut, accFirstG c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) ((isFirst_iff t).mpr h0) (fun h => by have := (isLast_iff t).mp h; omega) (blk V c 0 t) (blk V c 1 t) (blk V c 2 t) (blk V c 3 t) (blk V c 4 t), accFirstU c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) ((isFirst_iff t).mpr h0) (fun h => by have := (isLast_iff t).mp h; omega) (blk V c 0 t) (blk V c 1 t) (blk V c 2 t) (blk V c 3 t) (blk V c 4 t)) :=
  dif_pos h0
theorem step_last (c : Dev nD) (t : Fin cfg0.N) (pg pu : Vec F S1024x256 .f32) (h0 : ¬t.val % 4 = 0) (h2 : t.val % 4 = 3) :
    step V c t pg pu = (outLast c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) ((isLast_iff t).mpr h2) (blk V c 0 t) (blk V c 1 t) (blk V c 2 t) (blk V c 3 t) (blk V c 4 t) pg pu,
     accLastG c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) ((isLast_iff t).mpr h2) (blk V c 0 t) (blk V c 1 t) (blk V c 2 t) (blk V c 3 t) (blk V c 4 t) pg pu,
     accLastU c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) ((isLast_iff t).mpr h2) (blk V c 0 t) (blk V c 1 t) (blk V c 2 t) (blk V c 3 t) (blk V c 4 t) pg pu) :=
  (dif_neg h0).trans (dif_pos h2)
theorem step_mid (c : Dev nD) (t : Fin cfg0.N) (pg pu : Vec F S1024x256 .f32) (h0 : ¬t.val % 4 = 0) (h2 : ¬t.val % 4 = 3) :
    step V c t pg pu = (idleOut, accMidG c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) (fun h => h2 ((isLast_iff t).mp h)) (blk V c 0 t) (blk V c 1 t) (blk V c 2 t) (blk V c 3 t) (blk V c 4 t) pg pu, accMidU c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) (fun h => h2 ((isLast_iff t).mp h)) (blk V c 0 t) (blk V c 1 t) (blk V c 2 t) (blk V c 3 t) (blk V c 4 t) pg pu) :=
  (dif_neg h0).trans (dif_neg h2)

/-- At a first chunk what the point before left does not matter. -/
theorem stateAt_first (c : Dev nD) (t : Fin cfg0.N) (h0 : t.val % 4 = 0) :
    stateAt V c t.val t.isLt = (idleOut, accFirstG c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) ((isFirst_iff t).mpr h0) (fun h => by have := (isLast_iff t).mp h; omega) (blk V c 0 t) (blk V c 1 t) (blk V c 2 t) (blk V c 3 t) (blk V c 4 t), accFirstU c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) ((isFirst_iff t).mpr h0) (fun h => by have := (isLast_iff t).mp h; omega) (blk V c 0 t) (blk V c 1 t) (blk V c 2 t) (blk V c 3 t) (blk V c 4 t)) := by
  obtain ⟨n, hn⟩ := t
  cases n with
  | zero => exact step_first V c ⟨0, hn⟩ _ _ h0
  | succ n => exact step_first V c ⟨n + 1, hn⟩ _ _ h0

/-! ## The invariant between points -/

/-- Statements `P`, `Q` about this kernel's two accumulators, then the other buffers of the core (the second kernel's
    staging buffers and accumulator) at any contents, and the generator register. -/
def restWith (c : Dev nD) (P Q : sProp 𝕄) : sProp 𝕄 :=
  iprop((P ∗ Q ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ ∃ r, prngReg c r)

theorem restWith_open (c : Dev nD) (P Q : sProp 𝕄) : restWith (F := F) c P Q ⊢ iprop((P ∗ Q) ∗ restWith (F := F) c iprop(emp) iprop(emp)) := by
  unfold restWith
  iintro ⟨⟨HP, HQ, B0, B1, B2, B3, B4, B5, B6, B7, B8⟩, Hg⟩
  isplitl [HP HQ]
  · isplitl [HP]; · iexact HP
    iexact HQ
  isplitr [Hg]
  swap; · iexact Hg
  isplitr; · iempintro
  isplitr; · iempintro
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

theorem restWith_close (c : Dev nD) (P Q : sProp 𝕄) : iprop((P ∗ Q) ∗ restWith (F := F) c iprop(emp) iprop(emp)) ⊢ restWith (F := F) c P Q := by
  unfold restWith
  iintro ⟨⟨HP, HQ⟩, ⟨-, -, B0, B1, B2, B3, B4, B5, B6, B7, B8⟩, Hg⟩
  isplitr [Hg]
  swap; · iexact Hg
  isplitl [HP]; · iexact HP
  isplitl [HQ]; · iexact HQ
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

/-- What the pipeline hands a kernel before its first point is this, with both accumulators at any contents. -/
theorem PhiA_eq (c : Dev nD) :
    (Pipeline.ΦA spec0 c : sProp 𝕄) = restWith (F := F) c iprop(∃ d, owns (c : Thread nD τ) accG fullShare d) iprop(∃ d, owns (c : Thread nD τ) accU fullShare d) := by
  unfold Pipeline.ΦA restWith; rw [scopedRest0_eq]; simp only [accG, accU, owns_whole]; try rfl

/-- Before the point number `n`: at the start what the pipeline hands over; afterwards the accumulators at what the
    point before left. -/
def PhiS (c : Dev nD) : (n : ℕ) → n ≤ cfg0.N → sProp 𝕄
  | 0, _ => Pipeline.ΦA spec0 c
  | n + 1, hn => restWith (F := F) c (owns (c : Thread nD τ) accG fullShare ((stateAt V c n hn).2.1)) (owns (c : Thread nD τ) accU fullShare ((stateAt V c n hn).2.2))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = restWith (F := F) c (owns (c : Thread nD τ) accG fullShare ((stateAt V c n hn).2.1)) (owns (c : Thread nD τ) accU fullShare ((stateAt V c n hn).2.2)) := rfl
theorem PhiS_pos (c : Dev nD) (n : ℕ) (h : n ≤ cfg0.N) (hz : n ≠ 0) :
    PhiS V c n h = restWith (F := F) c (owns (c : Thread nD τ) accG fullShare ((stateAt V c (n - 1) (by omega)).2.1)) (owns (c : Thread nD τ) accU fullShare ((stateAt V c (n - 1) (by omega)).2.2)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (stateAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = (stateAt V c t.val t.isLt).1 := by dsimp only [dat]
theorem held0 (c : Dev nD) (t : Fin cfg0.N) (d) : (dat V c).before 0 t d = blk V c 0 t :=
  held0_of V (dat V c) (A_eq V c 0) (after0 V c) t d
theorem held1 (c : Dev nD) (t : Fin cfg0.N) (d) : (dat V c).before 1 t d = blk V c 1 t :=
  held1_of V (dat V c) (A_eq V c 1) (after1 V c) t d
theorem held2 (c : Dev nD) (t : Fin cfg0.N) (d) : (dat V c).before 2 t d = blk V c 2 t :=
  held2_of V (dat V c) (A_eq V c 2) (after2 V c) t d
theorem held3 (c : Dev nD) (t : Fin cfg0.N) (d) : (dat V c).before 3 t d = blk V c 3 t :=
  held3_of V (dat V c) (A_eq V c 3) (after3 V c) t d
theorem held4 (c : Dev nD) (t : Fin cfg0.N) (d) : (dat V c).before 4 t d = blk V c 4 t :=
  held4_of V (dat V c) (A_eq V c 4) (after4 V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (mr0 t) fullShare ((dat V c).before 0 t d))
    ∗ (∃ d, owns (c : Thread nD τ) (mr1 t) fullShare ((dat V c).before 1 t d))
    ∗ (∃ d, owns (c : Thread nD τ) (mr2 t) fullShare ((dat V c).before 2 t d))
    ∗ (∃ d, owns (c : Thread nD τ) (mr3 t) fullShare ((dat V c).before 3 t d))
    ∗ (∃ d, owns (c : Thread nD τ) (mr4 t) fullShare ((dat V c).before 4 t d))
    ∗ (∃ d, owns (c : Thread nD τ) (mr5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the point's number modulo 4 says which kind of point
    it is, and that kind's run applies; the invariant hands the body the accumulators at what the point before left (at
    anything before the very first point) and takes them back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [held0, held1, held2, held3, held4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mr0 t) fullShare ((dat V c).after 0 t) from by
      unfold Dat.leavesExact; rw [live0 t], after0]
  rw [show (dat V c).leavesExact 1 t = owns (c : Thread nD τ) (mr1 t) fullShare ((dat V c).after 1 t) from by
      unfold Dat.leavesExact; rw [live1 t], after1]
  rw [show (dat V c).leavesExact 2 t = owns (c : Thread nD τ) (mr2 t) fullShare ((dat V c).after 2 t) from by
      unfold Dat.leavesExact; rw [live2 t], after2]
  rw [show (dat V c).leavesExact 3 t = owns (c : Thread nD τ) (mr3 t) fullShare ((dat V c).after 3 t) from by
      unfold Dat.leavesExact; rw [live3 t], after3]
  rw [show (dat V c).leavesExact 4 t = owns (c : Thread nD τ) (mr4 t) fullShare ((dat V c).after 4 t) from by
      unfold Dat.leavesExact; rw [live4 t], after4]
  have hN : t.val < 1376 := lt_of_lt_of_eq t.isLt (show cfg0.N = 1376 from N_0)
  by_cases h0 : t.val % 4 = 0
  · -- a first chunk
    rw [Dat.leavesExact_idle (dat V c) 5 t (idle5 t (fun h => by have := (isLast_iff t).mp h; omega)) (noFlush5 t (fun h => by have := (isLast_iff t).mp h; omega))]
    rw [stateAt_first V c t h0]
    unfold accFirstG accFirstU; (try dsimp only)
    by_cases hz : t.val = 0
    · rw [Phi_castSucc V c t, PhiS_zero V c _ _ hz, PhiA_eq]
      refine (sep_mono (restWith_open c _ _) .rfl).trans ?_
      iintro ⟨⟨⟨HG, HU⟩, Hoth⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ _ _ ((isFirst_iff t).mpr h0) (fun h => by have := (isLast_iff t).mp h; omega) (blk V c 0 t) (blk V c 1 t) (blk V c 2 t) (blk V c 3 t) (blk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HG]; · iexact HG
      isplitl [HU]; · iexact HU
      iintro ⟨H0, H1, H2, H3, H4, H5, ⟨%eg, HG⟩, ⟨%eu, HU⟩⟩
      isplitl [HG HU Hoth]
      · iapply (restWith_close c _ _)
        isplitl [HG HU]
        · isplitl [HG]
          · unfold owns; iexists _; isplitr
            swap; · iexact HG
            ipureintro; exact View.read_writes_of_cover _ _ _ _ _ (coverFirstG c _ _ _ _ _ _ _ _ _ _ _ _ _ _ _ _ _ _ _ _ _ _ _ _)
          unfold owns; iexists _; isplitr
          swap; · iexact HU
          ipureintro; exact View.read_writes_of_cover _ _ _ _ _ (coverFirstU c _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      iexists _; iexact H5
    · rw [Phi_castSucc V c t, PhiS_pos V c _ _ hz]
      refine (sep_mono (restWith_open c _ _) .rfl).trans ?_
      iintro ⟨⟨⟨HG, HU⟩, Hoth⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ _ _ ((isFirst_iff t).mpr h0) (fun h => by have := (isLast_iff t).mp h; omega) (blk V c 0 t) (blk V c 1 t) (blk V c 2 t) (blk V c 3 t) (blk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HG]; · iexists _; iexact HG
      isplitl [HU]; · iexists _; iexact HU
      iintro ⟨H0, H1, H2, H3, H4, H5, ⟨%eg, HG⟩, ⟨%eu, HU⟩⟩
      isplitl [HG HU Hoth]
      · iapply (restWith_close c _ _)
        isplitl [HG HU]
        · isplitl [HG]
          · unfold owns; iexists _; isplitr
            swap; · iexact HG
            ipureintro; exact View.read_writes_of_cover _ _ _ _ _ (coverFirstG c _ _ _ _ _ _ _ _ _ _ _ _ _ _ _ _ _ _ _ _ _ _ _ _)
          unfold owns; iexists _; isplitr
          swap; · iexact HU
          ipureintro; exact View.read_writes_of_cover _ _ _ _ _ (coverFirstU c _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [Phi_castSucc V c t, PhiS_pos V c _ _ hz, stateAt_pos V c t hz]
    by_cases h2 : t.val % 4 = 3
    · -- a last chunk
      rw [show (dat V c).leavesExact 5 t = owns (c : Thread nD τ) (mr5 t) fullShare ((dat V c).after 5 t) from by
        unfold Dat.leavesExact; rw [live5 t ((isLast_iff t).mpr h2)], after5, stateAt_pos V c t hz]
      rw [step_last V c t _ _ h0 h2]
      unfold outLast accLastG accLastU; (try dsimp only)
      refine (sep_mono (restWith_open c _ _) .rfl).trans ?_
      iintro ⟨⟨⟨HG, HU⟩, Hoth⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ _ _ (fun h => h0 ((isFirst_iff t).mp h)) ((isLast_iff t).mpr h2) (blk V c 0 t) (blk V c 1 t) (blk V c 2 t) (blk V c 3 t) (blk V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HG]; · iexact HG
      isplitl [HU]; · iexact HU
      iintro ⟨H0, H1, H2, H3, H4, ⟨%eo, H5⟩, ⟨%eg, HG⟩, ⟨%eu, HU⟩⟩
      isplitl [HG HU Hoth]
      · iapply (restWith_close c _ _)
        isplitl [HG HU]
        · isplitl [HG]
          · unfold owns; iexists _; isplitr
            swap; · iexact HG
            ipureintro; exact View.read_writes_of_cover _ _ _ _ _ (coverLastG c _ _ _ _ _ _ _ _ _ _ _ _ _ _ _ _ _ _ _ _ _ _ _ _ _ _)
          unfold owns; iexists _; isplitr
          swap; · iexact HU
          ipureintro; exact View.read_writes_of_cover _ _ _ _ _ (coverLastU c _ _ _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLastO c _ _ _ _ _ _ _ _ _ _ _ _ _ _ _ _ _ _ _ _ _ _ _ _ _ _)
    · -- a middle chunk
      rw [Dat.leavesExact_idle (dat V c) 5 t (idle5 t (fun h => h2 ((isLast_iff t).mp h))) (noFlush5 t (fun h => h2 ((isLast_iff t).mp h)))]
      rw [step_mid V c t _ _ h0 h2]
      unfold accMidG accMidU; (try dsimp only)
      refine (sep_mono (restWith_open c _ _) .rfl).trans ?_
      iintro ⟨⟨⟨HG, HU⟩, Hoth⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ _ _ (fun h => h0 ((isFirst_iff t).mp h)) (fun h => h2 ((isLast_iff t).mp h)) (blk V c 0 t) (blk V c 1 t) (blk V c 2 t) (blk V c 3 t) (blk V c 4 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HG]; · iexact HG
      isplitl [HU]; · iexact HU
      iintro ⟨H0, H1, H2, H3, H4, H5, ⟨%eg, HG⟩, ⟨%eu, HU⟩⟩
      isplitl [HG HU Hoth]
      · iapply (restWith_close c _ _)
        isplitl [HG HU]
        · isplitl [HG]
          · unfold owns; iexists _; isplitr
            swap; · iexact HG
            ipureintro; exact View.read_writes_of_cover _ _ _ _ _ (coverMidG c _ _ _ _ _ _ _ _ _ _ _ _ _ _ _ _ _ _ _ _ _ _ _ _ _ _)
          unfold owns; iexists _; isplitr
          swap; · iexact HU
          ipureintro; exact View.read_writes_of_cover _ _ _ _ _ (coverMidU c _ _ _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation (c : Dev nD) : BodyObligation (dat (F := F) V c) (defs₀ (F := F)) Variants.none () Set.univ := fun t => by
  rw [bigSep_W0, bigSep_W0]
  exact sound_body V c t

/-- What the pipeline hands the kernel is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives that back: what the accumulators hold is forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  refine (restWith_open c _ _).trans ?_
  iintro ⟨⟨HG, HU⟩, Hoth⟩
  iapply (restWith_close c _ _)
  isplitl [HG HU]
  · isplitl [HG]; · iexists _; iexact HG
    iexists _; iexact HU
  iexact Hoth

theorem hout (c : Dev nD) : (dat V c).Φ (Fin.last cfg0.N) ⊢ Pipeline.ΦA spec0 c :=
  Phi_out V c _ (by rw [Fin.val_last]; have : cfg0.N = 1376 := N_0; omega)

end Cert.Kernel.R0

end
-- ==== Proof.K.R1Base.lean ====
/-
  The second kernel of the layer (the down projection), seen from one grid point: what the point is handed and
  which of the body's two conditionals it takes.  The grid is 4 x 4 x 43; the last coordinate k walks the 43
  chunks of 256 hidden features.  At k = 0 the body clears its accumulator, at every k it adds one chunk's
  product to it, and at k = 42 it copies the accumulator into the output block.  So a point is of one of three
  kinds: first (k = 0), middle, last (k = 42).  The output block is touched at the last points only.
-/
import proofs.«158660_j59433757442706_2_alg».proof.Proof.Gen.Kernel.Launch
import proofs.«158660_j59433757442706_2_alg».proof.Proof.Gen.Kernel.Skeleton
import proofs.«158660_j59433757442706_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the kernel is entered: a parameter
variable (V : (c : Dev nD) → (b : Ref sig .tc) → Buf (Elt F) ((c : Thread nD τ).loc b))

/-- Window `w`'s block at point `t`, read off its array as the kernel finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not: where it is not fetched the block
    index has not moved. One lemma per input window (hidden activations, weights, scales). -/
theorem held0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The two conditionals, as functions of the point -/

/-- "k = 0", as the body computes it from the last grid coordinate. -/
abbrev isFirst (i : grid1.Coords) : Prop := (Scalar.cmpi .ne (Scalar.extui (Scalar.cmpi .eq (BitVec.ofNat 32 (i 2).val) 0#32)) 0#32) = 1#1
/-- "k = 42". -/
abbrev isLast (i : grid1.Coords) : Prop := k1_cond2 i = 1#1
/-- In row-major order of the grid the chunk index is the point's number modulo 43. -/
theorem isFirst_iff : ∀ t : Fin cfg1.N, isFirst (grid1.coords t) ↔ t.val % 43 = 0 :=
  (by decide +kernel : ∀ t : Fin grid1.N, isFirst (grid1.coords t) ↔ t.val % 43 = 0)
theorem isLast_iff : ∀ t : Fin cfg1.N, isLast (grid1.coords t) ↔ t.val % 43 = 42 :=
  (by decide +kernel : ∀ t : Fin grid1.N, isLast (grid1.coords t) ↔ t.val % 43 = 42)

/-! ## Where a window is in use -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Away from the last chunk the output block is neither stored into nor written back. -/
theorem idle3 : ∀ t : Fin cfg1.N, ¬isLast (grid1.coords t) → cfg1.idle 3 (grid1.coords t) = true := by decide +kernel
theorem noFlush3 : ∀ t : Fin cfg1.N, ¬isLast (grid1.coords t) → (cfg1.win 3).flush t = false := by decide +kernel
theorem live3 : ∀ t : Fin cfg1.N, isLast (grid1.coords t) → cfg1.idle 3 (grid1.coords t) = false := by decide +kernel

/-! ## The memrefs the body is called with -/

abbrev mr0 (t : Fin cfg1.N) : Memref sig .tc .vmem S2048x256 .bf16 := win1_0.stage (cfg1.slots t 0)
abbrev mr0_whole (t : Fin cfg1.N) : (mr0 t).IsWhole := hstage1_0 ((cfg1.slots t 0).cast nbuf1_0)
abbrev mr1 (t : Fin cfg1.N) : Memref sig .tc .vmem S1024x256 .bf16 := win1_1.stage (cfg1.slots t 1)
abbrev mr1_whole (t : Fin cfg1.N) : (mr1 t).IsWhole := hstage1_1 ((cfg1.slots t 1).cast nbuf1_1)
abbrev mr2 (t : Fin cfg1.N) : Memref sig .tc .vmem S1024x1 .f32 := win1_2.stage (cfg1.slots t 2)
abbrev mr2_whole (t : Fin cfg1.N) : (mr2 t).IsWhole := hstage1_2 ((cfg1.slots t 2).cast nbuf1_2)
abbrev mr3 (t : Fin cfg1.N) : Memref sig .tc .vmem S2048x1024 .f32 := win1_3.stage (cfg1.slots t 3)
abbrev mr3_whole (t : Fin cfg1.N) : (mr3 t).IsWhole := hstage1_3 ((cfg1.slots t 3).cast nbuf1_3)
/-- The accumulator: a whole buffer of the kernel's own, kept from one point to the next. -/
abbrev accM : Memref sig .tc .vmem S2048x1024 .f32 := Memref.whole cc1_scratch0
abbrev accV : View sig .tc .vmem S2048x1024 .f32 := accM.view
/-- One staging buffer of the output window, through which its contents are stated. -/
abbrev outV : View sig .tc .vmem S2048x1024 .f32 := (Memref.whole cc1_stg3_0 : Memref sig .tc .vmem S2048x1024 .f32).view

end Cert.Kernel.R1

end
-- ==== Proof.K.R1RunA.lean ====
/-
  The down-projection body at a FIRST chunk (k = 0, not the last): it stores zeros into the accumulator, then loads
  the three input blocks and the accumulator and stores accumulator + product back; the output block is left
  alone.  From whole memrefs holding the inputs' blocks, the output block and the accumulator at any contents,
  the body runs to the end, returns the inputs and the output block as found, and leaves in the accumulator a
  list of stored pieces (found by running the body symbolically).
-/
import proofs.«158660_j59433757442706_2_alg».proof.Proof.K.R1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : isFirst i) (hl : ¬isLast i)
    (x0 : Vec F S2048x256 .bf16) (x1 : Vec F S1024x256 .bf16) (x2 : Vec F S1024x1 .f32) :
    { LS : List (View.Piece (Elt F) S2048x1024 .f32) //
      ∀ (xo : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__mlp2_kernel i arg3 harg3 arg4 harg4 arg5 harg5 arg6 harg6 arg7 harg7) K } := by
  refine ⟨?_, fun xo E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.R1

end
-- ==== Proof.K.R1RunB.lean ====
/-
  The down-projection body at a MIDDLE chunk (neither the first nor the last): it loads the three input blocks and the
  accumulator, stores accumulator + product back, and leaves the output block alone.  The statement: from whole
  memrefs holding the inputs' blocks, the output block at any contents, and the accumulator at what the previous
  point left, the body runs to the end, returns the inputs and the output block as found, and leaves in the
  accumulator a list of stored pieces (found by running the body symbolically).
-/
import proofs.«158660_j59433757442706_2_alg».proof.Proof.K.R1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : ¬isLast i)
    (x0 : Vec F S2048x256 .bf16) (x1 : Vec F S1024x256 .bf16) (x2 : Vec F S1024x1 .f32) (xs : Vec F S2048x1024 .f32) :
    { LS : List (View.Piece (Elt F) S2048x1024 .f32) //
      ∀ (xo : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__mlp2_kernel i arg3 harg3 arg4 harg4 arg5 harg5 arg6 harg6 arg7 harg7) K } := by
  refine ⟨?_, fun xo E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.R1

end
-- ==== Proof.K.R1RunC.lean ====
/-
  The down-projection body at a LAST chunk (k = 42, not the first): it loads the three input blocks and the
  accumulator, stores accumulator + product back, then loads the accumulator again and stores it into the output
  block.  From whole memrefs holding the inputs' blocks, the output block at any contents and the accumulator at
  what the previous point left, the body runs to the end, returns the inputs as found, and leaves lists of stored
  pieces in the output block and in the accumulator (found by running the body symbolically).
-/
import proofs.«158660_j59433757442706_2_alg».proof.Proof.K.R1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : isLast i)
    (x0 : Vec F S2048x256 .bf16) (x1 : Vec F S1024x256 .bf16) (x2 : Vec F S1024x1 .f32) (xs : Vec F S2048x1024 .f32) :
    Σ' (LO : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__mlp2_kernel i arg3 harg3 arg4 harg4 arg5 harg5 arg6 harg6 arg7 harg7) K } := by
  refine ⟨?_, ?_, fun E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.R1

end
-- ==== Proof.K.R1Frame.lean ====
/-
  The down projection over its whole grid.  After the point number n the accumulator holds what the body's stores
  left there at that point, which depends on the point's input blocks and (except at a first chunk) on what the
  point before left: a recursion on n.  The invariant carried from point to point owns the accumulator at exactly
  those contents, beside the other buffers of the core that this kernel never touches.  With it the body's three
  runs (first, middle and last chunk) give the obligation the pipeline asks of a kernel body at every point.
-/
import proofs.«158660_j59433757442706_2_alg».proof.Proof.K.R1RunA
import proofs.«158660_j59433757442706_2_alg».proof.Proof.K.R1RunB
import proofs.«158660_j59433757442706_2_alg».proof.Proof.K.R1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem coverFirst (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : isFirst i) (hl : ¬isLast i) (x0 : Vec F S2048x256 .bf16) (x1 : Vec F S1024x256 .bf16) (x2 : Vec F S1024x1 .f32) (y : S2048x1024.Idx) :
    ∃ pc ∈ (runFirst c i arg3 harg3 arg4 harg4 arg5 harg5 arg6 harg6 arg7 harg7 hf hl x0 x1 x2).1, y ∈ pc.1.set :=
  View.cover_of_tiledL (runFirst c i arg3 harg3 arg4 harg4 arg5 harg5 arg6 harg6 arg7 harg7 hf hl x0 x1 x2).1 S2048x1024.size (by sl_kernel_rfl) y
/-- The accumulator after a first chunk. -/
def accFirst (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : isFirst i) (hl : ¬isLast i) (x0 : Vec F S2048x256 .bf16) (x1 : Vec F S1024x256 .bf16) (x2 : Vec F S1024x1 .f32) : Vec F S2048x1024 .f32 :=
  accV.read (Elt F) (accV.writes (Elt F) accV.junk (runFirst c i arg3 harg3 arg4 harg4 arg5 harg5 arg6 harg6 arg7 harg7 hf hl x0 x1 x2).1)

theorem coverMid (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : ¬isLast i) (x0 : Vec F S2048x256 .bf16) (x1 : Vec F S1024x256 .bf16) (x2 : Vec F S1024x1 .f32) (xs : Vec F S2048x1024 .f32) (y : S2048x1024.Idx) :
    ∃ pc ∈ (runMid c i arg3 harg3 arg4 harg4 arg5 harg5 arg6 harg6 arg7 harg7 hf hl x0 x1 x2 xs).1, y ∈ pc.1.set :=
  View.cover_of_tiledL (runMid c i arg3 harg3 arg4 harg4 arg5 harg5 arg6 harg6 arg7 harg7 hf hl x0 x1 x2 xs).1 S2048x1024.size (by sl_kernel_rfl) y
/-- The accumulator after a middle chunk, from what the point before left (`xs`). -/
def accMid (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : ¬isLast i) (x0 : Vec F S2048x256 .bf16) (x1 : Vec F S1024x256 .bf16) (x2 : Vec F S1024x1 .f32) (xs : Vec F S2048x1024 .f32) : Vec F S2048x1024 .f32 :=
  accV.read (Elt F) (accV.writes (Elt F) accV.junk (runMid c i arg3 harg3 arg4 harg4 arg5 harg5 arg6 harg6 arg7 harg7 hf hl x0 x1 x2 xs).1)

theorem coverLastO (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : isLast i) (x0 : Vec F S2048x256 .bf16) (x1 : Vec F S1024x256 .bf16) (x2 : Vec F S1024x1 .f32) (xs : Vec F S2048x1024 .f32) (y : S2048x1024.Idx) :
    ∃ pc ∈ (runLast c i arg3 harg3 arg4 harg4 arg5 harg5 arg6 harg6 arg7 harg7 hf hl x0 x1 x2 xs).1, y ∈ pc.1.set :=
  View.cover_of_tiledL (runLast c i arg3 harg3 arg4 harg4 arg5 harg5 arg6 harg6 arg7 harg7 hf hl x0 x1 x2 xs).1 S2048x1024.size (by sl_kernel_rfl) y
theorem coverLastS (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : isLast i) (x0 : Vec F S2048x256 .bf16) (x1 : Vec F S1024x256 .bf16) (x2 : Vec F S1024x1 .f32) (xs : Vec F S2048x1024 .f32) (y : S2048x1024.Idx) :
    ∃ pc ∈ (runLast c i arg3 harg3 arg4 harg4 arg5 harg5 arg6 harg6 arg7 harg7 hf hl x0 x1 x2 xs).2.1, y ∈ pc.1.set :=
  View.cover_of_tiledL (runLast c i arg3 harg3 arg4 harg4 arg5 harg5 arg6 harg6 arg7 harg7 hf hl x0 x1 x2 xs).2.1 S2048x1024.size (by sl_kernel_rfl) y
/-- The output block after a last chunk. -/
def outLast (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : isLast i) (x0 : Vec F S2048x256 .bf16) (x1 : Vec F S1024x256 .bf16) (x2 : Vec F S1024x1 .f32) (xs : Vec F S2048x1024 .f32) : Vec F S2048x1024 .f32 :=
  outV.read (Elt F) (outV.writes (Elt F) outV.junk (runLast c i arg3 harg3 arg4 harg4 arg5 harg5 arg6 harg6 arg7 harg7 hf hl x0 x1 x2 xs).1)
/-- The accumulator after a last chunk. -/
def accLast (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : isLast i) (x0 : Vec F S2048x256 .bf16) (x1 : Vec F S1024x256 .bf16) (x2 : Vec F S1024x1 .f32) (xs : Vec F S2048x1024 .f32) : Vec F S2048x1024 .f32 :=
  accV.read (Elt F) (accV.writes (Elt F) accV.junk (runLast c i arg3 harg3 arg4 harg4 arg5 harg5 arg6 harg6 arg7 harg7 hf hl x0 x1 x2 xs).2.1)

/-- A placeholder for the output block where the kernel does not touch it (nothing reads it). -/
def idleOut : Vec F S2048x1024 .f32 := outV.read (Elt F) outV.junk

/-! ## Point by point -/

/-- What point `t` leaves in (output block, accumulator), given what the point before left in the accumulator. -/
def step (c : Dev nD) (t : Fin cfg1.N) (prev : Vec F S2048x1024 .f32) : Vec F S2048x1024 .f32 × Vec F S2048x1024 .f32 :=
  if h0 : t.val % 43 = 0 then
    (idleOut, accFirst c (grid1.coords t) (mr0 t) (mr0_whole t) (mr1 t) (mr1_whole t) (mr2 t) (mr2_whole t) (mr3 t) (mr3_whole t) accM (Memref.isWhole_whole _) ((isFirst_iff t).mpr h0) (fun h => by have := (isLast_iff t).mp h; omega) (blk V c 0 t) (blk V c 1 t) (blk V c 2 t))
  else if h2 : t.val % 43 = 42 then
    (outLast c (grid1.coords t) (mr0 t) (mr0_whole t) (mr1 t) (mr1_whole t) (mr2 t) (mr2_whole t) (mr3 t) (mr3_whole t) accM (Memref.isWhole_whole _) (fun h => h0 ((isFirst_iff t).mp h)) ((isLast_iff t).mpr h2) (blk V c 0 t) (blk V c 1 t) (blk V c 2 t) prev,
     accLast c (grid1.coords t) (mr0 t) (mr0_whole t) (mr1 t) (mr1_whole t) (mr2 t) (mr2_whole t) (mr3 t) (mr3_whole t) accM (Memref.isWhole_whole _) (fun h => h0 ((isFirst_iff t).mp h)) ((isLast_iff t).mpr h2) (blk V c 0 t) (blk V c 1 t) (blk V c 2 t) prev)
  else
    (idleOut, accMid c (grid1.coords t) (mr0 t) (mr0_whole t) (mr1 t) (mr1_whole t) (mr2 t) (mr2_whole t) (mr3 t) (mr3_whole t) accM (Memref.isWhole_whole _) (fun h => h0 ((isFirst_iff t).mp h)) (fun h => h2 ((isLast_iff t).mp h)) (blk V c 0 t) (blk V c 1 t) (blk V c 2 t) prev)

/-- (output block, accumulator) after the point number `n`. -/
def stateAt (c : Dev nD) : (n : ℕ) → n < cfg1.N → Vec F S2048x1024 .f32 × Vec F S2048x1024 .f32
  | 0, hn => step V c ⟨0, hn⟩ idleOut
  | n + 1, hn => step V c ⟨n + 1, hn⟩ (stateAt c n (Nat.lt_of_succ_lt hn)).2

theorem stateAt_pos (c : Dev nD) (t : Fin cfg1.N) (hz : t.val ≠ 0) :
    stateAt V c t.val t.isLt = step V c t (stateAt V c (t.val - 1) (Nat.lt_of_le_of_lt (Nat.sub_le _ _) t.isLt)).2 := by
  obtain ⟨n, hn⟩ := t
  cases n with
  | zero => exact absurd rfl hz
  | succ n => rfl

theorem step_first (c : Dev nD) (t : Fin cfg1.N) (prev : Vec F S2048x1024 .f32) (h0 : t.val % 43 = 0) :
    step V c t prev = (idleOut, accFirst c (grid1.coords t) (mr0 t) (mr0_whole t) (mr1 t) (mr1_whole t) (mr2 t) (mr2_whole t) (mr3 t) (mr3_whole t) accM (Memref.isWhole_whole _) ((isFirst_iff t).mpr h0) (fun h => by have := (isLast_iff t).mp h; omega) (blk V c 0 t) (blk V c 1 t) (blk V c 2 t)) :=
  dif_pos h0
theorem step_last (c : Dev nD) (t : Fin cfg1.N) (prev : Vec F S2048x1024 .f32) (h0 : ¬t.val % 43 = 0) (h2 : t.val % 43 = 42) :
    step V c t prev = (outLast c (grid1.coords t) (mr0 t) (mr0_whole t) (mr1 t) (mr1_whole t) (mr2 t) (mr2_whole t) (mr3 t) (mr3_whole t) accM (Memref.isWhole_whole _) (fun h => h0 ((isFirst_iff t).mp h)) ((isLast_iff t).mpr h2) (blk V c 0 t) (blk V c 1 t) (blk V c 2 t) prev,
     accLast c (grid1.coords t) (mr0 t) (mr0_whole t) (mr1 t) (mr1_whole t) (mr2 t) (mr2_whole t) (mr3 t) (mr3_whole t) accM (Memref.isWhole_whole _) (fun h => h0 ((isFirst_iff t).mp h)) ((isLast_iff t).mpr h2) (blk V c 0 t) (blk V c 1 t) (blk V c 2 t) prev) :=
  (dif_neg h0).trans (dif_pos h2)
theorem step_mid (c : Dev nD) (t : Fin cfg1.N) (prev : Vec F S2048x1024 .f32) (h0 : ¬t.val % 43 = 0) (h2 : ¬t.val % 43 = 42) :
    step V c t prev = (idleOut, accMid c (grid1.coords t) (mr0 t) (mr0_whole t) (mr1 t) (mr1_whole t) (mr2 t) (mr2_whole t) (mr3 t) (mr3_whole t) accM (Memref.isWhole_whole _) (fun h => h0 ((isFirst_iff t).mp h)) (fun h => h2 ((isLast_iff t).mp h)) (blk V c 0 t) (blk V c 1 t) (blk V c 2 t) prev) :=
  (dif_neg h0).trans (dif_neg h2)

/-- At a first chunk what the point before left does not matter. -/
theorem stateAt_first (c : Dev nD) (t : Fin cfg1.N) (h0 : t.val % 43 = 0) :
    stateAt V c t.val t.isLt = (idleOut, accFirst c (grid1.coords t) (mr0 t) (mr0_whole t) (mr1 t) (mr1_whole t) (mr2 t) (mr2_whole t) (mr3 t) (mr3_whole t) accM (Memref.isWhole_whole _) ((isFirst_iff t).mpr h0) (fun h => by have := (isLast_iff t).mp h; omega) (blk V c 0 t) (blk V c 1 t) (blk V c 2 t)) := by
  obtain ⟨n, hn⟩ := t
  cases n with
  | zero => exact step_first V c ⟨0, hn⟩ _ h0
  | succ n => exact step_first V c ⟨n + 1, hn⟩ _ h0

/-! ## The invariant between points -/

/-- The other buffers of the core (the first kernel's staging buffers and accumulators), at any contents, then a
    statement `P` about this kernel's accumulator, and the generator register. -/
def restWith (c : Dev nD) (P : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ P) ∗ ∃ r, prngReg c r)

theorem restWith_open (c : Dev nD) (P : sProp 𝕄) : restWith (F := F) c P ⊢ iprop(P ∗ restWith (F := F) c iprop(emp)) := by
  unfold restWith
  iintro ⟨⟨B0, B1, B2, B3, B4, B5, B6, B7, B8, B9, B10, B11, B12, B13, HP⟩, Hg⟩
  isplitl [HP]; · iexact HP
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  iempintro

theorem restWith_close (c : Dev nD) (P : sProp 𝕄) : iprop(P ∗ restWith (F := F) c iprop(emp)) ⊢ restWith (F := F) c P := by
  unfold restWith
  iintro ⟨HP, ⟨B0, B1, B2, B3, B4, B5, B6, B7, B8, B9, B10, B11, B12, B13, -⟩, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  iexact HP

/-- What the pipeline hands a kernel before its first point is this, with the accumulator at any contents. -/
theorem PhiA_eq (c : Dev nD) :
    (Pipeline.ΦA spec1 c : sProp 𝕄) = restWith (F := F) c iprop(∃ d, owns (c : Thread nD τ) accM fullShare d) := by
  unfold Pipeline.ΦA restWith; rw [scopedRest1_eq]; simp only [accM, owns_whole]; try rfl

/-- Before the point number `n`: at the start what the pipeline hands over; afterwards the accumulator at what the
    point before left. -/
def PhiS (c : Dev nD) : (n : ℕ) → n ≤ cfg1.N → sProp 𝕄
  | 0, _ => Pipeline.ΦA spec1 c
  | n + 1, hn => restWith (F := F) c (owns (c : Thread nD τ) accM fullShare ((stateAt V c n hn).2))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = restWith (F := F) c (owns (c : Thread nD τ) accM fullShare ((stateAt V c n hn).2)) := rfl
theorem PhiS_pos (c : Dev nD) (n : ℕ) (h : n ≤ cfg1.N) (hz : n ≠ 0) :
    PhiS V c n h = restWith (F := F) c (owns (c : Thread nD τ) accM fullShare ((stateAt V c (n - 1) (by omega)).2)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (stateAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = (stateAt V c t.val t.isLt).1 := by dsimp only [dat]
theorem held0 (c : Dev nD) (t : Fin cfg1.N) (d) : (dat V c).before 0 t d = blk V c 0 t :=
  held0_of V (dat V c) (A_eq V c 0) (after0 V c) t d
theorem held1 (c : Dev nD) (t : Fin cfg1.N) (d) : (dat V c).before 1 t d = blk V c 1 t :=
  held1_of V (dat V c) (A_eq V c 1) (after1 V c) t d
theorem held2 (c : Dev nD) (t : Fin cfg1.N) (d) : (dat V c).before 2 t d = blk V c 2 t :=
  held2_of V (dat V c) (A_eq V c 2) (after2 V c) t d

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (mr0 t) fullShare ((dat V c).before 0 t d))
    ∗ (∃ d, owns (c : Thread nD τ) (mr1 t) fullShare ((dat V c).before 1 t d))
    ∗ (∃ d, owns (c : Thread nD τ) (mr2 t) fullShare ((dat V c).before 2 t d))
    ∗ (∃ d, owns (c : Thread nD τ) (mr3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' memrefs hold their blocks; the point's number modulo 43 says which kind of point
    it is, and that kind's run applies; the invariant hands the body the accumulator at what the point before left (at
    anything before the very first point) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [held0, held1, held2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mr0 t) fullShare ((dat V c).after 0 t) from by
      unfold Dat.leavesExact; rw [live0 t], after0]
  rw [show (dat V c).leavesExact 1 t = owns (c : Thread nD τ) (mr1 t) fullShare ((dat V c).after 1 t) from by
      unfold Dat.leavesExact; rw [live1 t], after1]
  rw [show (dat V c).leavesExact 2 t = owns (c : Thread nD τ) (mr2 t) fullShare ((dat V c).after 2 t) from by
      unfold Dat.leavesExact; rw [live2 t], after2]
  have hN : t.val < 688 := lt_of_lt_of_eq t.isLt (show cfg1.N = 688 from N_1)
  by_cases h0 : t.val % 43 = 0
  · -- a first chunk
    rw [Dat.leavesExact_idle (dat V c) 3 t (idle3 t (fun h => by have := (isLast_iff t).mp h; omega)) (noFlush3 t (fun h => by have := (isLast_iff t).mp h; omega))]
    rw [stateAt_first V c t h0]
    unfold accFirst; (try dsimp only)
    by_cases hz : t.val = 0
    · rw [Phi_castSucc V c t, PhiS_zero V c _ _ hz, PhiA_eq]
      refine (sep_mono (restWith_open c _) .rfl).trans ?_
      iintro ⟨⟨HS, Hoth⟩, Ho, ⟨%d0, H0⟩, ⟨%d1, H1⟩, ⟨%d2, H2⟩, ⟨%d3, H3⟩⟩
      iapply ((runFirst c (grid1.coords t) _ _ _ _ _ _ _ _ _ _ ((isFirst_iff t).mpr h0) (fun h => by have := (isLast_iff t).mp h; omega) (blk V c 0 t) (blk V c 1 t) (blk V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth]
      · iapply (restWith_close c _)
        isplitl [HS]
        · unfold owns; iexists _; isplitr
          swap; · iexact HS
          ipureintro; exact View.read_writes_of_cover _ _ _ _ _ (coverFirst c _ _ _ _ _ _ _ _ _ _ _ _ _ _ _ _)
        iexact Hoth
      isplitl [Ho]; · iexact Ho
      isplitl [H0]; · iexact H0
      isplitl [H1]; · iexact H1
      isplitl [H2]; · iexact H2
      iexists _; iexact H3
    · rw [Phi_castSucc V c t, PhiS_pos V c _ _ hz]
      refine (sep_mono (restWith_open c _) .rfl).trans ?_
      iintro ⟨⟨HS, Hoth⟩, Ho, ⟨%d0, H0⟩, ⟨%d1, H1⟩, ⟨%d2, H2⟩, ⟨%d3, H3⟩⟩
      iapply ((runFirst c (grid1.coords t) _ _ _ _ _ _ _ _ _ _ ((isFirst_iff t).mpr h0) (fun h => by have := (isLast_iff t).mp h; omega) (blk V c 0 t) (blk V c 1 t) (blk V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth]
      · iapply (restWith_close c _)
        isplitl [HS]
        · unfold owns; iexists _; isplitr
          swap; · iexact HS
          ipureintro; exact View.read_writes_of_cover _ _ _ _ _ (coverFirst c _ _ _ _ _ _ _ _ _ _ _ _ _ _ _ _)
        iexact Hoth
      isplitl [Ho]; · iexact Ho
      isplitl [H0]; · iexact H0
      isplitl [H1]; · iexact H1
      isplitl [H2]; · iexact H2
      iexists _; iexact H3
  · have hz : t.val ≠ 0 := fun e => h0 (by rw [e])
    rw [Phi_castSucc V c t, PhiS_pos V c _ _ hz, stateAt_pos V c t hz]
    by_cases h2 : t.val % 43 = 42
    · -- a last chunk
      rw [show (dat V c).leavesExact 3 t = owns (c : Thread nD τ) (mr3 t) fullShare ((dat V c).after 3 t) from by
        unfold Dat.leavesExact; rw [live3 t ((isLast_iff t).mpr h2)], after3, stateAt_pos V c t hz]
      rw [step_last V c t _ h0 h2]
      unfold outLast accLast; (try dsimp only)
      refine (sep_mono (restWith_open c _) .rfl).trans ?_
      iintro ⟨⟨HS, Hoth⟩, Ho, ⟨%d0, H0⟩, ⟨%d1, H1⟩, ⟨%d2, H2⟩, ⟨%d3, H3⟩⟩
      iapply ((runLast c (grid1.coords t) _ _ _ _ _ _ _ _ _ _ (fun h => h0 ((isFirst_iff t).mp h)) ((isLast_iff t).mpr h2) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hoth]
      · iapply (restWith_close c _)
        isplitl [HS]
        · unfold owns; iexists _; isplitr
          swap; · iexact HS
          ipureintro; exact View.read_writes_of_cover _ _ _ _ _ (coverLastS c _ _ _ _ _ _ _ _ _ _ _ _ _ _ _ _ _)
        iexact Hoth
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastO c _ _ _ _ _ _ _ _ _ _ _ _ _ _ _ _ _)
    · -- a middle chunk
      rw [Dat.leavesExact_idle (dat V c) 3 t (idle3 t (fun h => h2 ((isLast_iff t).mp h))) (noFlush3 t (fun h => h2 ((isLast_iff t).mp h)))]
      rw [step_mid V c t _ h0 h2]
      unfold accMid; (try dsimp only)
      refine (sep_mono (restWith_open c _) .rfl).trans ?_
      iintro ⟨⟨HS, Hoth⟩, Ho, ⟨%d0, H0⟩, ⟨%d1, H1⟩, ⟨%d2, H2⟩, ⟨%d3, H3⟩⟩
      iapply ((runMid c (grid1.coords t) _ _ _ _ _ _ _ _ _ _ (fun h => h0 ((isFirst_iff t).mp h)) (fun h => h2 ((isLast_iff t).mp h)) (blk V c 0 t) (blk V c 1 t) (blk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth]
      · iapply (restWith_close c _)
        isplitl [HS]
        · unfold owns; iexists _; isplitr
          swap; · iexact HS
          ipureintro; exact View.read_writes_of_cover _ _ _ _ _ (coverMid c _ _ _ _ _ _ _ _ _ _ _ _ _ _ _ _ _)
        iexact Hoth
      isplitl [Ho]; · iexact Ho
      isplitl [H0]; · iexact H0
      isplitl [H1]; · iexact H1
      isplitl [H2]; · iexact H2
      iexists _; iexact H3

/-- The pipeline's body obligation, at every point. -/
theorem body_obligation (c : Dev nD) : BodyObligation (dat (F := F) V c) (defs₀ (F := F)) Variants.none () Set.univ := fun t => by
  rw [bigSep_W1, bigSep_W1]
  exact sound_body V c t

/-- What the pipeline hands the kernel is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives that back: what the accumulator holds is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  refine (restWith_open c _).trans ?_
  iintro ⟨HS, Hoth⟩
  iapply (restWith_close c _)
  isplitl [HS]; · iexists _; iexact HS
  iexact Hoth

theorem hout (c : Dev nD) : (dat V c).Φ (Fin.last cfg1.N) ⊢ Pipeline.ΦA spec1 c :=
  Phi_out V c _ (by rw [Fin.val_last]; have : cfg1.N = 688 := N_1; omega)

end Cert.Kernel.R1

end
-- ==== Proof.K.Whole.lean ====
/-
  The whole layer, from the launch to the return.  The program is a stretch of five host operations (a reshape and
  four conversions), the gate/up kernel, the down-projection kernel, and one closing reshape.  Here the buffers'
  contents are followed through these four steps: after the first stretch, after each kernel (its windows' arrays
  at what the write-backs left, every other buffer untouched), after the closing reshape.  Each kernel enters as a
  segment built from its body obligation and its invariant's two ends; the launch theorem for a list of segments
  then says that every fair execution terminates, faults nowhere, and ends with every unscoped buffer at the last
  of these contents.  From that the arguments are read back unchanged, and the result buffer is named in terms of
  what the second kernel's output window leaves.
-/
import proofs.«158660_j59433757442706_2_alg».proof.Proof.K.R0Frame
import proofs.«158660_j59433757442706_2_alg».proof.Proof.K.R1Frame
import proofs.«158660_j59433757442706_2_alg».proof.Proof.Gen.Kernel.Regions
import Idealize.ShloMosaic.Lib.Pipeline.RegionsLoop
import Idealize.ShloMosaic.Lib.Pipeline.FrameSuffix
import Idealize.ShloMosaic.Lib.StableHlo.Run

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the opening host stretch: what the first kernel is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel: its windows' arrays at what its write-backs leave, every other buffer as before.
    This is also what the second kernel is entered with (no host operation lies between them). -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second kernel. -/
def W3 (c : Dev nD) : Valuation τ sig (Elt F) :=
  Pipeline.withArrays spec1 c (W2 m ρ c) fun w => (R1.dat (V2 m ρ) c).arrAt w cfg1.N
theorem W3_arr (c : Dev nD) (w : Fin cfg1.W) :
    W3 m ρ c (Proc.devRef .tc (Pipeline.arrRef spec1 w)) = (R1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the closing reshape: the end. -/
abbrev W4 : Dev nD → Valuation τ sig (Elt F) := fun c => StableHlo.after hostOps2 (W3 m ρ c)

/-! ## The arguments end as launched

No host operation writes an argument; a kernel reads an argument through an input window (whose array the
write-backs never touch) or not at all. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := (W3_of_ne m ρ c main_arg0 (by decide))
    _ = W1 m ρ c (Proc.devRef .tc main_arg0) := (W2_of_ne m ρ c main_arg0 (by decide))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := (W3_of_ne m ρ c main_arg1 (by decide))
    _ = W1 m ρ c (Proc.devRef .tc main_arg1) := (W2_of_ne m ρ c main_arg1 (by decide))
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := (W3_of_ne m ρ c main_arg2 (by decide))
    _ = W1 m ρ c (Proc.devRef .tc main_arg2) := ((W2_arr m ρ c 2).trans (((R0.dat (V1 m ρ) c).arrAt_in 2 rfl _).trans (R0.A_eq (V1 m ρ) c 2)))
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := (W3_of_ne m ρ c main_arg3 (by decide))
    _ = W1 m ρ c (Proc.devRef .tc main_arg3) := (W2_of_ne m ρ c main_arg3 (by decide))
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := (W3_of_ne m ρ c main_arg4 (by decide))
    _ = W1 m ρ c (Proc.devRef .tc main_arg4) := ((W2_arr m ρ c 4).trans (((R0.dat (V1 m ρ) c).arrAt_in 4 rfl _).trans (R0.A_eq (V1 m ρ) c 4)))
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := (W3_of_ne m ρ c main_arg5 (by decide))
    _ = W1 m ρ c (Proc.devRef .tc main_arg5) := (W2_of_ne m ρ c main_arg5 (by decide))
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := ((W3_arr m ρ c 2).trans (((R1.dat (V2 m ρ) c).arrAt_in 2 rfl _).trans (R1.A_eq (V2 m ρ) c 2)))
    _ = W1 m ρ c (Proc.devRef .tc main_arg6) := (W2_of_ne m ρ c main_arg6 (by decide))
    _ = W0 m ρ c (Proc.devRef .tc main_arg6) := StableHlo.after_of_writes_sub hostOps0 _ hostOps0_writes (by decide)
    _ = m ((c : Thread nD τ).loc main_arg6) := rfl

/-! ## The proof data of both kernels and the state between segments -/

/-- Each kernel's proof data, at the contents it is entered with. -/
def pdats : (p : Fin 2) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V2 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those held between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the dues: every unscoped buffer at the final contents, the generator register. -/
abbrev Tₙ (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- Kernel 0 as a segment: entered with every unscoped buffer at the contents before it, left with them at the
    contents after it.  Its windows' arrays are taken out of the unscoped buffers on the way in and put back, at what
    the write-backs left, on the way out; the generator register goes into the kernel's invariant and comes back;
    nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (V1 m ρ) c)
    unfold Pipeline.ΦA
    iintro ⟨Hp, -, Hr⟩
    isplitl [Hr]; · iexact Hr
    iexact Hp
  hout c := by
    rw [Pipeline.ownSems0_none]
    refine BIBase.Entails.trans (R0.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as a segment: entered with every unscoped buffer at the contents before it, left with them at the
    contents after it.  Its windows' arrays are taken out of the unscoped buffers on the way in and put back, at what
    the write-backs left, on the way out; the generator register goes into the kernel's invariant and comes back;
    nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (V2 m ρ) c)
    unfold Pipeline.ΦA
    iintro ⟨Hp, -, Hr⟩
    isplitl [Hr]; · iexact Hr
    iexact Hp
  hout c := by
    rw [Pipeline.ownSems0_none]
    refine BIBase.Entails.trans (R1.hout (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of these segments. -/
theorem main_run (c : Dev nD) : main (F := F) c = Pipeline.Seg.run (segs m ρ) := (main_chain c).trans (by chain_rfl)

set_option backward.isDefEq.respectTransparency.types false in
/-- From any memory with zero counters, every weakly fair execution of the program terminates, nothing faulting,
    and every final state has every unscoped buffer at the final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ (∃ r, prngReg c r) ∗ ∃ W, owes (c : Thread nD τ) (0 : CellTallies nD τ sig Unit) W)
        ⊢ iprop((StableHlo.held (c : Thread nD τ) (Pipeline.ucRefs τ sig) (W4 m ρ c) ∗ ∃ r, prngReg c r) ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-! ## What the named buffers hold at each boundary -/

/-- The result is the second kernel's output array, reshaped. -/
theorem W4_main_v7 (c : Dev nD) :
    (W4 m ρ c (Proc.devRef .tc main_v7) : (⟨S4x2048x4096, .f32⟩ : BufTy).Contents (Elt F))
      = shapeCast S4x2048x4096 (W3 m ρ c (Proc.devRef .tc main_v6) : (⟨S8192x4096, .f32⟩ : BufTy).Contents (Elt F)) shapeCasts_S8192x4096_S4x2048x4096 := by
  show StableHlo.after hostOps2 _ _ = _
  after_results <;> rfl
/-- The second kernel's output array holds what its write-backs leave. -/
theorem W3_main_v6 (c : Dev nD) : W3 m ρ c (Proc.devRef .tc main_v6) = (R1.dat (V2 m ρ) c).arrAt 3 cfg1.N :=
  W3_arr m ρ c 3
/-- The first kernel's output array holds what its write-backs leave; the second kernel's other inputs are as the
    first kernel found them. -/
theorem V2_main_v5 (c : Dev nD) : V2 m ρ c main_v5 = (R0.dat (V1 m ρ) c).arrAt 5 cfg0.N :=
  W2_arr m ρ c 5
theorem V2_main_v4 (c : Dev nD) : V2 m ρ c main_v4 = V1 m ρ c main_v4 :=
  W2_of_ne m ρ c main_v4 (by decide)
theorem V2_main_arg6 (c : Dev nD) : V2 m ρ c main_arg6 = V1 m ρ c main_arg6 :=
  W2_of_ne m ρ c main_arg6 (by decide)
/-- What the opening host stretch leaves: the activations flattened to rows and rounded, the three integer weight
    arrays converted; the scale arrays are untouched arguments. -/
theorem V1_main_v1 (c : Dev nD) :
    (V1 m ρ c main_v1 : (⟨S8192x4096, .bf16⟩ : BufTy).Contents (Elt F))
      = truncf .bf16 (shapeCast S8192x4096 (m ((c : Thread nD τ).loc main_arg0) : (⟨S4x2048x4096, .f32⟩ : BufTy).Contents (Elt F)) shapeCasts_S4x2048x4096_S8192x4096) bitsLt_bf16_f32 := by
  show StableHlo.after hostOps0 _ _ = _
  after_results <;> rfl
theorem V1_main_v2 (c : Dev nD) :
    (V1 m ρ c main_v2 : (⟨S11008x4096, .bf16⟩ : BufTy).Contents (Elt F))
      = sitofp .bf16 (m ((c : Thread nD τ).loc main_arg1) : (⟨S11008x4096, .i32⟩ : BufTy).Contents (Elt F)) := by
  show StableHlo.after hostOps0 _ _ = _
  after_results <;> rfl
theorem V1_main_v3 (c : Dev nD) :
    (V1 m ρ c main_v3 : (⟨S11008x4096, .bf16⟩ : BufTy).Contents (Elt F))
      = sitofp .bf16 (m ((c : Thread nD τ).loc main_arg3) : (⟨S11008x4096, .i32⟩ : BufTy).Contents (Elt F)) := by
  show StableHlo.after hostOps0 _ _ = _
  after_results <;> rfl
theorem V1_main_v4 (c : Dev nD) :
    (V1 m ρ c main_v4 : (⟨S4096x11008, .bf16⟩ : BufTy).Contents (Elt F))
      = sitofp .bf16 (m ((c : Thread nD τ).loc main_arg5) : (⟨S4096x11008, .i32⟩ : BufTy).Contents (Elt F)) := by
  show StableHlo.after hostOps0 _ _ = _
  after_results <;> rfl
theorem V1_main_arg2 (c : Dev nD) : V1 m ρ c main_arg2 = m ((c : Thread nD τ).loc main_arg2) :=
  StableHlo.after_of_writes_sub hostOps0 _ hostOps0_writes (by decide)
theorem V1_main_arg4 (c : Dev nD) : V1 m ρ c main_arg4 = m ((c : Thread nD τ).loc main_arg4) :=
  StableHlo.after_of_writes_sub hostOps0 _ hostOps0_writes (by decide)
theorem V1_main_arg6 (c : Dev nD) : V1 m ρ c main_arg6 = m ((c : Thread nD τ).loc main_arg6) :=
  StableHlo.after_of_writes_sub hostOps0 _ hostOps0_writes (by decide)

end Cert.Kernel.Whole

end
-- ==== Proof.KI.R0Base.lean ====
/-
  The first kernel of the layer (gate and up projections, then silu(gate) * up), seen from one grid point: what
  the point is handed and which of the body's two conditionals it takes.  The grid is 8 x 43 x 4; the last
  coordinate k walks the 4 chunks of 1024 input features.  At k = 0 the body clears its two accumulators, at
  every k it adds one chunk's two products to them, and at k = 3 it stores silu(gate) * up into the output block.
  So a point is of one of three kinds: first (k = 0), middle, last (k = 3).  The output block is touched at the
  last points only.
-/
import proofs.«158660_j59433757442706_2_alg».proof.Proof.Gen.KernelIdeal.Launch
import proofs.«158660_j59433757442706_2_alg».proof.Proof.Gen.KernelIdeal.Skeleton
import proofs.«158660_j59433757442706_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the kernel is entered: a parameter
variable (V : (c : Dev nD) → (b : Ref sig .tc) → Buf (Elt F) ((c : Thread nD τ).loc b))

/-- Window `w`'s block at point `t`, read off its array as the kernel finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not: where it is not fetched the block
    index has not moved. One lemma per input window (token rows, gate weights, gate scales, up weights, up scales). -/
theorem held0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4_of {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The two conditionals, as functions of the point -/

/-- "k = 0", as the body computes it from the last grid coordinate. -/
abbrev isFirst (i : grid0.Coords) : Prop := (Scalar.cmpi .ne (Scalar.extui (Scalar.cmpi .eq (BitVec.ofNat 32 (i 2).val) 0#32)) 0#32) = 1#1
/-- "k = 3". -/
abbrev isLast (i : grid0.Coords) : Prop := k0_cond2 i = 1#1
/-- In row-major order of the grid the chunk index is the point's number modulo 4. -/
theorem isFirst_iff : ∀ t : Fin cfg0.N, isFirst (grid0.coords t) ↔ t.val % 4 = 0 :=
  (by decide +kernel : ∀ t : Fin grid0.N, isFirst (grid0.coords t) ↔ t.val % 4 = 0)
theorem isLast_iff : ∀ t : Fin cfg0.N, isLast (grid0.coords t) ↔ t.val % 4 = 3 :=
  (by decide +kernel : ∀ t : Fin grid0.N, isLast (grid0.coords t) ↔ t.val % 4 = 3)

/-! ## Where a window is in use -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last chunk the output block is neither stored into nor written back. -/
theorem idle5 : ∀ t : Fin cfg0.N, ¬isLast (grid0.coords t) → cfg0.idle 5 (grid0.coords t) = true := by decide +kernel
theorem noFlush5 : ∀ t : Fin cfg0.N, ¬isLast (grid0.coords t) → (cfg0.win 5).flush t = false := by decide +kernel
theorem live5 : ∀ t : Fin cfg0.N, isLast (grid0.coords t) → cfg0.idle 5 (grid0.coords t) = false := by decide +kernel

/-! ## The memrefs the body is called with -/

abbrev mr0 (t : Fin cfg0.N) : Memref sig .tc .vmem S1024x4096 .bf16 := win0_0.stage (cfg0.slots t 0)
abbrev mr0_whole (t : Fin cfg0.N) : (mr0 t).IsWhole := hstage0_0 ((cfg0.slots t 0).cast nbuf0_0)
abbrev mr1 (t : Fin cfg0.N) : Memref sig .tc .vmem S256x1024 .bf16 := win0_1.stage (cfg0.slots t 1)
abbrev mr1_whole (t : Fin cfg0.N) : (mr1 t).IsWhole := hstage0_1 ((cfg0.slots t 1).cast nbuf0_1)
abbrev mr2 (t : Fin cfg0.N) : Memref sig .tc .vmem S256x1 .f32 := win0_2.stage (cfg0.slots t 2)
abbrev mr2_whole (t : Fin cfg0.N) : (mr2 t).IsWhole := hstage0_2 ((cfg0.slots t 2).cast nbuf0_2)
abbrev mr3 (t : Fin cfg0.N) : Memref sig .tc .vmem S256x1024 .bf16 := win0_3.stage (cfg0.slots t 3)
abbrev mr3_whole (t : Fin cfg0.N) : (mr3 t).IsWhole := hstage0_3 ((cfg0.slots t 3).cast nbuf0_3)
abbrev mr4 (t : Fin cfg0.N) : Memref sig .tc .vmem S256x1 .f32 := win0_4.stage (cfg0.slots t 4)
abbrev mr4_whole (t : Fin cfg0.N) : (mr4 t).IsWhole := hstage0_4 ((cfg0.slots t 4).cast nbuf0_4)
abbrev mr5 (t : Fin cfg0.N) : Memref sig .tc .vmem S1024x256 .bf16 := win0_5.stage (cfg0.slots t 5)
abbrev mr5_whole (t : Fin cfg0.N) : (mr5 t).IsWhole := hstage0_5 ((cfg0.slots t 5).cast nbuf0_5)
/-- The two accumulators (gate, up): whole buffers of the kernel's own, kept from one point to the next. -/
abbrev accG : Memref sig .tc .vmem S1024x256 .f32 := Memref.whole cc0_scratch0
abbrev accU : Memref sig .tc .vmem S1024x256 .f32 := Memref.whole cc0_scratch1
abbrev accGV : View sig .tc .vmem S1024x256 .f32 := accG.view
abbrev accUV : View sig .tc .vmem S1024x256 .f32 := accU.view
/-- One staging buffer of the output window, through which its contents are stated. -/
abbrev outV : View sig .tc .vmem S1024x256 .bf16 := (Memref.whole cc0_stg5_0 : Memref sig .tc .vmem S1024x256 .bf16).view

end Cert.KernelIdeal.R0

end
-- ==== Proof.KI.R0RunA.lean ====
/-
  The first kernel's body at a FIRST chunk (k = 0, not the last): it stores zeros into both accumulators, then loads
  the five input blocks and the accumulators and stores accumulator + product back into each; the output block is
  left alone.  From whole memrefs holding the inputs' blocks, the output block and both accumulators at any
  contents, the body runs to the end, returns the inputs and the output block as found, and leaves in each
  accumulator a list of stored pieces (found by running the body symbolically).
-/
import proofs.«158660_j59433757442706_2_alg».proof.Proof.KI.R0Base

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : isFirst i) (hl : ¬isLast i)
    (x0 : Vec F S1024x4096 .bf16) (x1 : Vec F S256x1024 .bf16) (x2 : Vec F S256x1 .f32) (x3 : Vec F S256x1024 .bf16) (x4 : Vec F S256x1 .f32) :
    Σ' (LG : List (View.Piece (Elt F) S1024x256 .f32)), { LU : List (View.Piece (Elt F) S1024x256 .f32) //
      ∀ (xo : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LG) ∗ (∃ f, arg10.view.loc (c : Thread nD τ) ↦[arg10.view.set]{fullShare} arg10.view.writes (Elt F) f LU)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10) K } := by
  refine ⟨?_, ?_, fun xo E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dg, %fg, -, HG⟩, ⟨%du, %fu, -, HU⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HG]; · iexists _; iexact HG
    iexists _; iexact HU

end Cert.KernelIdeal.R0

end
-- ==== Proof.KI.R0RunB.lean ====
/-
  The first kernel's body at a MIDDLE chunk (neither the first nor the last): it loads the five input blocks and the
  two accumulators, stores accumulator + product back into each, and leaves the output block alone.  From whole
  memrefs holding the inputs' blocks, the output block at any contents, and the accumulators at what the previous
  point left, the body runs to the end, returns the inputs and the output block as found, and leaves in each
  accumulator a list of stored pieces (found by running the body symbolically).
-/
import proofs.«158660_j59433757442706_2_alg».proof.Proof.KI.R0Base

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : ¬isLast i)
    (x0 : Vec F S1024x4096 .bf16) (x1 : Vec F S256x1024 .bf16) (x2 : Vec F S256x1 .f32) (x3 : Vec F S256x1024 .bf16) (x4 : Vec F S256x1 .f32) (xg xu : Vec F S1024x256 .f32) :
    Σ' (LG : List (View.Piece (Elt F) S1024x256 .f32)), { LU : List (View.Piece (Elt F) S1024x256 .f32) //
      ∀ (xo : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ owns (c : Thread nD τ) arg9 fullShare xg ∗ owns (c : Thread nD τ) arg10 fullShare xu
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ (∃ f, arg9.view.loc (c : Thread nD τ) ↦[arg9.view.set]{fullShare} arg9.view.writes (Elt F) f LG) ∗ (∃ f, arg10.view.loc (c : Thread nD τ) ↦[arg10.view.set]{fullShare} arg10.view.writes (Elt F) f LU)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10) K } := by
  refine ⟨?_, ?_, fun xo E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fg, %hfg, HG⟩, ⟨%fu, %hfu, HU⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfg; obtain rfl := harg10.eq_unread hfu
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HG]; · iexists _; iexact HG
    iexists _; iexact HU

end Cert.KernelIdeal.R0

end
-- ==== Proof.KI.R0RunC.lean ====
/-
  The first kernel's body at a LAST chunk (k = 3, not the first): it loads the five input blocks and the two
  accumulators, stores accumulator + product back into each, then loads both accumulators again and stores
  silu(gate) * up into the output block.  From whole memrefs holding the inputs' blocks, the output block at any
  contents and the accumulators at what the previous point left, the body runs to the end, returns the inputs as
  found, and leaves lists of stored pieces in the output block and in each accumulator (found by running the body
  symbolically).
-/
import proofs.«158660_j59433757442706_2_alg».proof.Proof.KI.R0Base

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i)
    (x0 : Vec F S1024x4096 .bf16) (x1 : Vec F S256x1024 .bf16) (x2 : Vec F S256x1 .f32) (x3 : Vec F S256x1024 .bf16) (x4 : Vec F S256x1 .f32) (xg xu : Vec F S1024x256 .f32) :
    Σ' (LO : List (View.Piece (Elt F) S1024x256 .bf16)) (LG : List (View.Piece (Elt F) S1024x256 .f32)), { LU : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xg ∗ owns (c : Thread nD τ) arg10 fullShare xu
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LG) ∗ (∃ f, arg10.view.loc (c : Thread nD τ) ↦[arg10.view.set]{fullShare} arg10.view.writes (Elt F) f LU)) -∗ K ⟨⟩))
          ⊢ wp frame (wpE (defs₀ (F := F)) Variants.none c none) E (cc0__mlp1_kernel i arg3 harg3 arg4 harg4 arg5 harg5 arg6 harg6 arg7 harg7 arg8 harg8 arg9 harg9 arg10 harg10) K } := by
  refine ⟨?_, ?_, ?_, fun E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fg, %hfg, HG⟩, ⟨%fu, %hfu, HU⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfg; obtain rfl := harg10.eq_unread hfu
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HG]; · iexists _; iexact HG
    iexists _; iexact HU

end Cert.KernelIdeal.R0

end
-- ==== Proof.KI.R0Frame.lean ====
/-
  The first kernel over its whole grid.  After the point number n the two accumulators hold what the body's stores
  left there at that point, which depends on the point's input blocks and (except at a first chunk) on what the
  point before left: a recursion on n.  The invariant carried from point to point owns both accumulators at
  exactly those contents, beside the other buffers of the core that this kernel never touches.  With it the
  body's three runs (first, middle and last chunk) give the obligation the pipeline asks of a kernel body at
  every point.
-/
import proofs.«158660_j59433757442706_2_alg».proof.Proof.KI.R0RunA
import proofs.«158660_j59433757442706_2_alg».proof.Proof.KI.R0RunB
import proofs.«158660_j59433757442706_2_alg».proof.Proof.KI.R0RunC

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem coverFirstG (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : isFirst i) (hl : ¬isLast i) (x0 : Vec F S1024x4096 .bf16) (x1 : Vec F S256x1024 .bf16) (x2 : Vec F S256x1 .f32) (x3 : Vec F S256x1024 .bf16) (x4 : Vec F S256x1 .f32) (y : S1024x256.Idx) :
    ∃ pc ∈ (runFirst c i arg3 harg3 arg4 harg4 arg5 harg5 arg6 harg6 arg7 harg7 arg8 harg8 arg9 harg9 arg10 harg10 hf hl x0 x1 x2 x3 x4).1, y ∈ pc.1.set :=
  View.cover_of_tiledL (runFirst c i arg3 harg3 arg4 harg4 arg5 harg5 arg6 harg6 arg7 harg7 arg8 harg8 arg9 harg9 arg10 harg10 hf hl x0 x1 x2 x3 x4).1 S1024x256.size (by sl_kernel_rfl) y
theorem coverFirstU (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : isFirst i) (hl : ¬isLast i) (x0 : Vec F S1024x4096 .bf16) (x1 : Vec F S256x1024 .bf16) (x2 : Vec F S256x1 .f32) (x3 : Vec F S256x1024 .bf16) (x4 : Vec F S256x1 .f32) (y : S1024x256.Idx) :
    ∃ pc ∈ (runFirst c i arg3 harg3 arg4 harg4 arg5 harg5 arg6 harg6 arg7 harg7 arg8 harg8 arg9 harg9 arg10 harg10 hf hl x0 x1 x2 x3 x4).2.1, y ∈ pc.1.set :=
  View.cover_of_tiledL (runFirst c i arg3 harg3 arg4 harg4 arg5 harg5 arg6 harg6 arg7 harg7 arg8 harg8 arg9 harg9 arg10 harg10 hf hl x0 x1 x2 x3 x4).2.1 S1024x256.size (by sl_kernel_rfl) y
/-- The gate accumulator after a first chunk. -/
def accFirstG (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : isFirst i) (hl : ¬isLast i) (x0 : Vec F S1024x4096 .bf16) (x1 : Vec F S256x1024 .bf16) (x2 : Vec F S256x1 .f32) (x3 : Vec F S256x1024 .bf16) (x4 : Vec F S256x1 .f32) : Vec F S1024x256 .f32 :=
  accGV.read (Elt F) (accGV.writes (Elt F) accGV.junk (runFirst c i arg3 harg3 arg4 harg4 arg5 harg5 arg6 harg6 arg7 harg7 arg8 harg8 arg9 harg9 arg10 harg10 hf hl x0 x1 x2 x3 x4).1)
/-- The up accumulator after a first chunk. -/
def accFirstU (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : isFirst i) (hl : ¬isLast i) (x0 : Vec F S1024x4096 .bf16) (x1 : Vec F S256x1024 .bf16) (x2 : Vec F S256x1 .f32) (x3 : Vec F S256x1024 .bf16) (x4 : Vec F S256x1 .f32) : Vec F S1024x256 .f32 :=
  accUV.read (Elt F) (accUV.writes (Elt F) accUV.junk (runFirst c i arg3 harg3 arg4 harg4 arg5 harg5 arg6 harg6 arg7 harg7 arg8 harg8 arg9 harg9 arg10 harg10 hf hl x0 x1 x2 x3 x4).2.1)

theorem coverMidG (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : ¬isLast i) (x0 : Vec F S1024x4096 .bf16) (x1 : Vec F S256x1024 .bf16) (x2 : Vec F S256x1 .f32) (x3 : Vec F S256x1024 .bf16) (x4 : Vec F S256x1 .f32) (xg xu : Vec F S1024x256 .f32) (y : S1024x256.Idx) :
    ∃ pc ∈ (runMid c i arg3 harg3 arg4 harg4 arg5 harg5 arg6 harg6 arg7 harg7 arg8 harg8 arg9 harg9 arg10 harg10 hf hl x0 x1 x2 x3 x4 xg xu).1, y ∈ pc.1.set :=
  View.cover_of_tiledL (runMid c i arg3 harg3 arg4 harg4 arg5 harg5 arg6 harg6 arg7 harg7 arg8 harg8 arg9 harg9 arg10 harg10 hf hl x0 x1 x2 x3 x4 xg xu).1 S1024x256.size (by sl_kernel_rfl) y
theorem coverMidU (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : ¬isLast i) (x0 : Vec F S1024x4096 .bf16) (x1 : Vec F S256x1024 .bf16) (x2 : Vec F S256x1 .f32) (x3 : Vec F S256x1024 .bf16) (x4 : Vec F S256x1 .f32) (xg xu : Vec F S1024x256 .f32) (y : S1024x256.Idx) :
    ∃ pc ∈ (runMid c i arg3 harg3 arg4 harg4 arg5 harg5 arg6 harg6 arg7 harg7 arg8 harg8 arg9 harg9 arg10 harg10 hf hl x0 x1 x2 x3 x4 xg xu).2.1, y ∈ pc.1.set :=
  View.cover_of_tiledL (runMid c i arg3 harg3 arg4 harg4 arg5 harg5 arg6 harg6 arg7 harg7 arg8 harg8 arg9 harg9 arg10 harg10 hf hl x0 x1 x2 x3 x4 xg xu).2.1 S1024x256.size (by sl_kernel_rfl) y
/-- The gate accumulator after a middle chunk, from what the point before left. -/
def accMidG (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : ¬isLast i) (x0 : Vec F S1024x4096 .bf16) (x1 : Vec F S256x1024 .bf16) (x2 : Vec F S256x1 .f32) (x3 : Vec F S256x1024 .bf16) (x4 : Vec F S256x1 .f32) (xg xu : Vec F S1024x256 .f32) : Vec F S1024x256 .f32 :=
  accGV.read (Elt F) (accGV.writes (Elt F) accGV.junk (runMid c i arg3 harg3 arg4 harg4 arg5 harg5 arg6 harg6 arg7 harg7 arg8 harg8 arg9 harg9 arg10 harg10 hf hl x0 x1 x2 x3 x4 xg xu).1)
/-- The up accumulator after a middle chunk, from what the point before left. -/
def accMidU (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : ¬isLast i) (x0 : Vec F S1024x4096 .bf16) (x1 : Vec F S256x1024 .bf16) (x2 : Vec F S256x1 .f32) (x3 : Vec F S256x1024 .bf16) (x4 : Vec F S256x1 .f32) (xg xu : Vec F S1024x256 .f32) : Vec F S1024x256 .f32 :=
  accUV.read (Elt F) (accUV.writes (Elt F) accUV.junk (runMid c i arg3 harg3 arg4 harg4 arg5 harg5 arg6 harg6 arg7 harg7 arg8 harg8 arg9 harg9 arg10 harg10 hf hl x0 x1 x2 x3 x4 xg xu).2.1)

theorem coverLastO (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) (y : S1024x256.Idx) :
    ∃ pc ∈ (runLast c i arg3 harg3 arg4 harg4 arg5 harg5 arg6 harg6 arg7 harg7 arg8 harg8 arg9 harg9 arg10 harg10 hf hl x0 x1 x2 x3 x4 xg xu).1, y ∈ pc.1.set :=
  View.cover_of_tiledL (runLast c i arg3 harg3 arg4 harg4 arg5 harg5 arg6 harg6 arg7 harg7 arg8 harg8 arg9 harg9 arg10 harg10 hf hl x0 x1 x2 x3 x4 xg xu).1 S1024x256.size (by sl_kernel_rfl) y
theorem coverLastG (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) (y : S1024x256.Idx) :
    ∃ pc ∈ (runLast c i arg3 harg3 arg4 harg4 arg5 harg5 arg6 harg6 arg7 harg7 arg8 harg8 arg9 harg9 arg10 harg10 hf hl x0 x1 x2 x3 x4 xg xu).2.1, y ∈ pc.1.set :=
  View.cover_of_tiledL (runLast c i arg3 harg3 arg4 harg4 arg5 harg5 arg6 harg6 arg7 harg7 arg8 harg8 arg9 harg9 arg10 harg10 hf hl x0 x1 x2 x3 x4 xg xu).2.1 S1024x256.size (by sl_kernel_rfl) y
theorem coverLastU (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) (y : S1024x256.Idx) :
    ∃ pc ∈ (runLast c i arg3 harg3 arg4 harg4 arg5 harg5 arg6 harg6 arg7 harg7 arg8 harg8 arg9 harg9 arg10 harg10 hf hl x0 x1 x2 x3 x4 xg xu).2.2.1, y ∈ pc.1.set :=
  View.cover_of_tiledL (runLast c i arg3 harg3 arg4 harg4 arg5 harg5 arg6 harg6 arg7 harg7 arg8 harg8 arg9 harg9 arg10 harg10 hf hl x0 x1 x2 x3 x4 xg xu).2.2.1 S1024x256.size (by sl_kernel_rfl) y
/-- The output block after a last chunk. -/
def outLast (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) : Vec F S1024x256 .bf16 :=
  outV.read (Elt F) (outV.writes (Elt F) outV.junk (runLast c i arg3 harg3 arg4 harg4 arg5 harg5 arg6 harg6 arg7 harg7 arg8 harg8 arg9 harg9 arg10 harg10 hf hl x0 x1 x2 x3 x4 xg xu).1)
/-- The gate accumulator after a last chunk. -/
def accLastG (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) : Vec F S1024x256 .f32 :=
  accGV.read (Elt F) (accGV.writes (Elt F) accGV.junk (runLast c i arg3 harg3 arg4 harg4 arg5 harg5 arg6 harg6 arg7 harg7 arg8 harg8 arg9 harg9 arg10 harg10 hf hl x0 x1 x2 x3 x4 xg xu).2.1)
/-- The up accumulator after a last chunk. -/
def accLastU (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) : Vec F S1024x256 .f32 :=
  accUV.read (Elt F) (accUV.writes (Elt F) accUV.junk (runLast c i arg3 harg3 arg4 harg4 arg5 harg5 arg6 harg6 arg7 harg7 arg8 harg8 arg9 harg9 arg10 harg10 hf hl x0 x1 x2 x3 x4 xg xu).2.2.1)

/-- A placeholder for the output block where the kernel does not touch it (nothing reads it). -/
def idleOut : Vec F S1024x256 .bf16 := outV.read (Elt F) outV.junk
/-- A placeholder for an accumulator before the very first point (nothing reads it). -/
def idleAcc : Vec F S1024x256 .f32 := accGV.read (Elt F) accGV.junk

/-! ## Point by point -/

/-- What point `t` leaves in (output block, gate accumulator, up accumulator), given what the point before left in the
    two accumulators. -/
def step (c : Dev nD) (t : Fin cfg0.N) (pg pu : Vec F S1024x256 .f32) : Vec F S1024x256 .bf16 × Vec F S1024x256 .f32 × Vec F S1024x256 .f32 :=
  if h0 : t.val % 4 = 0 then
    (idleOut, accFirstG c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) ((isFirst_iff t).mpr h0) (fun h => by have := (isLast_iff t).mp h; omega) (blk V c 0 t) (blk V c 1 t) (blk V c 2 t) (blk V c 3 t) (blk V c 4 t), accFirstU c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) ((isFirst_iff t).mpr h0) (fun h => by have := (isLast_iff t).mp h; omega) (blk V c 0 t) (blk V c 1 t) (blk V c 2 t) (blk V c 3 t) (blk V c 4 t))
  else if h2 : t.val % 4 = 3 then
    (outLast c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) ((isLast_iff t).mpr h2) (blk V c 0 t) (blk V c 1 t) (blk V c 2 t) (blk V c 3 t) (blk V c 4 t) pg pu,
     accLastG c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) ((isLast_iff t).mpr h2) (blk V c 0 t) (blk V c 1 t) (blk V c 2 t) (blk V c 3 t) (blk V c 4 t) pg pu,
     accLastU c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) ((isLast_iff t).mpr h2) (blk V c 0 t) (blk V c 1 t) (blk V c 2 t) (blk V c 3 t) (blk V c 4 t) pg pu)
  else
    (idleOut, accMidG c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) (fun h => h2 ((isLast_iff t).mp h)) (blk V c 0 t) (blk V c 1 t) (blk V c 2 t) (blk V c 3 t) (blk V c 4 t) pg pu, accMidU c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) (fun h => h2 ((isLast_iff t).mp h)) (blk V c 0 t) (blk V c 1 t) (blk V c 2 t) (blk V c 3 t) (blk V c 4 t) pg pu)

/-- (output block, gate accumulator, up accumulator) after the point number `n`. -/
def stateAt (c : Dev nD) : (n : ℕ) → n < cfg0.N → Vec F S1024x256 .bf16 × Vec F S1024x256 .f32 × Vec F S1024x256 .f32
  | 0, hn => step V c ⟨0, hn⟩ idleAcc idleAcc
  | n + 1, hn => step V c ⟨n + 1, hn⟩ (stateAt c n (Nat.lt_of_succ_lt hn)).2.1 (stateAt c n (Nat.lt_of_succ_lt hn)).2.2

theorem stateAt_pos (c : Dev nD) (t : Fin cfg0.N) (hz : t.val ≠ 0) :
    stateAt V c t.val t.isLt = step V c t (stateAt V c (t.val - 1) (Nat.lt_of_le_of_lt (Nat.sub_le _ _) t.isLt)).2.1 (stateAt V c (t.val - 1) (Nat.lt_of_le_of_lt (Nat.sub_le _ _) t.isLt)).2.2 := by
  obtain ⟨n, hn⟩ := t
  cases n with
  | zero => exact absurd rfl hz
  | succ n => rfl

theorem step_first (c : Dev nD) (t : Fin cfg0.N) (pg pu : Vec F S1024x256 .f32) (h0 : t.val % 4 = 0) :
    step V c t pg pu = (idleOut, accFirstG c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) ((isFirst_iff t).mpr h0) (fun h => by have := (isLast_iff t).mp h; omega) (blk V c 0 t) (blk V c 1 t) (blk V c 2 t) (blk V c 3 t) (blk V c 4 t), accFirstU c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) ((isFirst_iff t).mpr h0) (fun h => by have := (isLast_iff t).mp h; omega) (blk V c 0 t) (blk V c 1 t) (blk V c 2 t) (blk V c 3 t) (blk V c 4 t)) :=
  dif_pos h0
theorem step_last (c : Dev nD) (t : Fin cfg0.N) (pg pu : Vec F S1024x256 .f32) (h0 : ¬t.val % 4 = 0) (h2 : t.val % 4 = 3) :
    step V c t pg pu = (outLast c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) ((isLast_iff t).mpr h2) (blk V c 0 t) (blk V c 1 t) (blk V c 2 t) (blk V c 3 t) (blk V c 4 t) pg pu,
     accLastG c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) ((isLast_iff t).mpr h2) (blk V c 0 t) (blk V c 1 t) (blk V c 2 t) (blk V c 3 t) (blk V c 4 t) pg pu,
     accLastU c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) ((isLast_iff t).mpr h2) (blk V c 0 t) (blk V c 1 t) (blk V c 2 t) (blk V c 3 t) (blk V c 4 t) pg pu) :=
  (dif_neg h0).trans (dif_pos h2)
theorem step_mid (c : Dev nD) (t : Fin cfg0.N) (pg pu : Vec F S1024x256 .f32) (h0 : ¬t.val % 4 = 0) (h2 : ¬t.val % 4 = 3) :
    step V c t pg pu = (idleOut, accMidG c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) (fun h => h2 ((isLast_iff t).mp h)) (blk V c 0 t) (blk V c 1 t) (blk V c 2 t) (blk V c 3 t) (blk V c 4 t) pg pu, accMidU c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) (fun h => h0 ((isFirst_iff t).mp h)) (fun h => h2 ((isLast_iff t).mp h)) (blk V c 0 t) (blk V c 1 t) (blk V c 2 t) (blk V c 3 t) (blk V c 4 t) pg pu) :=
  (dif_neg h0).trans (dif_neg h2)

/-- At a first chunk what the point before left does not matter. -/
theorem stateAt_first (c : Dev nD) (t : Fin cfg0.N) (h0 : t.val % 4 = 0) :
    stateAt V c t.val t.isLt = (idleOut, accFirstG c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) ((isFirst_iff t).mpr h0) (fun h => by have := (isLast_iff t).mp h; omega) (blk V c 0 t) (blk V c 1 t) (blk V c 2 t) (blk V c 3 t) (blk V c 4 t), accFirstU c (grid0.coords t) (mr0 t) (mr0_whole t) (mr1 t) (mr1_whole t) (mr2 t) (mr2_whole t) (mr3 t) (mr3_whole t) (mr4 t) (mr4_whole t) (mr5 t) (mr5_whole t) accG (Memref.isWhole_whole _) accU (Memref.isWhole_whole _) ((isFirst_iff t).mpr h0) (fun h => by have := (isLast_iff t).mp h; omega) (blk V c 0 t) (blk V c 1 t) (blk V c 2 t) (blk V c 3 t) (blk V c 4 t)) := by
  obtain ⟨n, hn⟩ := t
  cases n with
  | zero => exact step_first V c ⟨0, hn⟩ _ _ h0
  | succ n => exact step_first V c ⟨n + 1, hn⟩ _ _ h0

/-! ## The invariant between points -/

/-- Statements `P`, `Q` about this kernel's two accumulators, then the other buffers of the core (the second kernel's
    staging buffers and accumulator) at any contents, and the generator register. -/
def restWith (c : Dev nD) (P Q : sProp 𝕄) : sProp 𝕄 :=
  iprop((P ∗ Q ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ ∃ r, prngReg c r)

theorem restWith_open (c : Dev nD) (P Q : sProp 𝕄) : restWith (F := F) c P Q ⊢ iprop((P ∗ Q) ∗ restWith (F := F) c iprop(emp) iprop(emp)) := by
  unfold restWith
  iintro ⟨⟨HP, HQ, B0, B1, B2, B3, B4, B5, B6, B7, B8⟩, Hg⟩
  isplitl [HP HQ]
  · isplitl [HP]; · iexact HP
    iexact HQ
  isplitr [Hg]
  swap; · iexact Hg
  isplitr; · iempintro
  isplitr; · iempintro
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

theorem restWith_close (c : Dev nD) (P Q : sProp 𝕄) : iprop((P ∗ Q) ∗ restWith (F := F) c iprop(emp) iprop(emp)) ⊢ restWith (F := F) c P Q := by
  unfold restWith
  iintro ⟨⟨HP, HQ⟩, ⟨-, -, B0, B1, B2, B3, B4, B5, B6, B7, B8⟩, Hg⟩
  isplitr [Hg]
  swap; · iexact Hg
  isplitl [HP]; · iexact HP
  isplitl [HQ]; · iexact HQ
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

/-- What the pipeline hands a kernel before its first point is this, with both accumulators at any contents. -/
theorem PhiA_eq (c : Dev nD) :
    (Pipeline.ΦA spec0 c : sProp 𝕄) = restWith (F := F) c iprop(∃ d, owns (c : Thread nD τ) accG fullShare d) iprop(∃ d, owns (c : Thread nD τ) accU fullShare d) := by
  unfold Pipeline.ΦA restWith; rw [scopedRest0_eq]; simp only [accG, accU, owns_whole]; try rfl

/-- Before the point number `n`: at the start what the pipeline hands over; afterwards the accumulators at what the
    point before left. -/
def PhiS (c : Dev nD) : (n : ℕ) → n ≤ cfg0.N → sProp 𝕄
  | 0, _ => Pipeline.ΦA spec0 c
  | n + 1, hn => restWith (F := F) c (owns (c : Thread nD τ) accG fullShare ((stateAt V c n hn).2.1)) (owns (c : Thread nD τ) accU fullShare ((stateAt V c n hn).2.2))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = restWith (F := F) c (owns (c : Thread nD τ) accG fullShare ((stateAt V c n hn).2.1)) (owns (c : Thread nD τ) accU fullShare ((stateAt V c n hn).2.2)) := rfl
theorem PhiS_pos (c : Dev nD) (n : ℕ) (h : n ≤ cfg0.N) (hz : n ≠ 0) :
    PhiS V c n h = restWith (F := F) c (owns (c : Thread nD τ) accG fullShare ((stateAt V c (n - 1) (by omega)).2.1)) (owns (c : Thread nD τ) accU fullShare ((stateAt V c (n - 1) (by omega)).2.2)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (stateAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = (stateAt V c t.val t.isLt).1 := by dsimp only [dat]
theorem held0 (c : Dev nD) (t : Fin cfg0.N) (d) : (dat V c).before 0 t d = blk V c 0 t :=
  held0_of V (dat V c) (A_eq V c 0) (after0 V c) t d
theorem held1 (c : Dev nD) (t : Fin cfg0.N) (d) : (dat V c).before 1 t d = blk V c 1 t :=
  held1_of V (dat V c) (A_eq V c 1) (after1 V c) t d
theorem held2 (c : Dev nD) (t : Fin cfg0.N) (d) : (dat V c).before 2 t d = blk V c 2 t :=
  held2_of V (dat V c) (A_eq V c 2) (after2 V c) t d
theorem held3 (c : Dev nD) (t : Fin cfg0.N) (d) : (dat V c).before 3 t d = blk V c 3 t :=
  held3_of V (dat V c) (A_eq V c 3) (after3 V c) t d
theorem held4 (c : Dev nD) (t : Fin cfg0.N) (d) : (dat V c).before 4 t d = blk V c 4 t :=
  held4_of V (dat V c) (A_eq V c 4) (after4 V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (mr0 t) fullShare ((dat V c).before 0 t d))
    ∗ (∃ d, owns (c : Thread nD τ) (mr1 t) fullShare ((dat V c).before 1 t d))
    ∗ (∃ d, owns (c : Thread nD τ) (mr2 t) fullShare ((dat V c).before 2 t d))
    ∗ (∃ d, owns (c : Thread nD τ) (mr3 t) fullShare ((dat V c).before 3 t d))
    ∗ (∃ d, owns (c : Thread nD τ) (mr4 t) fullShare ((dat V c).before 4 t d))
    ∗ (∃ d, owns (c : Thread nD τ) (mr5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the point's number modulo 4 says which kind of point
    it is, and that kind's run applies; the invariant hands the body the accumulators at what the point before left (at
    anything before the very first point) and takes them back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [held0, held1, held2, held3, held4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mr0 t) fullShare ((dat V c).after 0 t) from by
      unfold Dat.leavesExact; rw [live0 t], after0]
  rw [show (dat V c).leavesExact 1 t = owns (c : Thread nD τ) (mr1 t) fullShare ((dat V c).after 1 t) from by
      unfold Dat.leavesExact; rw [live1 t], after1]
  rw [show (dat V c).leavesExact 2 t = owns (c : Thread nD τ) (mr2 t) fullShare ((dat V c).after 2 t) from by
      unfold Dat.leavesExact; rw [live2 t], after2]
  rw [show (dat V c).leavesExact 3 t = owns (c : Thread nD τ) (mr3 t) fullShare ((dat V c).after 3 t) from by
      unfold Dat.leavesExact; rw [live3 t], after3]
  rw [show (dat V c).leavesExact 4 t = owns (c : Thread nD τ) (mr4 t) fullShare ((dat V c).after 4 t) from by
      unfold Dat.leavesExact; rw [live4 t], after4]
  have hN : t.val < 1376 := lt_of_lt_of_eq t.isLt (show cfg0.N = 1376 from N_0)
  by_cases h0 : t.val % 4 = 0
  · -- a first chunk
    rw [Dat.leavesExact_idle (dat V c) 5 t (idle5 t (fun h => by have := (isLast_iff t).mp h; omega)) (noFlush5 t (fun h => by have := (isLast_iff t).mp h; omega))]
    rw [stateAt_first V c t h0]
    unfold accFirstG accFirstU; (try dsimp only)
    by_cases hz : t.val = 0
    · rw [Phi_castSucc V c t, PhiS_zero V c _ _ hz, PhiA_eq]
      refine (sep_mono (restWith_open c _ _) .rfl).trans ?_
      iintro ⟨⟨⟨HG, HU⟩, Hoth⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ _ _ ((isFirst_iff t).mpr h0) (fun h => by have := (isLast_iff t).mp h; omega) (blk V c 0 t) (blk V c 1 t) (blk V c 2 t) (blk V c 3 t) (blk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HG]; · iexact HG
      isplitl [HU]; · iexact HU
      iintro ⟨H0, H1, H2, H3, H4, H5, ⟨%eg, HG⟩, ⟨%eu, HU⟩⟩
      isplitl [HG HU Hoth]
      · iapply (restWith_close c _ _)
        isplitl [HG HU]
        · isplitl [HG]
          · unfold owns; iexists _; isplitr
            swap; · iexact HG
            ipureintro; exact View.read_writes_of_cover _ _ _ _ _ (coverFirstG c _ _ _ _ _ _ _ _ _ _ _ _ _ _ _ _ _ _ _ _ _ _ _ _)
          unfold owns; iexists _; isplitr
          swap; · iexact HU
          ipureintro; exact View.read_writes_of_cover _ _ _ _ _ (coverFirstU c _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      iexists _; iexact H5
    · rw [Phi_castSucc V c t, PhiS_pos V c _ _ hz]
      refine (sep_mono (restWith_open c _ _) .rfl).trans ?_
      iintro ⟨⟨⟨HG, HU⟩, Hoth⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ _ _ ((isFirst_iff t).mpr h0) (fun h => by have := (isLast_iff t).mp h; omega) (blk V c 0 t) (blk V c 1 t) (blk V c 2 t) (blk V c 3 t) (blk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HG]; · iexists _; iexact HG
      isplitl [HU]; · iexists _; iexact HU
      iintro ⟨H0, H1, H2, H3, H4, H5, ⟨%eg, HG⟩, ⟨%eu, HU⟩⟩
      isplitl [HG HU Hoth]
      · iapply (restWith_close c _ _)
        isplitl [HG HU]
        · isplitl [HG]
          · unfold owns; iexists _; isplitr
            swap; · iexact HG
            ipureintro; exact View.read_writes_of_cover _ _ _ _ _ (coverFirstG c _ _ _ _ _ _ _ _ _ _ _ _ _ _ _ _ _ _ _ _ _ _ _ _)
          unfold owns; iexists _; isplitr
          swap; · iexact HU
          ipureintro; exact View.read_writes_of_cover _ _ _ _ _ (coverFirstU c _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [Phi_castSucc V c t, PhiS_pos V c _ _ hz, stateAt_pos V c t hz]
    by_cases h2 : t.val % 4 = 3
    · -- a last chunk
      rw [show (dat V c).leavesExact 5 t = owns (c : Thread nD τ) (mr5 t) fullShare ((dat V c).after 5 t) from by
        unfold Dat.leavesExact; rw [live5 t ((isLast_iff t).mpr h2)], after5, stateAt_pos V c t hz]
      rw [step_last V c t _ _ h0 h2]
      unfold outLast accLastG accLastU; (try dsimp only)
      refine (sep_mono (restWith_open c _ _) .rfl).trans ?_
      iintro ⟨⟨⟨HG, HU⟩, Hoth⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ _ _ (fun h => h0 ((isFirst_iff t).mp h)) ((isLast_iff t).mpr h2) (blk V c 0 t) (blk V c 1 t) (blk V c 2 t) (blk V c 3 t) (blk V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HG]; · iexact HG
      isplitl [HU]; · iexact HU
      iintro ⟨H0, H1, H2, H3, H4, ⟨%eo, H5⟩, ⟨%eg, HG⟩, ⟨%eu, HU⟩⟩
      isplitl [HG HU Hoth]
      · iapply (restWith_close c _ _)
        isplitl [HG HU]
        · isplitl [HG]
          · unfold owns; iexists _; isplitr
            swap; · iexact HG
            ipureintro; exact View.read_writes_of_cover _ _ _ _ _ (coverLastG c _ _ _ _ _ _ _ _ _ _ _ _ _ _ _ _ _ _ _ _ _ _ _ _ _ _)
          unfold owns; iexists _; isplitr
          swap; · iexact HU
          ipureintro; exact View.read_writes_of_cover _ _ _ _ _ (coverLastU c _ _ _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLastO c _ _ _ _ _ _ _ _ _ _ _ _ _ _ _ _ _ _ _ _ _ _ _ _ _ _)
    · -- a middle chunk
      rw [Dat.leavesExact_idle (dat V c) 5 t (idle5 t (fun h => h2 ((isLast_iff t).mp h))) (noFlush5 t (fun h => h2 ((isLast_iff t).mp h)))]
      rw [step_mid V c t _ _ h0 h2]
      unfold accMidG accMidU; (try dsimp only)
      refine (sep_mono (restWith_open c _ _) .rfl).trans ?_
      iintro ⟨⟨⟨HG, HU⟩, Hoth⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ _ _ (fun h => h0 ((isFirst_iff t).mp h)) (fun h => h2 ((isLast_iff t).mp h)) (blk V c 0 t) (blk V c 1 t) (blk V c 2 t) (blk V c 3 t) (blk V c 4 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HG]; · iexact HG
      isplitl [HU]; · iexact HU
      iintro ⟨H0, H1, H2, H3, H4, H5, ⟨%eg, HG⟩, ⟨%eu, HU⟩⟩
      isplitl [HG HU Hoth]
      · iapply (restWith_close c _ _)
        isplitl [HG HU]
        · isplitl [HG]
          · unfold owns; iexists _; isplitr
            swap; · iexact HG
            ipureintro; exact View.read_writes_of_cover _ _ _ _ _ (coverMidG c _ _ _ _ _ _ _ _ _ _ _ _ _ _ _ _ _ _ _ _ _ _ _ _ _ _)
          unfold owns; iexists _; isplitr
          swap; · iexact HU
          ipureintro; exact View.read_writes_of_cover _ _ _ _ _ (coverMidU c _ _ _ _ _ _ _ _ _ _ _ _ _ _ _ _ _ _ _ _ _ _ _ _ _ _)
        iexact Hoth
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation (c : Dev nD) : BodyObligation (dat (F := F) V c) (defs₀ (F := F)) Variants.none () Set.univ := fun t => by
  rw [bigSep_W0, bigSep_W0]
  exact sound_body V c t

/-- What the pipeline hands the kernel is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives that back: what the accumulators hold is forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  refine (restWith_open c _ _).trans ?_
  iintro ⟨⟨HG, HU⟩, Hoth⟩
  iapply (restWith_close c _ _)
  isplitl [HG HU]
  · isplitl [HG]; · iexists _; iexact HG
    iexists _; iexact HU
  iexact Hoth

theorem hout (c : Dev nD) : (dat V c).Φ (Fin.last cfg0.N) ⊢ Pipeline.ΦA spec0 c :=
  Phi_out V c _ (by rw [Fin.val_last]; have : cfg0.N = 1376 := N_0; omega)

end Cert.KernelIdeal.R0

end
-- ==== Proof.KI.R1Base.lean ====
/-
  The second kernel of the layer (the down projection), seen from one grid point: what the point is handed and
  which of the body's two conditionals it takes.  The grid is 4 x 4 x 43; the last coordinate k walks the 43
  chunks of 256 hidden features.  At k = 0 the body clears its accumulator, at every k it adds one chunk's
  product to it, and at k = 42 it copies the accumulator into the output block.  So a point is of one of three
  kinds: first (k = 0), middle, last (k = 42).  The output block is touched at the last points only.
-/
import proofs.«158660_j59433757442706_2_alg».proof.Proof.Gen.KernelIdeal.Launch
import proofs.«158660_j59433757442706_2_alg».proof.Proof.Gen.KernelIdeal.Skeleton
import proofs.«158660_j59433757442706_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the kernel is entered: a parameter
variable (V : (c : Dev nD) → (b : Ref sig .tc) → Buf (Elt F) ((c : Thread nD τ).loc b))

/-- Window `w`'s block at point `t`, read off its array as the kernel finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not: where it is not fetched the block
    index has not moved. One lemma per input window (hidden activations, weights, scales). -/
theorem held0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The two conditionals, as functions of the point -/

/-- "k = 0", as the body computes it from the last grid coordinate. -/
abbrev isFirst (i : grid1.Coords) : Prop := (Scalar.cmpi .ne (Scalar.extui (Scalar.cmpi .eq (BitVec.ofNat 32 (i 2).val) 0#32)) 0#32) = 1#1
/-- "k = 42". -/
abbrev isLast (i : grid1.Coords) : Prop := k1_cond2 i = 1#1
/-- In row-major order of the grid the chunk index is the point's number modulo 43. -/
theorem isFirst_iff : ∀ t : Fin cfg1.N, isFirst (grid1.coords t) ↔ t.val % 43 = 0 :=
  (by decide +kernel : ∀ t : Fin grid1.N, isFirst (grid1.coords t) ↔ t.val % 43 = 0)
theorem isLast_iff : ∀ t : Fin cfg1.N, isLast (grid1.coords t) ↔ t.val % 43 = 42 :=
  (by decide +kernel : ∀ t : Fin grid1.N, isLast (grid1.coords t) ↔ t.val % 43 = 42)

/-! ## Where a window is in use -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Away from the last chunk the output block is neither stored into nor written back. -/
theorem idle3 : ∀ t : Fin cfg1.N, ¬isLast (grid1.coords t) → cfg1.idle 3 (grid1.coords t) = true := by decide +kernel
theorem noFlush3 : ∀ t : Fin cfg1.N, ¬isLast (grid1.coords t) → (cfg1.win 3).flush t = false := by decide +kernel
theorem live3 : ∀ t : Fin cfg1.N, isLast (grid1.coords t) → cfg1.idle 3 (grid1.coords t) = false := by decide +kernel

/-! ## The memrefs the body is called with -/

abbrev mr0 (t : Fin cfg1.N) : Memref sig .tc .vmem S2048x256 .bf16 := win1_0.stage (cfg1.slots t 0)
abbrev mr0_whole (t : Fin cfg1.N) : (mr0 t).IsWhole := hstage1_0 ((cfg1.slots t 0).cast nbuf1_0)
abbrev mr1 (t : Fin cfg1.N) : Memref sig .tc .vmem S1024x256 .bf16 := win1_1.stage (cfg1.slots t 1)
abbrev mr1_whole (t : Fin cfg1.N) : (mr1 t).IsWhole := hstage1_1 ((cfg1.slots t 1).cast nbuf1_1)
abbrev mr2 (t : Fin cfg1.N) : Memref sig .tc .vmem S1024x1 .f32 := win1_2.stage (cfg1.slots t 2)
abbrev mr2_whole (t : Fin cfg1.N) : (mr2 t).IsWhole := hstage1_2 ((cfg1.slots t 2).cast nbuf1_2)
abbrev mr3 (t : Fin cfg1.N) : Memref sig .tc .vmem S2048x1024 .f32 := win1_3.stage (cfg1.slots t 3)
abbrev mr3_whole (t : Fin cfg1.N) : (mr3 t).IsWhole := hstage1_3 ((cfg1.slots t 3).cast nbuf1_3)
/-- The accumulator: a whole buffer of the kernel's own, kept from one point to the next. -/
abbrev accM : Memref sig .tc .vmem S2048x1024 .f32 := Memref.whole cc1_scratch0
abbrev accV : View sig .tc .vmem S2048x1024 .f32 := accM.view
/-- One staging buffer of the output window, through which its contents are stated. -/
abbrev outV : View sig .tc .vmem S2048x1024 .f32 := (Memref.whole cc1_stg3_0 : Memref sig .tc .vmem S2048x1024 .f32).view

end Cert.KernelIdeal.R1

end
-- ==== Proof.KI.R1RunA.lean ====
/-
  The down-projection body at a FIRST chunk (k = 0, not the last): it stores zeros into the accumulator, then loads
  the three input blocks and the accumulator and stores accumulator + product back; the output block is left
  alone.  From whole memrefs holding the inputs' blocks, the output block and the accumulator at any contents,
  the body runs to the end, returns the inputs and the output block as found, and leaves in the accumulator a
  list of stored pieces (found by running the body symbolically).
-/
import proofs.«158660_j59433757442706_2_alg».proof.Proof.KI.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : isFirst i) (hl : ¬isLast i)
    (x0 : Vec F S2048x256 .bf16) (x1 : Vec F S1024x256 .bf16) (x2 : Vec F S1024x1 .f32) :
    { LS : List (View.Piece (Elt F) S2048x1024 .f32) //
      ∀ (xo : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__mlp2_kernel i arg3 harg3 arg4 harg4 arg5 harg5 arg6 harg6 arg7 harg7) K } := by
  refine ⟨?_, fun xo E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.R1

end
-- ==== Proof.KI.R1RunB.lean ====
/-
  The down-projection body at a MIDDLE chunk (neither the first nor the last): it loads the three input blocks and the
  accumulator, stores accumulator + product back, and leaves the output block alone.  The statement: from whole
  memrefs holding the inputs' blocks, the output block at any contents, and the accumulator at what the previous
  point left, the body runs to the end, returns the inputs and the output block as found, and leaves in the
  accumulator a list of stored pieces (found by running the body symbolically).
-/
import proofs.«158660_j59433757442706_2_alg».proof.Proof.KI.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : ¬isLast i)
    (x0 : Vec F S2048x256 .bf16) (x1 : Vec F S1024x256 .bf16) (x2 : Vec F S1024x1 .f32) (xs : Vec F S2048x1024 .f32) :
    { LS : List (View.Piece (Elt F) S2048x1024 .f32) //
      ∀ (xo : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__mlp2_kernel i arg3 harg3 arg4 harg4 arg5 harg5 arg6 harg6 arg7 harg7) K } := by
  refine ⟨?_, fun xo E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.R1

end
-- ==== Proof.KI.R1RunC.lean ====
/-
  The down-projection body at a LAST chunk (k = 42, not the first): it loads the three input blocks and the
  accumulator, stores accumulator + product back, then loads the accumulator again and stores it into the output
  block.  From whole memrefs holding the inputs' blocks, the output block at any contents and the accumulator at
  what the previous point left, the body runs to the end, returns the inputs as found, and leaves lists of stored
  pieces in the output block and in the accumulator (found by running the body symbolically).
-/
import proofs.«158660_j59433757442706_2_alg».proof.Proof.KI.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : isLast i)
    (x0 : Vec F S2048x256 .bf16) (x1 : Vec F S1024x256 .bf16) (x2 : Vec F S1024x1 .f32) (xs : Vec F S2048x1024 .f32) :
    Σ' (LO : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__mlp2_kernel i arg3 harg3 arg4 harg4 arg5 harg5 arg6 harg6 arg7 harg7) K } := by
  refine ⟨?_, ?_, fun E K => ?run⟩
  case run =>
    simp only [cc1__mlp2_kernel_eq_skeleton]; unfold cc1__mlp2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.R1

end
-- ==== Proof.KI.R1Frame.lean ====
/-
  The down projection over its whole grid.  After the point number n the accumulator holds what the body's stores
  left there at that point, which depends on the point's input blocks and (except at a first chunk) on what the
  point before left: a recursion on n.  The invariant carried from point to point owns the accumulator at exactly
  those contents, beside the other buffers of the core that this kernel never touches.  With it the body's three
  runs (first, middle and last chunk) give the obligation the pipeline asks of a kernel body at every point.
-/
import proofs.«158660_j59433757442706_2_alg».proof.Proof.KI.R1RunA
import proofs.«158660_j59433757442706_2_alg».proof.Proof.KI.R1RunB
import proofs.«158660_j59433757442706_2_alg».proof.Proof.KI.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem coverFirst (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : isFirst i) (hl : ¬isLast i) (x0 : Vec F S2048x256 .bf16) (x1 : Vec F S1024x256 .bf16) (x2 : Vec F S1024x1 .f32) (y : S2048x1024.Idx) :
    ∃ pc ∈ (runFirst c i arg3 harg3 arg4 harg4 arg5 harg5 arg6 harg6 arg7 harg7 hf hl x0 x1 x2).1, y ∈ pc.1.set :=
  View.cover_of_tiledL (runFirst c i arg3 harg3 arg4 harg4 arg5 harg5 arg6 harg6 arg7 harg7 hf hl x0 x1 x2).1 S2048x1024.size (by sl_kernel_rfl) y
/-- The accumulator after a first chunk. -/
def accFirst (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : isFirst i) (hl : ¬isLast i) (x0 : Vec F S2048x256 .bf16) (x1 : Vec F S1024x256 .bf16) (x2 : Vec F S1024x1 .f32) : Vec F S2048x1024 .f32 :=
  accV.read (Elt F) (accV.writes (Elt F) accV.junk (runFirst c i arg3 harg3 arg4 harg4 arg5 harg5 arg6 harg6 arg7 harg7 hf hl x0 x1 x2).1)

theorem coverMid (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : ¬isLast i) (x0 : Vec F S2048x256 .bf16) (x1 : Vec F S1024x256 .bf16) (x2 : Vec F S1024x1 .f32) (xs : Vec F S2048x1024 .f32) (y : S2048x1024.Idx) :
    ∃ pc ∈ (runMid c i arg3 harg3 arg4 harg4 arg5 harg5 arg6 harg6 arg7 harg7 hf hl x0 x1 x2 xs).1, y ∈ pc.1.set :=
  View.cover_of_tiledL (runMid c i arg3 harg3 arg4 harg4 arg5 harg5 arg6 harg6 arg7 harg7 hf hl x0 x1 x2 xs).1 S2048x1024.size (by sl_kernel_rfl) y
/-- The accumulator after a middle chunk, from what the point before left (`xs`). -/
def accMid (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : ¬isLast i) (x0 : Vec F S2048x256 .bf16) (x1 : Vec F S1024x256 .bf16) (x2 : Vec F S1024x1 .f32) (xs : Vec F S2048x1024 .f32) : Vec F S2048x1024 .f32 :=
  accV.read (Elt F) (accV.writes (Elt F) accV.junk (runMid c i arg3 harg3 arg4 harg4 arg5 harg5 arg6 harg6 arg7 harg7 hf hl x0 x1 x2 xs).1)

theorem coverLastO (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : isLast i) (x0 : Vec F S2048x256 .bf16) (x1 : Vec F S1024x256 .bf16) (x2 : Vec F S1024x1 .f32) (xs : Vec F S2048x1024 .f32) (y : S2048x1024.Idx) :
    ∃ pc ∈ (runLast c i arg3 harg3 arg4 harg4 arg5 harg5 arg6 harg6 arg7 harg7 hf hl x0 x1 x2 xs).1, y ∈ pc.1.set :=
  View.cover_of_tiledL (runLast c i arg3 harg3 arg4 harg4 arg5 harg5 arg6 harg6 arg7 harg7 hf hl x0 x1 x2 xs).1 S2048x1024.size (by sl_kernel_rfl) y
theorem coverLastS (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : isLast i) (x0 : Vec F S2048x256 .bf16) (x1 : Vec F S1024x256 .bf16) (x2 : Vec F S1024x1 .f32) (xs : Vec F S2048x1024 .f32) (y : S2048x1024.Idx) :
    ∃ pc ∈ (runLast c i arg3 harg3 arg4 harg4 arg5 harg5 arg6 harg6 arg7 harg7 hf hl x0 x1 x2 xs).2.1, y ∈ pc.1.set :=
  View.cover_of_tiledL (runLast c i arg3 harg3 arg4 harg4 arg5 harg5 arg6 harg6 arg7 harg7 hf hl x0 x1 x2 xs).2.1 S2048x1024.size (by sl_kernel_rfl) y
/-- The output block after a last chunk. -/
def outLast (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : isLast i) (x0 : Vec F S2048x256 .bf16) (x1 : Vec F S1024x256 .bf16) (x2 : Vec F S1024x1 .f32) (xs : Vec F S2048x1024 .f32) : Vec F S2048x1024 .f32 :=
  outV.read (Elt F) (outV.writes (Elt F) outV.junk (runLast c i arg3 harg3 arg4 harg4 arg5 harg5 arg6 harg6 arg7 harg7 hf hl x0 x1 x2 xs).1)
/-- The accumulator after a last chunk. -/
def accLast (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : isLast i) (x0 : Vec F S2048x256 .bf16) (x1 : Vec F S1024x256 .bf16) (x2 : Vec F S1024x1 .f32) (xs : Vec F S2048x1024 .f32) : Vec F S2048x1024 .f32 :=
  accV.read (Elt F) (accV.writes (Elt F) accV.junk (runLast c i arg3 harg3 arg4 harg4 arg5 harg5 arg6 harg6 arg7 harg7 hf hl x0 x1 x2 xs).2.1)

/-- A placeholder for the output block where the kernel does not touch it (nothing reads it). -/
def idleOut : Vec F S2048x1024 .f32 := outV.read (Elt F) outV.junk

/-! ## Point by point -/

/-- What point `t` leaves in (output block, accumulator), given what the point before left in the accumulator. -/
def step (c : Dev nD) (t : Fin cfg1.N) (prev : Vec F S2048x1024 .f32) : Vec F S2048x1024 .f32 × Vec F S2048x1024 .f32 :=
  if h0 : t.val % 43 = 0 then
    (idleOut, accFirst c (grid1.coords t) (mr0 t) (mr0_whole t) (mr1 t) (mr1_whole t) (mr2 t) (mr2_whole t) (mr3 t) (mr3_whole t) accM (Memref.isWhole_whole _) ((isFirst_iff t).mpr h0) (fun h => by have := (isLast_iff t).mp h; omega) (blk V c 0 t) (blk V c 1 t) (blk V c 2 t))
  else if h2 : t.val % 43 = 42 then
    (outLast c (grid1.coords t) (mr0 t) (mr0_whole t) (mr1 t) (mr1_whole t) (mr2 t) (mr2_whole t) (mr3 t) (mr3_whole t) accM (Memref.isWhole_whole _) (fun h => h0 ((isFirst_iff t).mp h)) ((isLast_iff t).mpr h2) (blk V c 0 t) (blk V c 1 t) (blk V c 2 t) prev,
     accLast c (grid1.coords t) (mr0 t) (mr0_whole t) (mr1 t) (mr1_whole t) (mr2 t) (mr2_whole t) (mr3 t) (mr3_whole t) accM (Memref.isWhole_whole _) (fun h => h0 ((isFirst_iff t).mp h)) ((isLast_iff t).mpr h2) (blk V c 0 t) (blk V c 1 t) (blk V c 2 t) prev)
  else
    (idleOut, accMid c (grid1.coords t) (mr0 t) (mr0_whole t) (mr1 t) (mr1_whole t) (mr2 t) (mr2_whole t) (mr3 t) (mr3_whole t) accM (Memref.isWhole_whole _) (fun h => h0 ((isFirst_iff t).mp h)) (fun h => h2 ((isLast_iff t).mp h)) (blk V c 0 t) (blk V c 1 t) (blk V c 2 t) prev)

/-- (output block, accumulator) after the point number `n`. -/
def stateAt (c : Dev nD) : (n : ℕ) → n < cfg1.N → Vec F S2048x1024 .f32 × Vec F S2048x1024 .f32
  | 0, hn => step V c ⟨0, hn⟩ idleOut
  | n + 1, hn => step V c ⟨n + 1, hn⟩ (stateAt c n (Nat.lt_of_succ_lt hn)).2

theorem stateAt_pos (c : Dev nD) (t : Fin cfg1.N) (hz : t.val ≠ 0) :
    stateAt V c t.val t.isLt = step V c t (stateAt V c (t.val - 1) (Nat.lt_of_le_of_lt (Nat.sub_le _ _) t.isLt)).2 := by
  obtain ⟨n, hn⟩ := t
  cases n with
  | zero => exact absurd rfl hz
  | succ n => rfl

theorem step_first (c : Dev nD) (t : Fin cfg1.N) (prev : Vec F S2048x1024 .f32) (h0 : t.val % 43 = 0) :
    step V c t prev = (idleOut, accFirst c (grid1.coords t) (mr0 t) (mr0_whole t) (mr1 t) (mr1_whole t) (mr2 t) (mr2_whole t) (mr3 t) (mr3_whole t) accM (Memref.isWhole_whole _) ((isFirst_iff t).mpr h0) (fun h => by have := (isLast_iff t).mp h; omega) (blk V c 0 t) (blk V c 1 t) (blk V c 2 t)) :=
  dif_pos h0
theorem step_last (c : Dev nD) (t : Fin cfg1.N) (prev : Vec F S2048x1024 .f32) (h0 : ¬t.val % 43 = 0) (h2 : t.val % 43 = 42) :
    step V c t prev = (outLast c (grid1.coords t) (mr0 t) (mr0_whole t) (mr1 t) (mr1_whole t) (mr2 t) (mr2_whole t) (mr3 t) (mr3_whole t) accM (Memref.isWhole_whole _) (fun h => h0 ((isFirst_iff t).mp h)) ((isLast_iff t).mpr h2) (blk V c 0 t) (blk V c 1 t) (blk V c 2 t) prev,
     accLast c (grid1.coords t) (mr0 t) (mr0_whole t) (mr1 t) (mr1_whole t) (mr2 t) (mr2_whole t) (mr3 t) (mr3_whole t) accM (Memref.isWhole_whole _) (fun h => h0 ((isFirst_iff t).mp h)) ((isLast_iff t).mpr h2) (blk V c 0 t) (blk V c 1 t) (blk V c 2 t) prev) :=
  (dif_neg h0).trans (dif_pos h2)
theorem step_mid (c : Dev nD) (t : Fin cfg1.N) (prev : Vec F S2048x1024 .f32) (h0 : ¬t.val % 43 = 0) (h2 : ¬t.val % 43 = 42) :
    step V c t prev = (idleOut, accMid c (grid1.coords t) (mr0 t) (mr0_whole t) (mr1 t) (mr1_whole t) (mr2 t) (mr2_whole t) (mr3 t) (mr3_whole t) accM (Memref.isWhole_whole _) (fun h => h0 ((isFirst_iff t).mp h)) (fun h => h2 ((isLast_iff t).mp h)) (blk V c 0 t) (blk V c 1 t) (blk V c 2 t) prev) :=
  (dif_neg h0).trans (dif_neg h2)

/-- At a first chunk what the point before left does not matter. -/
theorem stateAt_first (c : Dev nD) (t : Fin cfg1.N) (h0 : t.val % 43 = 0) :
    stateAt V c t.val t.isLt = (idleOut, accFirst c (grid1.coords t) (mr0 t) (mr0_whole t) (mr1 t) (mr1_whole t) (mr2 t) (mr2_whole t) (mr3 t) (mr3_whole t) accM (Memref.isWhole_whole _) ((isFirst_iff t).mpr h0) (fun h => by have := (isLast_iff t).mp h; omega) (blk V c 0 t) (blk V c 1 t) (blk V c 2 t)) := by
  obtain ⟨n, hn⟩ := t
  cases n with
  | zero => exact step_first V c ⟨0, hn⟩ _ h0
  | succ n => exact step_first V c ⟨n + 1, hn⟩ _ h0

/-! ## The invariant between points -/

/-- The other buffers of the core (the first kernel's staging buffers and accumulators), at any contents, then a
    statement `P` about this kernel's accumulator, and the generator register. -/
def restWith (c : Dev nD) (P : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ P) ∗ ∃ r, prngReg c r)

theorem restWith_open (c : Dev nD) (P : sProp 𝕄) : restWith (F := F) c P ⊢ iprop(P ∗ restWith (F := F) c iprop(emp)) := by
  unfold restWith
  iintro ⟨⟨B0, B1, B2, B3, B4, B5, B6, B7, B8, B9, B10, B11, B12, B13, HP⟩, Hg⟩
  isplitl [HP]; · iexact HP
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  iempintro

theorem restWith_close (c : Dev nD) (P : sProp 𝕄) : iprop(P ∗ restWith (F := F) c iprop(emp)) ⊢ restWith (F := F) c P := by
  unfold restWith
  iintro ⟨HP, ⟨B0, B1, B2, B3, B4, B5, B6, B7, B8, B9, B10, B11, B12, B13, -⟩, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  iexact HP

/-- What the pipeline hands a kernel before its first point is this, with the accumulator at any contents. -/
theorem PhiA_eq (c : Dev nD) :
    (Pipeline.ΦA spec1 c : sProp 𝕄) = restWith (F := F) c iprop(∃ d, owns (c : Thread nD τ) accM fullShare d) := by
  unfold Pipeline.ΦA restWith; rw [scopedRest1_eq]; simp only [accM, owns_whole]; try rfl

/-- Before the point number `n`: at the start what the pipeline hands over; afterwards the accumulator at what the
    point before left. -/
def PhiS (c : Dev nD) : (n : ℕ) → n ≤ cfg1.N → sProp 𝕄
  | 0, _ => Pipeline.ΦA spec1 c
  | n + 1, hn => restWith (F := F) c (owns (c : Thread nD τ) accM fullShare ((stateAt V c n hn).2))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = restWith (F := F) c (owns (c : Thread nD τ) accM fullShare ((stateAt V c n hn).2)) := rfl
theorem PhiS_pos (c : Dev nD) (n : ℕ) (h : n ≤ cfg1.N) (hz : n ≠ 0) :
    PhiS V c n h = restWith (F := F) c (owns (c : Thread nD τ) accM fullShare ((stateAt V c (n - 1) (by omega)).2)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (stateAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = (stateAt V c t.val t.isLt).1 := by dsimp only [dat]
theorem held0 (c : Dev nD) (t : Fin cfg1.N) (d) : (dat V c).before 0 t d = blk V c 0 t :=
  held0_of V (dat V c) (A_eq V c 0) (after0 V c) t d
theorem held1 (c : Dev nD) (t : Fin cfg1.N) (d) : (dat V c).before 1 t d = blk V c 1 t :=
  held1_of V (dat V c) (A_eq V c 1) (after1 V c) t d
theorem held2 (c : Dev nD) (t : Fin cfg1.N) (d) : (dat V c).before 2 t d = blk V c 2 t :=
  held2_of V (dat V c) (A_eq V c 2) (after2 V c) t d

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (mr0 t) fullShare ((dat V c).before 0 t d))
    ∗ (∃ d, owns (c : Thread nD τ) (mr1 t) fullShare ((dat V c).before 1 t d))
    ∗ (∃ d, owns (c : Thread nD τ) (mr2 t) fullShare ((dat V c).before 2 t d))
    ∗ (∃ d, owns (c : Thread nD τ) (mr3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' memrefs hold their blocks; the point's number modulo 43 says which kind of point
    it is, and that kind's run applies; the invariant hands the body the accumulator at what the point before left (at
    anything before the very first point) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [held0, held1, held2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (mr0 t) fullShare ((dat V c).after 0 t) from by
      unfold Dat.leavesExact; rw [live0 t], after0]
  rw [show (dat V c).leavesExact 1 t = owns (c : Thread nD τ) (mr1 t) fullShare ((dat V c).after 1 t) from by
      unfold Dat.leavesExact; rw [live1 t], after1]
  rw [show (dat V c).leavesExact 2 t = owns (c : Thread nD τ) (mr2 t) fullShare ((dat V c).after 2 t) from by
      unfold Dat.leavesExact; rw [live2 t], after2]
  have hN : t.val < 688 := lt_of_lt_of_eq t.isLt (show cfg1.N = 688 from N_1)
  by_cases h0 : t.val % 43 = 0
  · -- a first chunk
    rw [Dat.leavesExact_idle (dat V c) 3 t (idle3 t (fun h => by have := (isLast_iff t).mp h; omega)) (noFlush3 t (fun h => by have := (isLast_iff t).mp h; omega))]
    rw [stateAt_first V c t h0]
    unfold accFirst; (try dsimp only)
    by_cases hz : t.val = 0
    · rw [Phi_castSucc V c t, PhiS_zero V c _ _ hz, PhiA_eq]
      refine (sep_mono (restWith_open c _) .rfl).trans ?_
      iintro ⟨⟨HS, Hoth⟩, Ho, ⟨%d0, H0⟩, ⟨%d1, H1⟩, ⟨%d2, H2⟩, ⟨%d3, H3⟩⟩
      iapply ((runFirst c (grid1.coords t) _ _ _ _ _ _ _ _ _ _ ((isFirst_iff t).mpr h0) (fun h => by have := (isLast_iff t).mp h; omega) (blk V c 0 t) (blk V c 1 t) (blk V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth]
      · iapply (restWith_close c _)
        isplitl [HS]
        · unfold owns; iexists _; isplitr
          swap; · iexact HS
          ipureintro; exact View.read_writes_of_cover _ _ _ _ _ (coverFirst c _ _ _ _ _ _ _ _ _ _ _ _ _ _ _ _)
        iexact Hoth
      isplitl [Ho]; · iexact Ho
      isplitl [H0]; · iexact H0
      isplitl [H1]; · iexact H1
      isplitl [H2]; · iexact H2
      iexists _; iexact H3
    · rw [Phi_castSucc V c t, PhiS_pos V c _ _ hz]
      refine (sep_mono (restWith_open c _) .rfl).trans ?_
      iintro ⟨⟨HS, Hoth⟩, Ho, ⟨%d0, H0⟩, ⟨%d1, H1⟩, ⟨%d2, H2⟩, ⟨%d3, H3⟩⟩
      iapply ((runFirst c (grid1.coords t) _ _ _ _ _ _ _ _ _ _ ((isFirst_iff t).mpr h0) (fun h => by have := (isLast_iff t).mp h; omega) (blk V c 0 t) (blk V c 1 t) (blk V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth]
      · iapply (restWith_close c _)
        isplitl [HS]
        · unfold owns; iexists _; isplitr
          swap; · iexact HS
          ipureintro; exact View.read_writes_of_cover _ _ _ _ _ (coverFirst c _ _ _ _ _ _ _ _ _ _ _ _ _ _ _ _)
        iexact Hoth
      isplitl [Ho]; · iexact Ho
      isplitl [H0]; · iexact H0
      isplitl [H1]; · iexact H1
      isplitl [H2]; · iexact H2
      iexists _; iexact H3
  · have hz : t.val ≠ 0 := fun e => h0 (by rw [e])
    rw [Phi_castSucc V c t, PhiS_pos V c _ _ hz, stateAt_pos V c t hz]
    by_cases h2 : t.val % 43 = 42
    · -- a last chunk
      rw [show (dat V c).leavesExact 3 t = owns (c : Thread nD τ) (mr3 t) fullShare ((dat V c).after 3 t) from by
        unfold Dat.leavesExact; rw [live3 t ((isLast_iff t).mpr h2)], after3, stateAt_pos V c t hz]
      rw [step_last V c t _ h0 h2]
      unfold outLast accLast; (try dsimp only)
      refine (sep_mono (restWith_open c _) .rfl).trans ?_
      iintro ⟨⟨HS, Hoth⟩, Ho, ⟨%d0, H0⟩, ⟨%d1, H1⟩, ⟨%d2, H2⟩, ⟨%d3, H3⟩⟩
      iapply ((runLast c (grid1.coords t) _ _ _ _ _ _ _ _ _ _ (fun h => h0 ((isFirst_iff t).mp h)) ((isLast_iff t).mpr h2) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hoth]
      · iapply (restWith_close c _)
        isplitl [HS]
        · unfold owns; iexists _; isplitr
          swap; · iexact HS
          ipureintro; exact View.read_writes_of_cover _ _ _ _ _ (coverLastS c _ _ _ _ _ _ _ _ _ _ _ _ _ _ _ _ _)
        iexact Hoth
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastO c _ _ _ _ _ _ _ _ _ _ _ _ _ _ _ _ _)
    · -- a middle chunk
      rw [Dat.leavesExact_idle (dat V c) 3 t (idle3 t (fun h => h2 ((isLast_iff t).mp h))) (noFlush3 t (fun h => h2 ((isLast_iff t).mp h)))]
      rw [step_mid V c t _ h0 h2]
      unfold accMid; (try dsimp only)
      refine (sep_mono (restWith_open c _) .rfl).trans ?_
      iintro ⟨⟨HS, Hoth⟩, Ho, ⟨%d0, H0⟩, ⟨%d1, H1⟩, ⟨%d2, H2⟩, ⟨%d3, H3⟩⟩
      iapply ((runMid c (grid1.coords t) _ _ _ _ _ _ _ _ _ _ (fun h => h0 ((isFirst_iff t).mp h)) (fun h => h2 ((isLast_iff t).mp h)) (blk V c 0 t) (blk V c 1 t) (blk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth]
      · iapply (restWith_close c _)
        isplitl [HS]
        · unfold owns; iexists _; isplitr
          swap; · iexact HS
          ipureintro; exact View.read_writes_of_cover _ _ _ _ _ (coverMid c _ _ _ _ _ _ _ _ _ _ _ _ _ _ _ _ _)
        iexact Hoth
      isplitl [Ho]; · iexact Ho
      isplitl [H0]; · iexact H0
      isplitl [H1]; · iexact H1
      isplitl [H2]; · iexact H2
      iexists _; iexact H3

/-- The pipeline's body obligation, at every point. -/
theorem body_obligation (c : Dev nD) : BodyObligation (dat (F := F) V c) (defs₀ (F := F)) Variants.none () Set.univ := fun t => by
  rw [bigSep_W1, bigSep_W1]
  exact sound_body V c t

/-- What the pipeline hands the kernel is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives that back: what the accumulator holds is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  refine (restWith_open c _).trans ?_
  iintro ⟨HS, Hoth⟩
  iapply (restWith_close c _)
  isplitl [HS]; · iexists _; iexact HS
  iexact Hoth

theorem hout (c : Dev nD) : (dat V c).Φ (Fin.last cfg1.N) ⊢ Pipeline.ΦA spec1 c :=
  Phi_out V c _ (by rw [Fin.val_last]; have : cfg1.N = 688 := N_1; omega)

end Cert.KernelIdeal.R1

end
-- ==== Proof.KI.Whole.lean ====
/-
  The whole layer, from the launch to the return.  The program is a stretch of five host operations (a reshape and
  four conversions), the gate/up kernel, the down-projection kernel, and one closing reshape.  Here the buffers'
  contents are followed through these four steps: after the first stretch, after each kernel (its windows' arrays
  at what the write-backs left, every other buffer untouched), after the closing reshape.  Each kernel enters as a
  segment built from its body obligation and its invariant's two ends; the launch theorem for a list of segments
  then says that every fair execution terminates, faults nowhere, and ends with every unscoped buffer at the last
  of these contents.  From that the arguments are read back unchanged, and the result buffer is named in terms of
  what the second kernel's output window leaves.
-/
import proofs.«158660_j59433757442706_2_alg».proof.Proof.KI.R0Frame
import proofs.«158660_j59433757442706_2_alg».proof.Proof.KI.R1Frame
import proofs.«158660_j59433757442706_2_alg».proof.Proof.Gen.KernelIdeal.Regions
import Idealize.ShloMosaic.Lib.Pipeline.RegionsLoop
import Idealize.ShloMosaic.Lib.Pipeline.FrameSuffix
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the opening host stretch: what the first kernel is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel: its windows' arrays at what its write-backs leave, every other buffer as before.
    This is also what the second kernel is entered with (no host operation lies between them). -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second kernel. -/
def W3 (c : Dev nD) : Valuation τ sig (Elt F) :=
  Pipeline.withArrays spec1 c (W2 m ρ c) fun w => (R1.dat (V2 m ρ) c).arrAt w cfg1.N
theorem W3_arr (c : Dev nD) (w : Fin cfg1.W) :
    W3 m ρ c (Proc.devRef .tc (Pipeline.arrRef spec1 w)) = (R1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the closing reshape: the end. -/
abbrev W4 : Dev nD → Valuation τ sig (Elt F) := fun c => StableHlo.after hostOps2 (W3 m ρ c)

/-! ## The arguments end as launched

No host operation writes an argument; a kernel reads an argument through an input window (whose array the
write-backs never touch) or not at all. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := (W3_of_ne m ρ c main_arg0 (by decide))
    _ = W1 m ρ c (Proc.devRef .tc main_arg0) := (W2_of_ne m ρ c main_arg0 (by decide))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := (W3_of_ne m ρ c main_arg1 (by decide))
    _ = W1 m ρ c (Proc.devRef .tc main_arg1) := (W2_of_ne m ρ c main_arg1 (by decide))
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := (W3_of_ne m ρ c main_arg2 (by decide))
    _ = W1 m ρ c (Proc.devRef .tc main_arg2) := ((W2_arr m ρ c 2).trans (((R0.dat (V1 m ρ) c).arrAt_in 2 rfl _).trans (R0.A_eq (V1 m ρ) c 2)))
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := (W3_of_ne m ρ c main_arg3 (by decide))
    _ = W1 m ρ c (Proc.devRef .tc main_arg3) := (W2_of_ne m ρ c main_arg3 (by decide))
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := (W3_of_ne m ρ c main_arg4 (by decide))
    _ = W1 m ρ c (Proc.devRef .tc main_arg4) := ((W2_arr m ρ c 4).trans (((R0.dat (V1 m ρ) c).arrAt_in 4 rfl _).trans (R0.A_eq (V1 m ρ) c 4)))
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := (W3_of_ne m ρ c main_arg5 (by decide))
    _ = W1 m ρ c (Proc.devRef .tc main_arg5) := (W2_of_ne m ρ c main_arg5 (by decide))
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := ((W3_arr m ρ c 2).trans (((R1.dat (V2 m ρ) c).arrAt_in 2 rfl _).trans (R1.A_eq (V2 m ρ) c 2)))
    _ = W1 m ρ c (Proc.devRef .tc main_arg6) := (W2_of_ne m ρ c main_arg6 (by decide))
    _ = W0 m ρ c (Proc.devRef .tc main_arg6) := StableHlo.after_of_writes_sub hostOps0 _ hostOps0_writes (by decide)
    _ = m ((c : Thread nD τ).loc main_arg6) := rfl

/-! ## The proof data of both kernels and the state between segments -/

/-- Each kernel's proof data, at the contents it is entered with. -/
def pdats : (p : Fin 2) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V2 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those held between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the dues: every unscoped buffer at the final contents, the generator register. -/
abbrev Tₙ (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- Kernel 0 as a segment: entered with every unscoped buffer at the contents before it, left with them at the
    contents after it.  Its windows' arrays are taken out of the unscoped buffers on the way in and put back, at what
    the write-backs left, on the way out; the generator register goes into the kernel's invariant and comes back;
    nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (V1 m ρ) c)
    unfold Pipeline.ΦA
    iintro ⟨Hp, -, Hr⟩
    isplitl [Hr]; · iexact Hr
    iexact Hp
  hout c := by
    rw [Pipeline.ownSems0_none]
    refine BIBase.Entails.trans (R0.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as a segment: entered with every unscoped buffer at the contents before it, left with them at the
    contents after it.  Its windows' arrays are taken out of the unscoped buffers on the way in and put back, at what
    the write-backs left, on the way out; the generator register goes into the kernel's invariant and comes back;
    nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (V2 m ρ) c)
    unfold Pipeline.ΦA
    iintro ⟨Hp, -, Hr⟩
    isplitl [Hr]; · iexact Hr
    iexact Hp
  hout c := by
    rw [Pipeline.ownSems0_none]
    refine BIBase.Entails.trans (R1.hout (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of these segments. -/
theorem main_run (c : Dev nD) : main (F := F) c = Pipeline.Seg.run (segs m ρ) := (main_chain c).trans (by chain_rfl)

set_option backward.isDefEq.respectTransparency.types false in
/-- From any memory with zero counters, every weakly fair execution of the program terminates, nothing faulting,
    and every final state has every unscoped buffer at the final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ (∃ r, prngReg c r) ∗ ∃ W, owes (c : Thread nD τ) (0 : CellTallies nD τ sig Unit) W)
        ⊢ iprop((StableHlo.held (c : Thread nD τ) (Pipeline.ucRefs τ sig) (W4 m ρ c) ∗ ∃ r, prngReg c r) ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-! ## What the named buffers hold at each boundary -/

/-- The result is the second kernel's output array, reshaped. -/
theorem W4_main_v7 (c : Dev nD) :
    (W4 m ρ c (Proc.devRef .tc main_v7) : (⟨S4x2048x4096, .f32⟩ : BufTy).Contents (Elt F))
      = shapeCast S4x2048x4096 (W3 m ρ c (Proc.devRef .tc main_v6) : (⟨S8192x4096, .f32⟩ : BufTy).Contents (Elt F)) shapeCasts_S8192x4096_S4x2048x4096 := by
  show StableHlo.after hostOps2 _ _ = _
  after_results <;> rfl
/-- The second kernel's output array holds what its write-backs leave. -/
theorem W3_main_v6 (c : Dev nD) : W3 m ρ c (Proc.devRef .tc main_v6) = (R1.dat (V2 m ρ) c).arrAt 3 cfg1.N :=
  W3_arr m ρ c 3
/-- The first kernel's output array holds what its write-backs leave; the second kernel's other inputs are as the
    first kernel found them. -/
theorem V2_main_v5 (c : Dev nD) : V2 m ρ c main_v5 = (R0.dat (V1 m ρ) c).arrAt 5 cfg0.N :=
  W2_arr m ρ c 5
theorem V2_main_v4 (c : Dev nD) : V2 m ρ c main_v4 = V1 m ρ c main_v4 :=
  W2_of_ne m ρ c main_v4 (by decide)
theorem V2_main_arg6 (c : Dev nD) : V2 m ρ c main_arg6 = V1 m ρ c main_arg6 :=
  W2_of_ne m ρ c main_arg6 (by decide)
/-- What the opening host stretch leaves: the activations flattened to rows and rounded, the three integer weight
    arrays converted; the scale arrays are untouched arguments. -/
theorem V1_main_v1 (c : Dev nD) :
    (V1 m ρ c main_v1 : (⟨S8192x4096, .bf16⟩ : BufTy).Contents (Elt F))
      = truncf .bf16 (shapeCast S8192x4096 (m ((c : Thread nD τ).loc main_arg0) : (⟨S4x2048x4096, .f32⟩ : BufTy).Contents (Elt F)) shapeCasts_S4x2048x4096_S8192x4096) bitsLt_bf16_f32 := by
  show StableHlo.after hostOps0 _ _ = _
  after_results <;> rfl
theorem V1_main_v2 (c : Dev nD) :
    (V1 m ρ c main_v2 : (⟨S11008x4096, .bf16⟩ : BufTy).Contents (Elt F))
      = sitofp .bf16 (m ((c : Thread nD τ).loc main_arg1) : (⟨S11008x4096, .i32⟩ : BufTy).Contents (Elt F)) := by
  show StableHlo.after hostOps0 _ _ = _
  after_results <;> rfl
theorem V1_main_v3 (c : Dev nD) :
    (V1 m ρ c main_v3 : (⟨S11008x4096, .bf16⟩ : BufTy).Contents (Elt F))
      = sitofp .bf16 (m ((c : Thread nD τ).loc main_arg3) : (⟨S11008x4096, .i32⟩ : BufTy).Contents (Elt F)) := by
  show StableHlo.after hostOps0 _ _ = _
  after_results <;> rfl
theorem V1_main_v4 (c : Dev nD) :
    (V1 m ρ c main_v4 : (⟨S4096x11008, .bf16⟩ : BufTy).Contents (Elt F))
      = sitofp .bf16 (m ((c : Thread nD τ).loc main_arg5) : (⟨S4096x11008, .i32⟩ : BufTy).Contents (Elt F)) := by
  show StableHlo.after hostOps0 _ _ = _
  after_results <;> rfl
theorem V1_main_arg2 (c : Dev nD) : V1 m ρ c main_arg2 = m ((c : Thread nD τ).loc main_arg2) :=
  StableHlo.after_of_writes_sub hostOps0 _ hostOps0_writes (by decide)
theorem V1_main_arg4 (c : Dev nD) : V1 m ρ c main_arg4 = m ((c : Thread nD τ).loc main_arg4) :=
  StableHlo.after_of_writes_sub hostOps0 _ hostOps0_writes (by decide)
theorem V1_main_arg6 (c : Dev nD) : V1 m ρ c main_arg6 = m ((c : Thread nD τ).loc main_arg6) :=
  StableHlo.after_of_writes_sub hostOps0 _ hostOps0_writes (by decide)

end Cert.KernelIdeal.Whole

end
-- ==== Proof.Spec.lean ====
/-
  The function both programs compute, over the extended reals: a SwiGLU feed-forward layer with integer
  weights dequantized row by row.  With X the tokens (8192 rows of 4096 features), a weight matrix W of integers
  and a column s of per-row scales, the dequantized entry is  W[f,k] * s[f]  and a projection is

      proj X W s (n, f) = sum over k of  X[n,k] * (W[f,k] * s[f]).

  The hidden activation is  silu(gate) * up  with  silu(g) = g * logistic(g),  and the result is the projection of
  the hidden activation by the third dequantized matrix.  Every array is read index by index; no program is
  mentioned here.
-/
import Idealize.ShloMosaic.PureOps.Ideal
import Idealize.ShloMosaic.Lib.ValueIdx

noncomputable section

open scoped BigOperators

namespace Cert.Mlp

open Idealize.ShloMosaic Idealize.ShloMosaic.ValueIdx

/-- An integer weight read as a real number. -/
def wreal (b : BitVec 32) : EReal := ((b.toInt : ℝ) : EReal)

/-- A first-layer projection: token `n` against the dequantized row `f` of a 11008 x 4096 weight matrix. -/
def proj (X : FVec Ideal ⟨2, ![8192, 4096]⟩ .f32) (w : IVec ⟨2, ![11008, 4096]⟩ 32) (s : FVec Ideal ⟨2, ![11008, 1]⟩ .f32)
    (n : Fin 8192) (f : Fin 11008) : EReal :=
  ∑ k : Fin 4096, X (ix2 n k) * (wreal (w (ix2 f k)) * s (ix2 f 0))

/-- The hidden activation: silu of the gate projection times the up projection. -/
def hidden (X : FVec Ideal ⟨2, ![8192, 4096]⟩ .f32)
    (gw : IVec ⟨2, ![11008, 4096]⟩ 32) (gs : FVec Ideal ⟨2, ![11008, 1]⟩ .f32)
    (uw : IVec ⟨2, ![11008, 4096]⟩ 32) (us : FVec Ideal ⟨2, ![11008, 1]⟩ .f32)
    (n : Fin 8192) (f : Fin 11008) : EReal :=
  (proj X gw gs n f * Ideal.logistic (proj X gw gs n f)) * proj X uw us n f

/-- The layer's result at token `n`, feature `o`: the hidden activation against the dequantized row `o` of the
    4096 x 11008 down matrix. -/
def out (X : FVec Ideal ⟨2, ![8192, 4096]⟩ .f32)
    (gw : IVec ⟨2, ![11008, 4096]⟩ 32) (gs : FVec Ideal ⟨2, ![11008, 1]⟩ .f32)
    (uw : IVec ⟨2, ![11008, 4096]⟩ 32) (us : FVec Ideal ⟨2, ![11008, 1]⟩ .f32)
    (dw : IVec ⟨2, ![4096, 11008]⟩ 32) (ds : FVec Ideal ⟨2, ![4096, 1]⟩ .f32)
    (n : Fin 8192) (o : Fin 4096) : EReal :=
  ∑ f : Fin 11008, hidden X gw gs uw us n f * (wreal (dw (ix2 o f)) * ds (ix2 o 0))

/-- The hidden activation as an array. -/
def hiddenArr (X : FVec Ideal ⟨2, ![8192, 4096]⟩ .f32)
    (gw : IVec ⟨2, ![11008, 4096]⟩ 32) (gs : FVec Ideal ⟨2, ![11008, 1]⟩ .f32)
    (uw : IVec ⟨2, ![11008, 4096]⟩ 32) (us : FVec Ideal ⟨2, ![11008, 1]⟩ .f32) :
    FVec Ideal ⟨2, ![8192, 11008]⟩ .f32 :=
  fun j => hidden X gw gs uw us (j 0) (j 1)

/-- The layer's result as an array of 8192 x 4096 entries. -/
def outArr (X : FVec Ideal ⟨2, ![8192, 4096]⟩ .f32)
    (gw : IVec ⟨2, ![11008, 4096]⟩ 32) (gs : FVec Ideal ⟨2, ![11008, 1]⟩ .f32)
    (uw : IVec ⟨2, ![11008, 4096]⟩ 32) (us : FVec Ideal ⟨2, ![11008, 1]⟩ .f32)
    (dw : IVec ⟨2, ![4096, 11008]⟩ 32) (ds : FVec Ideal ⟨2, ![4096, 1]⟩ .f32) :
    FVec Ideal ⟨2, ![8192, 4096]⟩ .f32 :=
  fun j => out X gw gs uw us dw ds (j 0) (j 1)

end Cert.Mlp

end
-- ==== Proof.KI.Bridge.lean ====
/-
  From the two kernels' output arrays to the layer's result.  Suppose the first kernel's output array is, entry by
  entry,  silu(gate) * up  of its input arrays, and the second kernel's output array is the product of its first
  input with its dequantized weights (the two hypotheses below, stated for any contents the kernels are entered
  with).  The first kernel is entered with the tokens reshaped (the conversion to the narrow float format changes
  nothing over the extended reals) and the integer weights converted to numbers; the second with the first one's
  output.  Substituting one into the other, the result buffer is the specification's layer result, reshaped.
-/
import proofs.«158660_j59433757442706_2_alg».proof.Proof.KI.Whole
import proofs.«158660_j59433757442706_2_alg».proof.Proof.Spec
import Idealize.ShloMosaic.Lib.ValueIdx

set_option maxRecDepth 16384

noncomputable section

namespace Cert.KernelIdeal.Bridge

open Cert.KernelIdeal Cert.KernelIdeal.Gen Cert.KernelIdeal.Whole
open Idealize.ShloMosaic Idealize.ShloMosaic.TcCoe Idealize.ShloMosaic.ValueIdx Idealize.SL.Sem
open scoped BigOperators

/-- The result buffer at the end of the run is the specification's result of the argument arrays. -/
theorem result_eq
    (hout : ∀ (V : (c : Dev nD) → (b : Ref sig .tc) → Buf (Elt Ideal) ((c : Thread nD τ).loc b)) (c : Dev nD) (H : S8192x11008.Idx → EReal) (Wd : S4096x11008.Idx → EReal) (sd : S4096x1.Idx → EReal)
    (hH : V c main_v5 = H) (hW : V c main_v4 = Wd) (hs : V c main_arg6 = sd),
    (R1.dat V c).arrAt 3 cfg1.N = fun (j : S8192x4096.Idx) => ∑ f : Fin 11008, H (ix2 (j 0) f) * (Wd (ix2 (j 1) f) * sd (ix2 (j 1) 0)))
    (hhid : ∀ (V : (c : Dev nD) → (b : Ref sig .tc) → Buf (Elt Ideal) ((c : Thread nD τ).loc b)) (c : Dev nD) (X : S8192x4096.Idx → EReal) (Wg : S11008x4096.Idx → EReal) (sg : S11008x1.Idx → EReal) (Wu : S11008x4096.Idx → EReal) (su : S11008x1.Idx → EReal)
    (hX : V c main_v1 = X) (hWg : V c main_v2 = Wg) (hsg : V c main_arg2 = sg) (hWu : V c main_v3 = Wu) (hsu : V c main_arg4 = su),
    (R0.dat V c).arrAt 5 cfg0.N = fun (j : S8192x11008.Idx) =>
      ((∑ k : Fin 4096, X (ix2 (j 0) k) * (Wg (ix2 (j 1) k) * sg (ix2 (j 1) 0)))
        * Ideal.logistic (∑ k : Fin 4096, X (ix2 (j 0) k) * (Wg (ix2 (j 1) k) * sg (ix2 (j 1) 0))))
       * (∑ k : Fin 4096, X (ix2 (j 0) k) * (Wu (ix2 (j 1) k) * su (ix2 (j 1) 0))))
    (m : (ℓ : Loc nD τ sig) → Buf (Elt Ideal) ℓ) (ρ : Dev nD → PrngReg) (c : Dev nD) :
    (Whole.W4 m ρ c (Proc.devRef .tc main_v7) : (⟨S4x2048x4096, .f32⟩ : BufTy).Contents (Elt Ideal))
      = shapeCast S4x2048x4096 (Cert.Mlp.outArr (shapeCast S8192x4096 ((m ((c : Thread nD τ).loc main_arg0)) : (⟨S4x2048x4096, .f32⟩ : BufTy).Contents (Elt Ideal)) shapeCasts_S4x2048x4096_S8192x4096) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) shapeCasts_S8192x4096_S4x2048x4096 := by
  have hX : Whole.V1 m ρ c main_v1 = (shapeCast S8192x4096 ((m ((c : Thread nD τ).loc main_arg0)) : (⟨S4x2048x4096, .f32⟩ : BufTy).Contents (Elt Ideal)) shapeCasts_S4x2048x4096_S8192x4096 : S8192x4096.Idx → EReal) :=
    (Whole.V1_main_v1 m ρ c).trans (funext fun _ => rfl)
  have hWg : Whole.V1 m ρ c main_v2 = (fun i => Cert.Mlp.wreal ((m ((c : Thread nD τ).loc main_arg1)) i) : S11008x4096.Idx → EReal) :=
    (Whole.V1_main_v2 m ρ c).trans (funext fun _ => rfl)
  have hWu : Whole.V1 m ρ c main_v3 = (fun i => Cert.Mlp.wreal ((m ((c : Thread nD τ).loc main_arg3)) i) : S11008x4096.Idx → EReal) :=
    (Whole.V1_main_v3 m ρ c).trans (funext fun _ => rfl)
  have hWd : Whole.V2 m ρ c main_v4 = (fun i => Cert.Mlp.wreal ((m ((c : Thread nD τ).loc main_arg5)) i) : S4096x11008.Idx → EReal) :=
    (Whole.V2_main_v4 m ρ c).trans ((Whole.V1_main_v4 m ρ c).trans (funext fun _ => rfl))
  have hsd : Whole.V2 m ρ c main_arg6 = (m ((c : Thread nD τ).loc main_arg6)) := (Whole.V2_main_arg6 m ρ c).trans (Whole.V1_main_arg6 m ρ c)
  have hH := (Whole.V2_main_v5 m ρ c).trans (hhid (Whole.V1 m ρ) c _ _ _ _ _ hX hWg (Whole.V1_main_arg2 m ρ c) hWu (Whole.V1_main_arg4 m ρ c))
  rw [Whole.W4_main_v7, Whole.W3_main_v6, hout (Whole.V2 m ρ) c _ _ _ hH hWd hsd]
  rfl

end Cert.KernelIdeal.Bridge

end
-- ==== Proof.RefIsSpec.lean ====
/-
  The reference computes the specification function.  Read index by index, the reference's array before its last
  reshape is, at token n and feature o, the sum over the hidden features f of

      (silu of the gate projection at (n,f)) * (the up projection at (n,f)) * (the dequantized down weight at (o,f)),

  which is the layer's result of the specification.  The transposes only swap the two coordinates of a dequantized
  weight, the broadcast of a scale column reads the column at its row, and the reference's spelling of the logistic
  function, 1 / (1 + exp (-g)), is the extended-real logistic function once the float one is read as the number one.
-/
import proofs.«158660_j59433757442706_2_alg».proof.Proof.Gen.ReferenceIdeal.Read
import proofs.«158660_j59433757442706_2_alg».proof.Proof.Spec

noncomputable section

open scoped BigOperators

namespace Cert.Mlp.Ref

open Cert.ReferenceIdeal Cert.ReferenceIdeal.Gen Idealize.ShloMosaic Idealize.ShloMosaic.ValueIdx

/-- The bit pattern of the float one reads as the number one. -/
theorem ofBits_one_f32 : Ideal.ofBits .f32 0x3F800000#32 = 1 := by
  simp [Ideal.ofBits, Ideal.ieee, -EReal.coe_mul]; norm_num

/-- The transposed dequantized gate matrix at (k,f): the weight at (f,k) times the scale of row f. -/
theorem v4_at (x1 : (⟨S11008x4096, .i32⟩ : BufTy).Contents (Elt Ideal)) (x2 : (⟨S11008x1, .f32⟩ : BufTy).Contents (Elt Ideal)) (k : Fin 4096) (f : Fin 11008) :
    Read.val_main_v4 (F := Ideal) x1 x2 (ix2 k f) = wreal (x1 (ix2 f k)) * x2 (ix2 f 0) := by
  have e1 : Read.idx_main_v4 (ix2 k f) = ix2 f k := funext fun a => Fin.ext (by match a with | ⟨0, _⟩ => rfl | ⟨1, _⟩ => rfl)
  have e2 : Read.idx_main_v2 (ix2 f k) = ix2 f 0 := funext fun a => Fin.ext (by match a with | ⟨0, _⟩ => rfl | ⟨1, _⟩ => rfl)
  rw [Read.val_main_v4_apply, e1, Read.val_main_v3_apply, Read.val_main_v1_apply, Read.val_main_v2_apply, e2]
  rfl

/-- The transposed dequantized up matrix at (k,f): the weight at (f,k) times the scale of row f. -/
theorem v9_at (x3 : (⟨S11008x4096, .i32⟩ : BufTy).Contents (Elt Ideal)) (x4 : (⟨S11008x1, .f32⟩ : BufTy).Contents (Elt Ideal)) (k : Fin 4096) (f : Fin 11008) :
    Read.val_main_v9 (F := Ideal) x3 x4 (ix2 k f) = wreal (x3 (ix2 f k)) * x4 (ix2 f 0) := by
  have e1 : Read.idx_main_v9 (ix2 k f) = ix2 f k := funext fun a => Fin.ext (by match a with | ⟨0, _⟩ => rfl | ⟨1, _⟩ => rfl)
  have e2 : Read.idx_main_v7 (ix2 f k) = ix2 f 0 := funext fun a => Fin.ext (by match a with | ⟨0, _⟩ => rfl | ⟨1, _⟩ => rfl)
  rw [Read.val_main_v9_apply, e1, Read.val_main_v8_apply, Read.val_main_v6_apply, Read.val_main_v7_apply, e2]
  rfl

/-- The transposed dequantized down matrix at (f,o): the weight at (o,f) times the scale of row o. -/
theorem v16_at (x5 : (⟨S4096x11008, .i32⟩ : BufTy).Contents (Elt Ideal)) (x6 : (⟨S4096x1, .f32⟩ : BufTy).Contents (Elt Ideal)) (f : Fin 11008) (o : Fin 4096) :
    Read.val_main_v16 (F := Ideal) x5 x6 (ix2 f o) = wreal (x5 (ix2 o f)) * x6 (ix2 o 0) := by
  have e1 : Read.idx_main_v16 (ix2 f o) = ix2 o f := funext fun a => Fin.ext (by match a with | ⟨0, _⟩ => rfl | ⟨1, _⟩ => rfl)
  have e2 : Read.idx_main_v14 (ix2 o f) = ix2 o 0 := funext fun a => Fin.ext (by match a with | ⟨0, _⟩ => rfl | ⟨1, _⟩ => rfl)
  rw [Read.val_main_v16_apply, e1, Read.val_main_v15_apply, Read.val_main_v13_apply, Read.val_main_v14_apply, e2]
  rfl

/-- The reference's gate product at (n,f) is the gate projection. -/
theorem v5_at (x0 : (⟨S4x2048x4096, .f32⟩ : BufTy).Contents (Elt Ideal)) (x1 : (⟨S11008x4096, .i32⟩ : BufTy).Contents (Elt Ideal)) (x2 : (⟨S11008x1, .f32⟩ : BufTy).Contents (Elt Ideal)) (n : Fin 8192) (f : Fin 11008) :
    Read.val_main_v5 (F := Ideal) x0 x1 x2 (ix2 n f) = proj (Read.val_main_v0 (F := Ideal) x0) x1 x2 n f := by
  rw [Read.val_main_v5_apply]
  unfold proj
  refine Finset.sum_congr rfl fun k _ => ?_
  have el : Read.lidx_main_v5 (ix2 n f) k = ix2 n k := funext fun a => Fin.ext (by match a with | ⟨0, _⟩ => rfl | ⟨1, _⟩ => rfl)
  have er : Read.ridx_main_v5 (ix2 n f) k = ix2 k f := funext fun a => Fin.ext (by match a with | ⟨0, _⟩ => rfl | ⟨1, _⟩ => rfl)
  rw [el, er, v4_at]

/-- The reference's up product at (n,f) is the up projection. -/
theorem v10_at (x0 : (⟨S4x2048x4096, .f32⟩ : BufTy).Contents (Elt Ideal)) (x3 : (⟨S11008x4096, .i32⟩ : BufTy).Contents (Elt Ideal)) (x4 : (⟨S11008x1, .f32⟩ : BufTy).Contents (Elt Ideal)) (n : Fin 8192) (f : Fin 11008) :
    Read.val_main_v10 (F := Ideal) x0 x3 x4 (ix2 n f) = proj (Read.val_main_v0 (F := Ideal) x0) x3 x4 n f := by
  rw [Read.val_main_v10_apply]
  unfold proj
  refine Finset.sum_congr rfl fun k _ => ?_
  have el : Read.lidx_main_v10 (ix2 n f) k = ix2 n k := funext fun a => Fin.ext (by match a with | ⟨0, _⟩ => rfl | ⟨1, _⟩ => rfl)
  have er : Read.ridx_main_v10 (ix2 n f) k = ix2 k f := funext fun a => Fin.ext (by match a with | ⟨0, _⟩ => rfl | ⟨1, _⟩ => rfl)
  rw [el, er, v9_at]

/-- The reference's silu of the gate product at (n,f): g * logistic g with g the gate projection. -/
theorem v11_at (x0 : (⟨S4x2048x4096, .f32⟩ : BufTy).Contents (Elt Ideal)) (x1 : (⟨S11008x4096, .i32⟩ : BufTy).Contents (Elt Ideal)) (x2 : (⟨S11008x1, .f32⟩ : BufTy).Contents (Elt Ideal)) (n : Fin 8192) (f : Fin 11008) :
    Read.val_main_v11 (F := Ideal) x0 x1 x2 (ix2 n f)
      = proj (Read.val_main_v0 (F := Ideal) x0) x1 x2 n f * Ideal.logistic (proj (Read.val_main_v0 (F := Ideal) x0) x1 x2 n f) := by
  rw [Read.val_main_v11_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply, v5_at]
  simp only [Ideal.ofBits_def, ofBits_one_f32]
  rfl

/-- The reference's hidden activation at (n,f) is the specification's. -/
theorem v12_at (x0 : (⟨S4x2048x4096, .f32⟩ : BufTy).Contents (Elt Ideal)) (x1 : (⟨S11008x4096, .i32⟩ : BufTy).Contents (Elt Ideal)) (x2 : (⟨S11008x1, .f32⟩ : BufTy).Contents (Elt Ideal)) (x3 : (⟨S11008x4096, .i32⟩ : BufTy).Contents (Elt Ideal)) (x4 : (⟨S11008x1, .f32⟩ : BufTy).Contents (Elt Ideal)) (n : Fin 8192) (f : Fin 11008) :
    Read.val_main_v12 (F := Ideal) x0 x1 x2 x3 x4 (ix2 n f) = hidden (Read.val_main_v0 (F := Ideal) x0) x1 x2 x3 x4 n f := by
  rw [Read.val_main_v12_apply, v11_at, v10_at]
  rfl

/-- The reference's array before its last reshape is the specification's result array. -/
theorem ref_eq (x0 : (⟨S4x2048x4096, .f32⟩ : BufTy).Contents (Elt Ideal)) (x1 : (⟨S11008x4096, .i32⟩ : BufTy).Contents (Elt Ideal)) (x2 : (⟨S11008x1, .f32⟩ : BufTy).Contents (Elt Ideal)) (x3 : (⟨S11008x4096, .i32⟩ : BufTy).Contents (Elt Ideal)) (x4 : (⟨S11008x1, .f32⟩ : BufTy).Contents (Elt Ideal)) (x5 : (⟨S4096x11008, .i32⟩ : BufTy).Contents (Elt Ideal)) (x6 : (⟨S4096x1, .f32⟩ : BufTy).Contents (Elt Ideal)) :
    Cert.ReferenceIdeal.Read.val_main_v17 (F := Ideal) x0 x1 x2 x3 x4 x5 x6
      = Cert.Mlp.outArr (Cert.ReferenceIdeal.Read.val_main_v0 (F := Ideal) x0) x1 x2 x3 x4 x5 x6 := by
  funext i
  obtain ⟨n, o, rfl⟩ : ∃ (n : Fin 8192) (o : Fin 4096), i = ix2 n o := ⟨i 0, i 1, eq_ix2 i⟩
  rw [Read.val_main_v17_apply]
  show _ = out (Read.val_main_v0 (F := Ideal) x0) x1 x2 x3 x4 x5 x6 n o
  unfold out
  refine Finset.sum_congr rfl fun f _ => ?_
  have el : Read.lidx_main_v17 (ix2 n o) f = ix2 n f := funext fun a => Fin.ext (by match a with | ⟨0, _⟩ => rfl | ⟨1, _⟩ => rfl)
  have er : Read.ridx_main_v17 (ix2 n o) f = ix2 f o := funext fun a => Fin.ext (by match a with | ⟨0, _⟩ => rfl | ⟨1, _⟩ => rfl)
  rw [el, er, v12_at, v16_at]

/-- The reference's result is the specification's result array, reshaped to 4 x 2048 x 4096. -/
theorem ref_result_eq (x0 : (⟨S4x2048x4096, .f32⟩ : BufTy).Contents (Elt Ideal)) (x1 : (⟨S11008x4096, .i32⟩ : BufTy).Contents (Elt Ideal)) (x2 : (⟨S11008x1, .f32⟩ : BufTy).Contents (Elt Ideal)) (x3 : (⟨S11008x4096, .i32⟩ : BufTy).Contents (Elt Ideal)) (x4 : (⟨S11008x1, .f32⟩ : BufTy).Contents (Elt Ideal)) (x5 : (⟨S4096x11008, .i32⟩ : BufTy).Contents (Elt Ideal)) (x6 : (⟨S4096x1, .f32⟩ : BufTy).Contents (Elt Ideal)) :
    Cert.ReferenceIdeal.Read.val_main_v18 (F := Ideal) x0 x1 x2 x3 x4 x5 x6
      = shapeCast _ (Cert.Mlp.outArr (Cert.ReferenceIdeal.Read.val_main_v0 (F := Ideal) x0) x1 x2 x3 x4 x5 x6) shapeCasts_S8192x4096_S4x2048x4096 := by
  unfold Read.val_main_v18
  rw [ref_eq]

end Cert.Mlp.Ref

end
-- ==== Proof.LibMatmulSumT.lean ====
/-
  A matrix product with the right operand transposed, read at an index, at the ideal values.

  For dimension numbers that contract the left operand's axis 1 with the right operand's axis 1, with no batch axis — an
  [M, K] by [N, K] product into [M, N], the product of the left matrix with the transpose of the right — the operand
  indices at result index `j` and contraction index `q` are (j 0, q) and (j 1, q).  So a `tpu.matmul` into a zero
  accumulator is, at every result index, the sum over `k : Fin K` of `l (j 0, k) * r (j 1, k)` on the extended reals.
-/
import Idealize.ShloMosaic.PureOps.Ideal.Laws
import Idealize.ShloMosaic.Lib.ValueIdx

noncomputable section

namespace Cert.LibMatmulSumT

open Idealize.ShloMosaic Idealize.ShloMosaic.ValueIdx

variable {M K N : Nat} (d : DotDims ⟨2, ![M, K]⟩ ⟨2, ![N, K]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Row coordinate of the right operand's index: the result's column. -/
theorem rhsIdx_row (hln : d.lhsNonContracting = [0]) (hrn : d.rhsNonContracting = [0]) (hlb : d.lhsBatch = [])
    (hrb : d.rhsBatch = []) (j : (⟨2, ![M, N]⟩ : Shape).Idx) (q : d.contr.Idx) : (d.rhsIdx j q 0).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum, re-indexed over `Fin K`. -/
theorem sum_contr (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (j : (⟨2, ![M, N]⟩ : Shape).Idx) :
    ∑ q : d.contr.Idx, l (d.lhsIdx j q) * r (d.rhsIdx j q) = ∑ k : Fin K, l (ix2 (j 0) k) * r (ix2 (j 1) k) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 (j 1) k :=
    funext fun a => Fin.ext (by
      match a with
      | ⟨0, _⟩ => exact rhsIdx_row d hln hrn hlb hrb _ _
      | ⟨1, _⟩ => exact (d.rhsIdx_val_of_single hrc _ _).trans hk)
  exact congrArg₂ (fun a b => l a * r b) el er

/-- A `tpu.matmul` of such a product into the zero splat, at an index: the sum of products over the shared axis. -/
theorem matmul_zero_apply {φ₁ φ₂ : FTy} (hlc : d.lhsContracting = [1]) (hrc : d.rhsContracting = [1])
    (hln : d.lhsNonContracting = [0]) (hrn : d.rhsNonContracting = [0]) (hlb : d.lhsBatch = []) (hrb : d.rhsBatch = [])
    (prec : Option ContractPrecision) (l : FVec Ideal ⟨2, ![M, K]⟩ φ₁) (r : FVec Ideal ⟨2, ![N, K]⟩ φ₂)
    (j : (⟨2, ![M, N]⟩ : Shape).Idx) :
    FloatOps.matmul d prec l r (constant ⟨2, ![M, N]⟩ .f32 0x00000000#32) j = ∑ k : Fin K, l (ix2 (j 0) k) * r (ix2 (j 1) k) :=
  (Ideal.matmul_constant_zero_apply d prec l r j).trans (sum_contr d hlc hrc hln hrn hlb hrb l r j)

end Cert.LibMatmulSumT

end
-- ==== Proof.LibLayout.lean ====
/- Layout operations of "keepdims" column vectors and doubly unit-led blocks, read at an index built from explicit
   coordinates. Each lemma says which element of the operand an element of the result is. -/
import Idealize.ShloMosaic.Lib.Pipeline.Value
import Idealize.ShloMosaic.Lib.ValueIdx

noncomputable section

namespace Cert.LibLayout

open Idealize.ShloMosaic Idealize.ShloMosaic.ValueIdx

variable {α : Type}

/-- A [1, 1, a, b] block viewed as [a, b]: element (p, q) is element (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] value stored as a [1, 1, a, b] block: element (0, 0, p, q) is element (p, q). -/
theorem shapeCast_ab_11ab_apply {a b : ℕ} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_four, Shape.rowMajor_val_two]
    show p.val * b + q.val = ((0 * 1 + 0) * a + p.val) * b + q.val
    simp only [Nat.zero_mul, Nat.zero_add])

/-- A vector [a] viewed as a column [a, 1]: element (p, 0) is element p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    simp only [Nat.mul_one, Nat.add_zero])

/-- A column [a, 1] broadcast along its rows to [a, b]: element (p, q) is element (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) :=
  broadcastTo_apply x h _ _ (fun c => by
    match c with
    | ⟨0, _⟩ =>
      show p.val = if a = 1 then 0 else p.val
      by_cases ha : a = 1
      · rw [if_pos ha]; have := p.isLt; omega
      · rw [if_neg ha]
    | ⟨1, _⟩ =>
      show 0 = if (1 : ℕ) = 1 then 0 else q.val
      rw [if_pos rfl])

end Cert.LibLayout

end
-- ==== Proof.KI.PayloadIdeal.lean ====
/-
  The kernels' payloads read at an index, over the extended reals.

  Every payload here is a pure term.  A shape cast to the same shape is the identity, widening and narrowing a float are
  the identity, a column of scales broadcast along its rows reads the column at its row, and a matrix product into the
  zero splat with the right operand transposed is, at (p,q), the sum over the shared axis r of left (p,r) * right (q,r).
  So the accumulating payloads are

      accumulator (p,q) + sum over r of  left (p,r) * (weight (q,r) * scale (q,0)),

  the resetting payloads are zero, and the activation payload is  g * logistic g * u  elementwise.
-/
import proofs.«158660_j59433757442706_2_alg».proof.Proof.Gen.KernelIdeal.Skeleton
import proofs.«158660_j59433757442706_2_alg».proof.Proof.LibMatmulSumT
import proofs.«158660_j59433757442706_2_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadIdeal

open Cert.KernelIdeal Cert.KernelIdeal.Gen Idealize.ShloMosaic Idealize.ShloMosaic.ValueIdx

/-- The second kernel's resetting payload is zero everywhere. -/
theorem k1_pay1_apply (j : S2048x1024.Idx) : k1_pay1 (F := Ideal) j = 0 := by
  unfold k1_pay1
  simp only [shapeCast_self]
  exact Ideal.ofBits_zero_f32

/-- The second kernel's accumulating payload at (p,q): the accumulator plus the product of the hidden block with the
    dequantized down block over the 256 shared places. -/
theorem k1_pay2_apply (x0 : Vec Ideal S2048x256 .bf16) (x1 : Vec Ideal S1024x256 .bf16) (x2 : Vec Ideal S1024x1 .f32)
    (xs : Vec Ideal S2048x1024 .f32) (p : Fin 2048) (q : Fin 1024) :
    k1_pay2 (F := Ideal) x0 x1 x2 xs (ix2 p q)
      = xs (ix2 p q) + ∑ r : Fin 256, x0 (ix2 p r) * (x1 (ix2 q r) * x2 (ix2 q 0)) := by
  unfold k1_pay2
  simp only [shapeCast_self]
  refine (addf_apply _ _ _).trans ?_
  refine congrArg (xs (ix2 p q) + ·) ?_
  refine (Cert.LibMatmulSumT.matmul_zero_apply (φ₁ := .bf16) (φ₂ := .bf16) dot_S2048x256_S1024x256_S2048x1024_1_1_0_0_n_n
    rfl rfl rfl rfl rfl rfl none x0 _ (ix2 p q)).trans ?_
  refine Finset.sum_congr rfl fun r _ => ?_
  refine congrArg (x0 (ix2 p r) * ·) ?_
  show x1 (ix2 q r) * broadcastTo S1024x256 x2 broadcasts_S1024x1_S1024x256 (ix2 q r) = _
  rw [Cert.LibLayout.broadcastTo_a1_ab_apply]

/-- The first kernel's resetting payload of the gate accumulator is zero everywhere. -/
theorem k0_pay3_apply (j : S1024x256.Idx) : k0_pay3 (F := Ideal) j = 0 := by
  unfold k0_pay3
  simp only [shapeCast_self]
  exact Ideal.ofBits_zero_f32

/-- The first kernel's resetting payload of the up accumulator is zero everywhere. -/
theorem k0_pay4_apply (j : S1024x256.Idx) : k0_pay4 (F := Ideal) j = 0 := by
  unfold k0_pay4
  simp only [shapeCast_self]
  exact Ideal.ofBits_zero_f32

/-- The first kernel's gate payload at (p,q): the accumulator plus the product of the token block with the dequantized
    gate block over the 1024 shared places. -/
theorem k0_pay6_apply (v6 : Vec Ideal S1024x1024 .bf16) (v8 : Vec Ideal S256x1024 .bf16) (v11 : Vec Ideal S256x1 .f32)
    (v22 : Vec Ideal S1024x256 .f32) (p : Fin 1024) (q : Fin 256) :
    k0_pay6 (F := Ideal) v6 v8 v11 v22 (ix2 p q)
      = v22 (ix2 p q) + ∑ r : Fin 1024, v6 (ix2 p r) * (v8 (ix2 q r) * v11 (ix2 q 0)) := by
  unfold k0_pay6 k0_pay5
  simp only [shapeCast_self]
  refine (addf_apply _ _ _).trans ?_
  refine congrArg (v22 (ix2 p q) + ·) ?_
  refine (Cert.LibMatmulSumT.matmul_zero_apply (φ₁ := .bf16) (φ₂ := .bf16) dot_S1024x1024_S256x1024_S1024x256_1_1_0_0_n_n
    rfl rfl rfl rfl rfl rfl none v6 _ (ix2 p q)).trans ?_
  refine Finset.sum_congr rfl fun r _ => ?_
  refine congrArg (v6 (ix2 p r) * ·) ?_
  show v8 (ix2 q r) * broadcastTo S256x1024 v11 broadcasts_S256x1_S256x1024 (ix2 q r) = _
  rw [Cert.LibLayout.broadcastTo_a1_ab_apply]

/-- The first kernel's up payload at (p,q): the accumulator plus the product of the token block with the dequantized
    up block over the 1024 shared places. -/
theorem k0_pay7_apply (v6 : Vec Ideal S1024x1024 .bf16) (v15 : Vec Ideal S256x1024 .bf16) (v18 : Vec Ideal S256x1 .f32)
    (v28 : Vec Ideal S1024x256 .f32) (p : Fin 1024) (q : Fin 256) :
    k0_pay7 (F := Ideal) v6 v15 v18 v28 (ix2 p q)
      = v28 (ix2 p q) + ∑ r : Fin 1024, v6 (ix2 p r) * (v15 (ix2 q r) * v18 (ix2 q 0)) := by
  unfold k0_pay7 k0_pay5
  simp only [shapeCast_self]
  refine (addf_apply _ _ _).trans ?_
  refine congrArg (v28 (ix2 p q) + ·) ?_
  refine (Cert.LibMatmulSumT.matmul_zero_apply (φ₁ := .bf16) (φ₂ := .bf16) dot_S1024x1024_S256x1024_S1024x256_1_1_0_0_n_n
    rfl rfl rfl rfl rfl rfl none v6 _ (ix2 p q)).trans ?_
  refine Finset.sum_congr rfl fun r _ => ?_
  refine congrArg (v6 (ix2 p r) * ·) ?_
  show v15 (ix2 q r) * broadcastTo S256x1024 v18 broadcasts_S256x1_S256x1024 (ix2 q r) = _
  rw [Cert.LibLayout.broadcastTo_a1_ab_apply]

/-- The first kernel's copying payload is its operand. -/
theorem k0_pay1_apply (v30 : FVec Ideal S1024x256 .f32) (j : S1024x256.Idx) : k0_pay1 (F := Ideal) v30 j = v30 j := by
  unfold k0_pay1
  simp only [shapeCast_self]

/-- The first kernel's activation payload, elementwise: g * logistic g * u. -/
theorem k0_pay2_apply (v37 v38 : Vec Ideal S1024x256 .f32) (j : S1024x256.Idx) :
    k0_pay2 (F := Ideal) v37 v38 j = (v37 j * Ideal.logistic (v37 j)) * v38 j := by
  unfold k0_pay2
  rfl

end Cert.KernelIdeal.PayloadIdeal

end
-- ==== Proof.LibSumTiles.lean ====
/-
  Regrouping a sum over a range cut into equal tiles.

  The indices below `n * b` are exactly the numbers `t * b + r` with `t < n` the tile and `r < b` the
  place inside the tile, each once. A sum over the whole range, in a commutative monoid, is therefore the
  sum over the tiles of each tile's own sum.
-/
import Mathlib.Algebra.BigOperators.Fin
import Mathlib.Logic.Equiv.Fin.Basic

namespace Cert.LibSumTiles

open scoped BigOperators

/-- Place `r` of tile `t` lies below `n * b`: `t * b + r < t * b + b = (t + 1) * b ≤ n * b`. -/
theorem tile_lt {n b : Nat} (t : Fin n) (r : Fin b) : t.val * b + r.val < n * b :=
  calc t.val * b + r.val < t.val * b + b := Nat.add_lt_add_left r.isLt _
    _ = (t.val + 1) * b := (Nat.succ_mul _ _).symm
    _ ≤ n * b := Nat.mul_le_mul_right b t.isLt

/-- A sum over `Fin (n * b)` is the sum over the `n` tiles of the sum over the `b` places of a tile, the
    summand taken at index `t * b + r`. It holds in any additive commutative monoid: the map
    `(t, r) ↦ t * b + r` is a bijection from pairs onto the range, and a finite sum does not depend on the
    order of its terms. -/
theorem sum_tiles {M : Type*} [AddCommMonoid M] (n b : Nat) (f : Fin (n * b) → M) :
    ∑ i, f i = ∑ t : Fin n, ∑ r : Fin b, f ⟨t.val * b + r.val, tile_lt t r⟩ := by
  rw [← Fintype.sum_prod_type']
  refine (Fintype.sum_equiv finProdFinEquiv _ _ ?_).symm
  rintro ⟨t, r⟩
  refine congrArg f (Fin.ext ?_)
  show t.val * b + r.val = r.val + b * t.val
  rw [Nat.add_comm, Nat.mul_comm]

/-- 8192 indices as 64 tiles of 128. -/
theorem sum_tiles_64_128 {M : Type*} [AddCommMonoid M] (f : Fin 8192 → M) :
    ∑ i, f i = ∑ t : Fin 64, ∑ r : Fin 128,
      f ⟨t.val * 128 + r.val, tile_lt (n := 64) (b := 128) t r⟩ :=
  sum_tiles 64 128 f

/-- 8192 indices as 16 tiles of 512. -/
theorem sum_tiles_16_512 {M : Type*} [AddCommMonoid M] (f : Fin 8192 → M) :
    ∑ i, f i = ∑ t : Fin 16, ∑ r : Fin 512,
      f ⟨t.val * 512 + r.val, tile_lt (n := 16) (b := 512) t r⟩ :=
  sum_tiles 16 512 f

end Cert.LibSumTiles
-- ==== Proof.LibChunkSum.lean ====
/-
  Sums taken chunk by chunk.

  A total that starts from zero and receives one chunk after another is, after chunk j, the sum of the chunks
  0, …, j.  When the chunks are the consecutive blocks of b summands of a family of n * b summands, the total after
  the last chunk is the sum of the whole family: the indices below n * b are the numbers t * b + r with t < n and
  r < b, each once, and a finite sum in a commutative monoid does not depend on the order of its terms.
-/
import Mathlib.Algebra.BigOperators.Fin
import proofs.«158660_j59433757442706_2_alg».proof.Proof.LibSumTiles

namespace Cert.LibChunkSum

open scoped BigOperators

variable {M : Type*} [AddCommMonoid M]

/-- A running total that starts from zero: after chunk 0 it is 0 + c 0, after chunk j+1 it is
    (total after j) + c (j+1). -/
def running (c : ℕ → M) : ℕ → M
  | 0 => 0 + c 0
  | (j+1) => running c j + c (j+1)

/-- The running total after chunk j is the sum of the chunks 0, …, j. -/
theorem running_eq_sum (c : ℕ → M) (j : ℕ) : running c j = ∑ i ∈ Finset.range (j+1), c i := by
  induction j with
  | zero => rw [running, zero_add, Finset.sum_range_one]
  | succ j ih => rw [running, ih, ← Finset.sum_range_succ]

/-- The running total after chunk j, as a sum over the j+1 chunk numbers. -/
theorem running_eq_sum_fin (c : ℕ → M) (j : ℕ) : running c j = ∑ t : Fin (j+1), c t.val := by
  rw [running_eq_sum, Finset.sum_range]

/-- A sum over n * b indices is the sum over the n chunks of the sum over the b places of a chunk, the summand
    taken at index t * b + r. -/
theorem sum_fin_chunks (n b : ℕ) (g : Fin (n*b) → M) :
    ∑ k : Fin (n*b), g k = ∑ t : Fin n, ∑ r : Fin b, g ⟨t.val*b + r.val, Cert.LibSumTiles.tile_lt t r⟩ :=
  Cert.LibSumTiles.sum_tiles n b g

/-- The same with the chunk number a natural number below n: a sum over n * b indices is the sum over t < n of
    chunk t's own sum. -/
theorem sum_fin_chunks_range (n b : ℕ) (g : Fin (n*b) → M) :
    ∑ k : Fin (n*b), g k
      = ∑ t ∈ Finset.range n,
          if h : t < n then ∑ r : Fin b, g ⟨t*b + r.val, Cert.LibSumTiles.tile_lt (⟨t, h⟩ : Fin n) r⟩ else 0 := by
  rw [sum_fin_chunks, Finset.sum_range]
  refine Finset.sum_congr rfl fun t _ => ?_
  rw [dif_pos t.isLt]

/-- 4096 indices as 4 chunks of 1024, the summand taken at index 1024 * t + r. -/
theorem sum_chunks_4_1024 (g : Fin 4096 → M) :
    ∑ k : Fin 4096, g k = ∑ t : Fin 4, ∑ r : Fin 1024, g ⟨1024 * t.val + r.val, by omega⟩ := by
  refine (sum_fin_chunks 4 1024 g).trans ?_
  refine Finset.sum_congr rfl fun t _ => Finset.sum_congr rfl fun r _ => congrArg g (Fin.ext ?_)
  show t.val * 1024 + r.val = 1024 * t.val + r.val
  rw [Nat.mul_comm]

/-- 11008 indices as 43 chunks of 256, the summand taken at index 256 * t + r. -/
theorem sum_chunks_43_256 (g : Fin 11008 → M) :
    ∑ k : Fin 11008, g k = ∑ t : Fin 43, ∑ r : Fin 256, g ⟨256 * t.val + r.val, by omega⟩ := by
  refine (sum_fin_chunks 43 256 g).trans ?_
  refine Finset.sum_congr rfl fun t _ => Finset.sum_congr rfl fun r _ => congrArg g (Fin.ext ?_)
  show t.val * 256 + r.val = 256 * t.val + r.val
  rw [Nat.mul_comm]

/-- A running total whose chunk t, for t < 4, is the sum of the 1024 summands at 1024 * t + r is, after chunk 3,
    the sum of all 4096 summands. -/
theorem running_chunks_4_1024 (g : Fin 4096 → M) (c : ℕ → M)
    (hc : ∀ t : Fin 4, c t.val = ∑ r : Fin 1024, g ⟨1024 * t.val + r.val, by omega⟩) :
    running c 3 = ∑ k : Fin 4096, g k :=
  (running_eq_sum_fin c 3).trans ((Finset.sum_congr rfl fun t _ => hc t).trans (sum_chunks_4_1024 g).symm)

/-- A running total whose chunk t, for t < 43, is the sum of the 256 summands at 256 * t + r is, after chunk 42,
    the sum of all 11008 summands. -/
theorem running_chunks_43_256 (g : Fin 11008 → M) (c : ℕ → M)
    (hc : ∀ t : Fin 43, c t.val = ∑ r : Fin 256, g ⟨256 * t.val + r.val, by omega⟩) :
    running c 42 = ∑ k : Fin 11008, g k :=
  (running_eq_sum_fin c 42).trans ((Finset.sum_congr rfl fun t _ => hc t).trans (sum_chunks_43_256 g).symm)

end Cert.LibChunkSum
-- ==== Proof.KI.R1Value.lean ====
/-
  The value of the down projection's output array.

  Part A: what each kind of grid point leaves in the accumulator and in the output block is the kernel's accumulating
  payload, applied to the point's three input blocks and to what the accumulator held (the cleared accumulator at a
  first chunk).  Part B: so the accumulator after the point number t is that payload of the blocks at t and of the
  accumulator after the point before, and at a last chunk the output block holds the same.  Part C, over the extended
  reals: within one output tile the accumulator after chunk k is a running total of k+1 chunk products, so after the
  last chunk it is the whole sum over the 11008 hidden features; the output tiles written back at the last chunks
  cover the output array, which is therefore, at (n,o), the sum over f of hidden (n,f) * (weight (o,f) * scale (o,0)).
-/
import proofs.«158660_j59433757442706_2_alg».proof.Proof.KI.R1Frame
import proofs.«158660_j59433757442706_2_alg».proof.Proof.KI.PayloadIdeal
import proofs.«158660_j59433757442706_2_alg».proof.Proof.LibChunkSum
import Idealize.ShloMosaic.Lib.Pipeline.Value
import Idealize.ShloMosaic.Lib.ValueIdx

set_option maxRecDepth 16384

noncomputable section

namespace Cert.KernelIdeal.R1V

open Cert.KernelIdeal Cert.KernelIdeal.Gen Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle, spelt as a constant function. -/
theorem zz : (![0, 0] : Fin 2 → Nat) = fun _ => 0 := by funext a; match a with | ⟨0, _⟩ => rfl | ⟨1, _⟩ => rfl

/-! ## What each kind of point leaves, as the payload -/

/-- After a first chunk the accumulator holds the accumulating payload of the cleared accumulator. -/
theorem accFirst_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : isFirst i) (hl : ¬isLast i) (x0 : Vec F S2048x256 .bf16) (x1 : Vec F S1024x256 .bf16) (x2 : Vec F S1024x1 .f32) :
    accFirst c i arg3 harg3 arg4 harg4 arg5 harg5 arg6 harg6 arg7 harg7 hf hl x0 x1 x2 = k1_pay2 x0 x1 x2 (k1_pay1 (F := F)) := by
  unfold accFirst
  rw [View.read_writes_eq_canon _ _ _ (coverFirst c i arg3 harg3 arg4 harg4 arg5 harg5 arg6 harg6 arg7 harg7 hf hl x0 x1 x2)]
  unfold runFirst
  dsimp only
  rw [View.canon_cons_unit_zero zz]
  sl_unfold_run_names
  rw [View.readCov_unit_zero (S := S2048x1024) arg7.view zz]
  simp only [View.readAt_eq_ld, harg3.read_unread, harg4.read_unread, harg5.read_unread, View.ld_unit_zero (S := S2048x256) zz, View.ld_unit_zero (S := S1024x256) zz, View.ld_unit_zero (S := S1024x1) zz]

/-- After a middle chunk the accumulator holds the accumulating payload of what the point before left. -/
theorem accMid_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : ¬isLast i) (x0 : Vec F S2048x256 .bf16) (x1 : Vec F S1024x256 .bf16) (x2 : Vec F S1024x1 .f32) (xs : Vec F S2048x1024 .f32) :
    accMid c i arg3 harg3 arg4 harg4 arg5 harg5 arg6 harg6 arg7 harg7 hf hl x0 x1 x2 xs = k1_pay2 x0 x1 x2 xs := by
  unfold accMid
  rw [View.read_writes_eq_canon _ _ _ (coverMid c i arg3 harg3 arg4 harg4 arg5 harg5 arg6 harg6 arg7 harg7 hf hl x0 x1 x2 xs)]
  unfold runMid
  dsimp only
  rw [View.canon_unit_zero zz]
  simp only [View.readAt_eq_ld, harg3.read_unread, harg4.read_unread, harg5.read_unread, harg7.read_unread, View.ld_unit_zero (S := S2048x256) zz, View.ld_unit_zero (S := S1024x256) zz, View.ld_unit_zero (S := S1024x1) zz, View.ld_unit_zero (S := S2048x1024) zz]

/-- After a last chunk the accumulator holds the accumulating payload of what the point before left. -/
theorem accLast_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : isLast i) (x0 : Vec F S2048x256 .bf16) (x1 : Vec F S1024x256 .bf16) (x2 : Vec F S1024x1 .f32) (xs : Vec F S2048x1024 .f32) :
    accLast c i arg3 harg3 arg4 harg4 arg5 harg5 arg6 harg6 arg7 harg7 hf hl x0 x1 x2 xs = k1_pay2 x0 x1 x2 xs := by
  unfold accLast
  rw [View.read_writes_eq_canon _ _ _ (coverLastS c i arg3 harg3 arg4 harg4 arg5 harg5 arg6 harg6 arg7 harg7 hf hl x0 x1 x2 xs)]
  unfold runLast
  dsimp only
  sl_unfold_run_names
  rw [View.canon_unit_zero zz]
  simp only [View.readAt_eq_ld, harg3.read_unread, harg4.read_unread, harg5.read_unread, harg7.read_unread, View.ld_unit_zero (S := S2048x256) zz, View.ld_unit_zero (S := S1024x256) zz, View.ld_unit_zero (S := S1024x1) zz, View.ld_unit_zero (S := S2048x1024) zz]

/-- After a last chunk the output block holds the same: the accumulator is copied into it. -/
theorem outLast_eq (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S2048x1024 .f32) (harg6 : arg6.IsWhole) (arg7 : Memref sig .tc .vmem S2048x1024 .f32) (harg7 : arg7.IsWhole) (hf : ¬isFirst i) (hl : isLast i) (x0 : Vec F S2048x256 .bf16) (x1 : Vec F S1024x256 .bf16) (x2 : Vec F S1024x1 .f32) (xs : Vec F S2048x1024 .f32) :
    outLast c i arg3 harg3 arg4 harg4 arg5 harg5 arg6 harg6 arg7 harg7 hf hl x0 x1 x2 xs = k1_pay2 x0 x1 x2 xs := by
  unfold outLast
  rw [View.read_writes_eq_canon _ _ _ (coverLastO c i arg3 harg3 arg4 harg4 arg5 harg5 arg6 harg6 arg7 harg7 hf hl x0 x1 x2 xs)]
  unfold runLast
  dsimp only
  rw [View.canon_unit_zero zz]
  sl_unfold_run_names
  rw [View.readCov_unit_zero (S := S2048x1024) arg7.view zz]
  simp only [View.readAt_eq_ld, harg3.read_unread, harg4.read_unread, harg5.read_unread, harg7.read_unread, View.ld_unit_zero (S := S2048x256) zz, View.ld_unit_zero (S := S1024x256) zz, View.ld_unit_zero (S := S1024x1) zz, View.ld_unit_zero (S := S2048x1024) zz]

/-! ## Point by point -/

variable (V : (c : Dev nD) → (b : Ref sig .tc) → Buf (Elt F) ((c : Thread nD τ).loc b))

/-- The accumulator after the point number t: the accumulating payload of the point's three input blocks and of the
    cleared accumulator (at a first chunk) or of the accumulator after the point before. -/
theorem stateAt_acc (c : Dev nD) (t : Fin cfg1.N) :
    (stateAt V c t.val t.isLt).2
      = k1_pay2 (blk V c 0 t) (blk V c 1 t) (blk V c 2 t)
          (if t.val % 43 = 0 then k1_pay1 (F := F)
            else (stateAt V c (t.val - 1) (Nat.lt_of_le_of_lt (Nat.sub_le _ _) t.isLt)).2) := by
  by_cases h0 : t.val % 43 = 0
  · rw [if_pos h0, stateAt_first V c t h0]
    dsimp only
    exact accFirst_eq c (grid1.coords t) (mr0 t) (mr0_whole t) (mr1 t) (mr1_whole t) (mr2 t) (mr2_whole t) (mr3 t) (mr3_whole t) accM (Memref.isWhole_whole _) ((isFirst_iff t).mpr h0)
      (fun h => by have := (isLast_iff t).mp h; omega) (blk V c 0 t) (blk V c 1 t) (blk V c 2 t)
  · have hz : t.val ≠ 0 := fun e => h0 (by rw [e])
    rw [if_neg h0, stateAt_pos V c t hz]
    by_cases h2 : t.val % 43 = 42
    · rw [step_last V c t _ h0 h2]
      dsimp only
      exact accLast_eq c (grid1.coords t) (mr0 t) (mr0_whole t) (mr1 t) (mr1_whole t) (mr2 t) (mr2_whole t) (mr3 t) (mr3_whole t) accM (Memref.isWhole_whole _) (fun h => h0 ((isFirst_iff t).mp h)) ((isLast_iff t).mpr h2) (blk V c 0 t) (blk V c 1 t) (blk V c 2 t) _
    · rw [step_mid V c t _ h0 h2]
      dsimp only
      exact accMid_eq c (grid1.coords t) (mr0 t) (mr0_whole t) (mr1 t) (mr1_whole t) (mr2 t) (mr2_whole t) (mr3 t) (mr3_whole t) accM (Memref.isWhole_whole _) (fun h => h0 ((isFirst_iff t).mp h)) (fun h => h2 ((isLast_iff t).mp h)) (blk V c 0 t) (blk V c 1 t) (blk V c 2 t) _

/-- At a last chunk the output block holds what the accumulator holds. -/
theorem stateAt_out (c : Dev nD) (t : Fin cfg1.N) (h2 : t.val % 43 = 42) :
    (stateAt V c t.val t.isLt).1 = (stateAt V c t.val t.isLt).2 := by
  have h0 : ¬t.val % 43 = 0 := by omega
  have hz : t.val ≠ 0 := fun e => h0 (by rw [e])
  rw [stateAt_pos V c t hz, step_last V c t _ h0 h2]
  dsimp only
  exact (outLast_eq c (grid1.coords t) (mr0 t) (mr0_whole t) (mr1 t) (mr1_whole t) (mr2 t) (mr2_whole t) (mr3 t) (mr3_whole t) accM (Memref.isWhole_whole _) (fun h => h0 ((isFirst_iff t).mp h)) ((isLast_iff t).mpr h2) (blk V c 0 t) (blk V c 1 t) (blk V c 2 t) _).trans
    (accLast_eq c (grid1.coords t) (mr0 t) (mr0_whole t) (mr1 t) (mr1_whole t) (mr2 t) (mr2_whole t) (mr3 t) (mr3_whole t) accM (Memref.isWhole_whole _) (fun h => h0 ((isFirst_iff t).mp h)) ((isLast_iff t).mpr h2) (blk V c 0 t) (blk V c 1 t) (blk V c 2 t) _).symm

/-! ## The output array, over the extended reals -/

section Value

open Idealize.ShloMosaic.ValueIdx Cert.LibChunkSum Cert.KernelIdeal.PayloadIdeal
open scoped BigOperators

variable (W : (c : Dev nD) → (b : Ref sig .tc) → Buf (Elt Ideal) ((c : Thread nD τ).loc b))

/-- The grid has 688 points. -/
theorem lt688 (t : Fin cfg1.N) : t.val < 688 := lt_of_lt_of_eq t.isLt (show cfg1.N = 688 from N_1)

/-- The hidden activations, the down weights and the down scales as the kernel finds them. -/
abbrev hid (c : Dev nD) : S8192x11008.Idx → EReal := W c main_v5
abbrev wgt (c : Dev nD) : S4096x11008.Idx → EReal := W c main_v4
abbrev scl (c : Dev nD) : S4096x1.Idx → EReal := W c main_arg6

/-- The array row that row p of point t's hidden and output blocks is; the array row of the weights that row q of its
    weight block is; the hidden feature that place r of chunk k is. -/
def rowOf (t : Fin cfg1.N) (p : Fin 2048) : Fin 8192 := ⟨2048 * (t.val / 172) + p.val, by have := lt688 t; omega⟩
def colOf (t : Fin cfg1.N) (q : Fin 1024) : Fin 4096 := ⟨1024 * (t.val / 43 % 4) + q.val, by omega⟩
def featOf (k : ℕ) (hk : k < 43) (r : Fin 256) : Fin 11008 := ⟨256 * k + r.val, by omega⟩

/-- The index maps, decided over the grid: point t is (t / 172, t / 43 % 4, t % 43) in row-major order. -/
theorem idx_facts : ∀ t : Fin cfg1.N,
    win1_0.index t (0 : Fin 2) = t.val / 172 ∧ win1_0.index t (1 : Fin 2) = t.val % 43
    ∧ win1_1.index t (0 : Fin 2) = t.val / 43 % 4 ∧ win1_1.index t (1 : Fin 2) = t.val % 43
    ∧ win1_2.index t (0 : Fin 2) = t.val / 43 % 4 ∧ win1_2.index t (1 : Fin 2) = 0
    ∧ win1_3.index t (0 : Fin 2) = t.val / 172 ∧ win1_3.index t (1 : Fin 2) = t.val / 43 % 4 :=
  (by decide +kernel : ∀ t : Fin grid1.N, _)

/-- The hidden block of point t at (p,r). -/
theorem blk0_apply (c : Dev nD) (t : Fin cfg1.N) (p : Fin 2048) (r : Fin 256) :
    (blk W c 0 t : Vec Ideal S2048x256 .bf16) (ix2 p r)
      = hid W c (ix2 (rowOf t p) (featOf (t.val % 43) (Nat.mod_lt _ (by decide)) r)) := by
  obtain ⟨e0, e1, -⟩ := idx_facts t
  show hid W c (((cfg1.win 0).blk t).view.emb (ix2 p r)) = _
  refine congrArg (hid W c) (funext fun a => Fin.ext ?_)
  match a with
  | ⟨0, _⟩ => show win1_0.index t (0 : Fin 2) * 2048 + 1 * p.val = 2048 * (t.val / 172) + p.val; rw [e0]; omega
  | ⟨1, _⟩ => show win1_0.index t (1 : Fin 2) * 256 + 1 * r.val = 256 * (t.val % 43) + r.val; rw [e1]; omega

/-- The weight block of point t at (q,r). -/
theorem blk1_apply (c : Dev nD) (t : Fin cfg1.N) (q : Fin 1024) (r : Fin 256) :
    (blk W c 1 t : Vec Ideal S1024x256 .bf16) (ix2 q r)
      = wgt W c (ix2 (colOf t q) (featOf (t.val % 43) (Nat.mod_lt _ (by decide)) r)) := by
  obtain ⟨-, -, e2, e3, -⟩ := idx_facts t
  show wgt W c (((cfg1.win 1).blk t).view.emb (ix2 q r)) = _
  refine congrArg (wgt W c) (funext fun a => Fin.ext ?_)
  match a with
  | ⟨0, _⟩ => show win1_1.index t (0 : Fin 2) * 1024 + 1 * q.val = 1024 * (t.val / 43 % 4) + q.val; rw [e2]; omega
  | ⟨1, _⟩ => show win1_1.index t (1 : Fin 2) * 256 + 1 * r.val = 256 * (t.val % 43) + r.val; rw [e3]; omega

/-- The scale block of point t at (q,0). -/
theorem blk2_apply (c : Dev nD) (t : Fin cfg1.N) (q : Fin 1024) :
    (blk W c 2 t : Vec Ideal S1024x1 .f32) (ix2 q 0) = scl W c (ix2 (colOf t q) 0) := by
  obtain ⟨-, -, -, -, e4, e5, -⟩ := idx_facts t
  show scl W c (((cfg1.win 2).blk t).view.emb (ix2 q 0)) = _
  refine congrArg (scl W c) (funext fun a => Fin.ext ?_)
  match a with
  | ⟨0, _⟩ => show win1_2.index t (0 : Fin 2) * 1024 + 1 * q.val = 1024 * (t.val / 43 % 4) + q.val; rw [e4]; omega
  | ⟨1, _⟩ => show win1_2.index t (1 : Fin 2) * 1 + 1 * 0 = 0; rw [e5]

/-- Chunk k of the product at row n and column o: the 256 summands of the hidden features 256 k, …, 256 k + 255. -/
def chunk (c : Dev nD) (n : Fin 8192) (o : Fin 4096) (k : ℕ) : EReal :=
  if hk : k < 43 then
    ∑ r : Fin 256, hid W c (ix2 n (featOf k hk r)) * (wgt W c (ix2 o (featOf k hk r)) * scl W c (ix2 o 0))
  else 0

/-- The accumulating payload at point t adds chunk t % 43 of its row and column. -/
theorem pay_at (c : Dev nD) (t : Fin cfg1.N) (xs : Vec Ideal S2048x1024 .f32) (p : Fin 2048) (q : Fin 1024) :
    k1_pay2 (F := Ideal) (blk W c 0 t) (blk W c 1 t) (blk W c 2 t) xs (ix2 p q)
      = xs (ix2 p q) + chunk W c (rowOf t p) (colOf t q) (t.val % 43) := by
  refine (k1_pay2_apply (blk W c 0 t) (blk W c 1 t) (blk W c 2 t) xs p q).trans ?_
  refine congrArg (xs (ix2 p q) + ·) ?_
  unfold chunk
  rw [dif_pos (Nat.mod_lt _ (by decide))]
  exact Finset.sum_congr rfl fun r _ =>
    congrArg₂ (· * ·) (blk0_apply W c t p r) (congrArg₂ (· * ·) (blk1_apply W c t q r) (blk2_apply W c t q))

/-- One point: if the accumulator before the point holds the running total of the chunks before, it holds the running
    total up to this point's chunk after. -/
theorem acc_step (c : Dev nD) (t : Fin cfg1.N) (p : Fin 2048) (q : Fin 1024)
    (ih : t.val % 43 ≠ 0 → (stateAt W c (t.val - 1) (Nat.lt_of_le_of_lt (Nat.sub_le _ _) t.isLt)).2 (ix2 p q)
      = running (chunk W c (rowOf t p) (colOf t q)) (t.val % 43 - 1)) :
    (stateAt W c t.val t.isLt).2 (ix2 p q) = running (chunk W c (rowOf t p) (colOf t q)) (t.val % 43) := by
  have h := congrFun (stateAt_acc W c t) (ix2 p q)
  by_cases h0 : t.val % 43 = 0
  · rw [if_pos h0] at h
    refine h.trans ((pay_at W c t _ p q).trans ?_)
    rw [k1_pay1_apply, h0]
    rfl
  · rw [if_neg h0] at h
    refine h.trans ((pay_at W c t _ p q).trans ?_)
    rw [ih h0]
    obtain ⟨k, hk⟩ : ∃ k, t.val % 43 = k + 1 := ⟨t.val % 43 - 1, by omega⟩
    rw [hk, Nat.add_sub_cancel]
    rfl

/-- After the point number n the accumulator holds, at (p,q), the running total of the chunks 0, …, n % 43 of the
    point's row and column. -/
theorem acc_running (c : Dev nD) (n : ℕ) : ∀ (hn : n < cfg1.N) (p : Fin 2048) (q : Fin 1024),
    (stateAt W c n hn).2 (ix2 p q) = running (chunk W c (rowOf ⟨n, hn⟩ p) (colOf ⟨n, hn⟩ q)) (n % 43) := by
  induction n with
  | zero =>
    intro hn p q
    exact acc_step W c ⟨0, hn⟩ p q (fun h => absurd (Nat.zero_mod 43) h)
  | succ n ih =>
    intro hn p q
    refine acc_step W c ⟨n + 1, hn⟩ p q (fun h0 => ?_)
    have h0' : (n + 1) % 43 ≠ 0 := h0
    have hn' : n < cfg1.N := Nat.lt_of_succ_lt hn
    have e := ih hn' p q
    have hr : rowOf ⟨n, hn'⟩ p = rowOf ⟨n + 1, hn⟩ p :=
      Fin.ext (by show 2048 * (n / 172) + p.val = 2048 * ((n + 1) / 172) + p.val; omega)
    have hc : colOf ⟨n, hn'⟩ q = colOf ⟨n + 1, hn⟩ q :=
      Fin.ext (by show 1024 * (n / 43 % 4) + q.val = 1024 * ((n + 1) / 43 % 4) + q.val; omega)
    have hk : n % 43 = (n + 1) % 43 - 1 := by omega
    rw [hr, hc, hk] at e
    exact e

/-- The layer's result at row n and column o. -/
def Gat (c : Dev nD) (n : Fin 8192) (o : Fin 4096) : EReal :=
  ∑ f : Fin 11008, hid W c (ix2 n f) * (wgt W c (ix2 o f) * scl W c (ix2 o 0))

/-- The running total after the last chunk is the whole sum. -/
theorem total (c : Dev nD) (n : Fin 8192) (o : Fin 4096) : running (chunk W c n o) 42 = Gat W c n o :=
  running_chunks_43_256 (fun f => hid W c (ix2 n f) * (wgt W c (ix2 o f) * scl W c (ix2 o 0))) (chunk W c n o)
    (fun t => by unfold chunk; rw [dif_pos t.isLt]; rfl)

/-- The result array. -/
def G (c : Dev nD) : S8192x4096.Idx → EReal := fun j => Gat W c (j 0) (j 1)

/-- What a last chunk writes back is its block of the result array. -/
theorem flushed_eq (c : Dev nD) (t : Fin cfg1.N) (hf : (cfg1.win 3).flush t = true) :
    (dat W c).flushed 3 t = ((cfg1.win 3).blk t).view.read (Elt Ideal) (G W c) := by
  have h42 : t.val % 43 = 42 := (flush1_3 t).mp hf
  obtain ⟨-, -, -, -, -, -, e6, e7⟩ := idx_facts t
  show (cfg1.win 3).cut (grid1.coords t) ((dat W c).after 3 t) = _
  rw [after3, stateAt_out W c t h42]
  funext j
  obtain ⟨p, q, rfl⟩ : ∃ (p : Fin 2048) (q : Fin 1024), j = ix2 p q := ⟨j 0, j 1, eq_ix2 j⟩
  show (stateAt W c t.val t.isLt).2 (ix2 p q) = G W c (((cfg1.win 3).blk t).view.emb (ix2 p q))
  rw [acc_running W c t.val t.isLt p q, h42, total]
  show Gat W c (rowOf t p) (colOf t q) = Gat W c ((((cfg1.win 3).blk t).view.emb (ix2 p q)) 0) ((((cfg1.win 3).blk t).view.emb (ix2 p q)) 1)
  refine congrArg₂ (Gat W c) (Fin.ext ?_) (Fin.ext ?_)
  · show 2048 * (t.val / 172) + p.val = win1_3.index t (0 : Fin 2) * 2048 + 1 * p.val; rw [e6]; omega
  · show 1024 * (t.val / 43 % 4) + q.val = win1_3.index t (1 : Fin 2) * 1024 + 1 * q.val; rw [e7]; omega

/-- An index of the array is in point t's output block iff each coordinate is in the block's range on its axis. -/
theorem mem_blk3 (t : Fin cfg1.N) (i : S8192x4096.Idx) :
    i ∈ ((cfg1.win 3).blk t).view.set ↔ ∀ a : Fin 2, win1_3.index t a * S2048x1024.size a ≤ (i a).val
      ∧ (i a).val < win1_3.index t a * S2048x1024.size a + S2048x1024.size a := by
  show i ∈ ((View.whole main_v6).slice (win1_3.rect t)).set ↔ _
  rw [View.set_slice_whole, Rect.mem_set_unit]
  exact Iff.rfl

/-- Every index of the array is in the output block of a last chunk: row i0 and column i1 lie in the block of the
    point 172 (i0 / 2048) + 43 (i1 / 1024) + 42. -/
theorem cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 688 := N_1
  obtain ⟨t, tv⟩ : ∃ t : Fin cfg1.N, t.val = 172 * ((i 0).val / 2048) + 43 * ((i 1).val / 1024) + 42 :=
    ⟨⟨172 * ((i 0).val / 2048) + 43 * ((i 1).val / 1024) + 42, by rw [hN]; omega⟩, rfl⟩
  obtain ⟨-, -, -, -, -, -, e6, e7⟩ := idx_facts t
  refine ⟨t, (flush1_3 t).mpr (by omega), ?_⟩
  rw [mem_blk3]
  intro a
  match a with
  | ⟨0, _⟩ =>
    show win1_3.index t (0 : Fin 2) * 2048 ≤ (i 0).val ∧ (i 0).val < win1_3.index t (0 : Fin 2) * 2048 + 2048
    rw [e6]; omega
  | ⟨1, _⟩ =>
    show win1_3.index t (1 : Fin 2) * 1024 ≤ (i 1).val ∧ (i 1).val < win1_3.index t (1 : Fin 2) * 1024 + 1024
    rw [e7]; omega

/-- The output array after the kernel is the result array. -/
theorem out_final_G (c : Dev nD) : (dat W c).arrAt 3 cfg1.N = G W c :=
  (dat W c).arrAt_eq_of_cover 3 (G W c) (flushed_eq W c) cover

/-- The output array after the kernel, index by index, over the arrays the kernel finds named: at (n,o) the sum over
    the hidden features f of hidden (n,f) * (weight (o,f) * scale (o,0)). -/
theorem out_final (V : (c : Dev nD) → (b : Ref sig .tc) → Buf (Elt Ideal) ((c : Thread nD τ).loc b)) (c : Dev nD)
    (H : S8192x11008.Idx → EReal) (Wd : S4096x11008.Idx → EReal) (sd : S4096x1.Idx → EReal)
    (hH : V c main_v5 = H) (hW : V c main_v4 = Wd) (hs : V c main_arg6 = sd) :
    (R1.dat V c).arrAt 3 cfg1.N
      = fun (j : S8192x4096.Idx) => ∑ f : Fin 11008, H (ix2 (j 0) f) * (Wd (ix2 (j 1) f) * sd (ix2 (j 1) 0)) := by
  have e1 : hid V c = H := hH
  have e2 : wgt V c = Wd := hW
  have e3 : scl V c = sd := hs
  refine (out_final_G V c).trans ?_
  funext j
  show ∑ f : Fin 11008, hid V c (ix2 (j 0) f) * (wgt V c (ix2 (j 1) f) * scl V c (ix2 (j 1) 0)) = _
  rw [e1, e2, e3]

end Value

end Cert.KernelIdeal.R1V

end
-- ==== Proof.KI.R0Value.lean ====
/-
  What the first kernel's body leaves, as pure functions of what it was handed.  The symbolic runs of the body
  record each buffer's contents as a list of stored pieces; every store and every load of an accumulator or of the
  output block is of the whole buffer, so the contents after the body are simply the last store's payload, and a
  load after a store reads that store's payload.  At every chunk k the gate accumulator becomes

      (previous gate accumulator, or zero at k = 0) + x[:, chunk k] . dequant(gate weights block)^T

  and likewise the up accumulator; at the last chunk the output block is  silu(gate) * up  of the two.
-/
import proofs.«158660_j59433757442706_2_alg».proof.Proof.KI.R0Frame
import Idealize.ShloMosaic.Lib.Pipeline.Value

set_option maxRecDepth 16384

noncomputable section

namespace Cert.KernelIdeal.R0V

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.R0

theorem zz : (![0, 0] : Fin 2 → Nat) = fun _ => 0 := by funext a; match a with | ⟨0, _⟩ => rfl | ⟨1, _⟩ => rfl

/-- The columns of the token block that chunk k multiplies: columns 1024 k … 1024 k + 1023. -/
def xslice (i : grid0.Coords) (x0 : Vec F S1024x4096 .bf16) : Vec F S1024x1024 .bf16 :=
  View.ld x0 (Rect.unit (s := S1024x4096) (k0_off1 i) S1024x1024.size (k0_off1_inb i))

/-- One chunk's update of the gate accumulator and of the up accumulator. -/
def updG (i : grid0.Coords) (x0 : Vec F S1024x4096 .bf16) (x1 : Vec F S256x1024 .bf16) (x2 : Vec F S256x1 .f32) (pg : Vec F S1024x256 .f32) : Vec F S1024x256 .f32 :=
  k0_pay6 (xslice i x0) x1 x2 pg
def updU (i : grid0.Coords) (x0 : Vec F S1024x4096 .bf16) (x3 : Vec F S256x1024 .bf16) (x4 : Vec F S256x1 .f32) (pu : Vec F S1024x256 .f32) : Vec F S1024x256 .f32 :=
  k0_pay1 (k0_pay7 (xslice i x0) x3 x4 pu)

theorem accFirstG_eq (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : isFirst i) (hl : ¬isLast i) (x0 : Vec F S1024x4096 .bf16) (x1 : Vec F S256x1024 .bf16) (x2 : Vec F S256x1 .f32) (x3 : Vec F S256x1024 .bf16) (x4 : Vec F S256x1 .f32) :
    accFirstG c i arg3 harg3 arg4 harg4 arg5 harg5 arg6 harg6 arg7 harg7 arg8 harg8 arg9 harg9 arg10 harg10 hf hl x0 x1 x2 x3 x4 = updG i x0 x1 x2 (k0_pay3 (F := F)) := by
  unfold accFirstG
  rw [View.read_writes_eq_canon _ _ _ (coverFirstG c i arg3 harg3 arg4 harg4 arg5 harg5 arg6 harg6 arg7 harg7 arg8 harg8 arg9 harg9 arg10 harg10 hf hl x0 x1 x2 x3 x4)]
  unfold runFirst
  dsimp only
  rw [View.canon_cons_unit_zero zz]
  sl_unfold_run_names
  rw [View.readCov_unit_zero (S := S1024x256) arg9.view zz]
  simp only [updG, View.readAt_eq_ld, harg3.read_unread, harg4.read_unread, harg5.read_unread, harg6.read_unread, harg7.read_unread, harg8.read_unread, harg9.read_unread, harg10.read_unread, View.ld_unit_zero (S := S256x1024) zz, View.ld_unit_zero (S := S256x1) zz, View.ld_unit_zero (S := S1024x256) zz, xslice]

theorem accFirstU_eq (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : isFirst i) (hl : ¬isLast i) (x0 : Vec F S1024x4096 .bf16) (x1 : Vec F S256x1024 .bf16) (x2 : Vec F S256x1 .f32) (x3 : Vec F S256x1024 .bf16) (x4 : Vec F S256x1 .f32) :
    accFirstU c i arg3 harg3 arg4 harg4 arg5 harg5 arg6 harg6 arg7 harg7 arg8 harg8 arg9 harg9 arg10 harg10 hf hl x0 x1 x2 x3 x4 = updU i x0 x3 x4 (k0_pay4 (F := F)) := by
  unfold accFirstU
  rw [View.read_writes_eq_canon _ _ _ (coverFirstU c i arg3 harg3 arg4 harg4 arg5 harg5 arg6 harg6 arg7 harg7 arg8 harg8 arg9 harg9 arg10 harg10 hf hl x0 x1 x2 x3 x4)]
  unfold runFirst
  dsimp only
  rw [View.canon_cons_unit_zero zz]
  sl_unfold_run_names
  rw [View.readCov_unit_zero (S := S1024x256) arg10.view zz]
  simp only [updU, View.readAt_eq_ld, harg3.read_unread, harg4.read_unread, harg5.read_unread, harg6.read_unread, harg7.read_unread, harg8.read_unread, harg9.read_unread, harg10.read_unread, View.ld_unit_zero (S := S256x1024) zz, View.ld_unit_zero (S := S256x1) zz, View.ld_unit_zero (S := S1024x256) zz, xslice]

theorem accMidG_eq (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : ¬isLast i) (x0 : Vec F S1024x4096 .bf16) (x1 : Vec F S256x1024 .bf16) (x2 : Vec F S256x1 .f32) (x3 : Vec F S256x1024 .bf16) (x4 : Vec F S256x1 .f32) (xg xu : Vec F S1024x256 .f32) :
    accMidG c i arg3 harg3 arg4 harg4 arg5 harg5 arg6 harg6 arg7 harg7 arg8 harg8 arg9 harg9 arg10 harg10 hf hl x0 x1 x2 x3 x4 xg xu = updG i x0 x1 x2 xg := by
  unfold accMidG
  rw [View.read_writes_eq_canon _ _ _ (coverMidG c i arg3 harg3 arg4 harg4 arg5 harg5 arg6 harg6 arg7 harg7 arg8 harg8 arg9 harg9 arg10 harg10 hf hl x0 x1 x2 x3 x4 xg xu)]
  unfold runMid
  dsimp only
  (try sl_unfold_run_names)
  rw [View.canon_unit_zero zz]
  simp only [updG, View.readAt_eq_ld, harg3.read_unread, harg4.read_unread, harg5.read_unread, harg6.read_unread, harg7.read_unread, harg8.read_unread, harg9.read_unread, harg10.read_unread, View.ld_unit_zero (S := S256x1024) zz, View.ld_unit_zero (S := S256x1) zz, View.ld_unit_zero (S := S1024x256) zz, xslice]

theorem accMidU_eq (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : ¬isLast i) (x0 : Vec F S1024x4096 .bf16) (x1 : Vec F S256x1024 .bf16) (x2 : Vec F S256x1 .f32) (x3 : Vec F S256x1024 .bf16) (x4 : Vec F S256x1 .f32) (xg xu : Vec F S1024x256 .f32) :
    accMidU c i arg3 harg3 arg4 harg4 arg5 harg5 arg6 harg6 arg7 harg7 arg8 harg8 arg9 harg9 arg10 harg10 hf hl x0 x1 x2 x3 x4 xg xu = updU i x0 x3 x4 xu := by
  unfold accMidU
  rw [View.read_writes_eq_canon _ _ _ (coverMidU c i arg3 harg3 arg4 harg4 arg5 harg5 arg6 harg6 arg7 harg7 arg8 harg8 arg9 harg9 arg10 harg10 hf hl x0 x1 x2 x3 x4 xg xu)]
  unfold runMid
  dsimp only
  (try sl_unfold_run_names)
  rw [View.canon_unit_zero zz]
  (try sl_unfold_run_names)
  simp only [updU, View.readAt_eq_ld, harg3.read_unread, harg4.read_unread, harg5.read_unread, harg6.read_unread, harg7.read_unread, harg8.read_unread, harg9.read_unread, harg10.read_unread, View.ld_unit_zero (S := S256x1024) zz, View.ld_unit_zero (S := S256x1) zz, View.ld_unit_zero (S := S1024x256) zz, xslice]

theorem accLastG_eq (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) :
    accLastG c i arg3 harg3 arg4 harg4 arg5 harg5 arg6 harg6 arg7 harg7 arg8 harg8 arg9 harg9 arg10 harg10 hf hl x0 x1 x2 x3 x4 xg xu = updG i x0 x1 x2 xg := by
  unfold accLastG
  rw [View.read_writes_eq_canon _ _ _ (coverLastG c i arg3 harg3 arg4 harg4 arg5 harg5 arg6 harg6 arg7 harg7 arg8 harg8 arg9 harg9 arg10 harg10 hf hl x0 x1 x2 x3 x4 xg xu)]
  unfold runLast
  dsimp only
  (try sl_unfold_run_names)
  rw [View.canon_unit_zero zz]
  simp only [updG, View.readAt_eq_ld, harg3.read_unread, harg4.read_unread, harg5.read_unread, harg6.read_unread, harg7.read_unread, harg8.read_unread, harg9.read_unread, harg10.read_unread, View.ld_unit_zero (S := S256x1024) zz, View.ld_unit_zero (S := S256x1) zz, View.ld_unit_zero (S := S1024x256) zz, xslice]

theorem accLastU_eq (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) :
    accLastU c i arg3 harg3 arg4 harg4 arg5 harg5 arg6 harg6 arg7 harg7 arg8 harg8 arg9 harg9 arg10 harg10 hf hl x0 x1 x2 x3 x4 xg xu = updU i x0 x3 x4 xu := by
  unfold accLastU
  rw [View.read_writes_eq_canon _ _ _ (coverLastU c i arg3 harg3 arg4 harg4 arg5 harg5 arg6 harg6 arg7 harg7 arg8 harg8 arg9 harg9 arg10 harg10 hf hl x0 x1 x2 x3 x4 xg xu)]
  unfold runLast
  dsimp only
  (try sl_unfold_run_names)
  rw [View.canon_unit_zero zz]
  (try sl_unfold_run_names)
  simp only [updU, View.readAt_eq_ld, harg3.read_unread, harg4.read_unread, harg5.read_unread, harg6.read_unread, harg7.read_unread, harg8.read_unread, harg9.read_unread, harg10.read_unread, View.ld_unit_zero (S := S256x1024) zz, View.ld_unit_zero (S := S256x1) zz, View.ld_unit_zero (S := S1024x256) zz, xslice]

theorem outLast_eq (c : Dev nD) (i : grid0.Coords) (arg3 : Memref sig .tc .vmem S1024x4096 .bf16) (harg3 : arg3.IsWhole) (arg4 : Memref sig .tc .vmem S256x1024 .bf16) (harg4 : arg4.IsWhole) (arg5 : Memref sig .tc .vmem S256x1 .f32) (harg5 : arg5.IsWhole) (arg6 : Memref sig .tc .vmem S256x1024 .bf16) (harg6 : arg6.IsWhole) (arg7 : Memref sig .tc .vmem S256x1 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hf : ¬isFirst i) (hl : isLast i) (x0 : Vec F S1024x4096 .bf16) (x1 : Vec F S256x1024 .bf16) (x2 : Vec F S256x1 .f32) (x3 : Vec F S256x1024 .bf16) (x4 : Vec F S256x1 .f32) (xg xu : Vec F S1024x256 .f32) :
    outLast c i arg3 harg3 arg4 harg4 arg5 harg5 arg6 harg6 arg7 harg7 arg8 harg8 arg9 harg9 arg10 harg10 hf hl x0 x1 x2 x3 x4 xg xu = k0_pay2 (updG i x0 x1 x2 xg) (updU i x0 x3 x4 xu) := by
  unfold outLast
  rw [View.read_writes_eq_canon _ _ _ (coverLastO c i arg3 harg3 arg4 harg4 arg5 harg5 arg6 harg6 arg7 harg7 arg8 harg8 arg9 harg9 arg10 harg10 hf hl x0 x1 x2 x3 x4 xg xu)]
  unfold runLast
  dsimp only
  rw [View.canon_unit_zero zz]
  sl_unfold_run_names
  rw [View.readCov_unit_zero (S := S1024x256) arg9.view zz, View.readCov_unit_zero (S := S1024x256) arg10.view zz]
  simp only [updG, updU, View.readAt_eq_ld, harg3.read_unread, harg4.read_unread, harg5.read_unread, harg6.read_unread, harg7.read_unread, harg8.read_unread, harg9.read_unread, harg10.read_unread, View.ld_unit_zero (S := S256x1024) zz, View.ld_unit_zero (S := S256x1) zz, View.ld_unit_zero (S := S1024x256) zz, xslice]

/-! ## Point by point, in pure form -/

variable (V : (c : Dev nD) → (b : Ref sig .tc) → Buf (Elt F) ((c : Thread nD τ).loc b))

/-- The gate accumulator after point `t`: one chunk's update of what the point before left, or of zero at a first chunk. -/
theorem stateAt_accG (c : Dev nD) (t : Fin cfg0.N) :
    (stateAt V c t.val t.isLt).2.1 = updG (grid0.coords t) (blk V c 0 t) (blk V c 1 t) (blk V c 2 t)
      (if t.val % 4 = 0 then k0_pay3 (F := F) else (stateAt V c (t.val - 1) (Nat.lt_of_le_of_lt (Nat.sub_le _ _) t.isLt)).2.1) := by
  by_cases h0 : t.val % 4 = 0
  · rw [stateAt_first V c t h0, if_pos h0]
    dsimp only
    rw [accFirstG_eq]
  · have hz : t.val ≠ 0 := fun e => h0 (by rw [e])
    rw [stateAt_pos V c t hz, if_neg h0]
    by_cases h2 : t.val % 4 = 3
    · rw [step_last V c t _ _ h0 h2]
      dsimp only
      rw [accLastG_eq]
    · rw [step_mid V c t _ _ h0 h2]
      dsimp only
      rw [accMidG_eq]

/-- The up accumulator after point `t`. -/
theorem stateAt_accU (c : Dev nD) (t : Fin cfg0.N) :
    (stateAt V c t.val t.isLt).2.2 = updU (grid0.coords t) (blk V c 0 t) (blk V c 3 t) (blk V c 4 t)
      (if t.val % 4 = 0 then k0_pay4 (F := F) else (stateAt V c (t.val - 1) (Nat.lt_of_le_of_lt (Nat.sub_le _ _) t.isLt)).2.2) := by
  by_cases h0 : t.val % 4 = 0
  · rw [stateAt_first V c t h0, if_pos h0]
    dsimp only
    rw [accFirstU_eq]
  · have hz : t.val ≠ 0 := fun e => h0 (by rw [e])
    rw [stateAt_pos V c t hz, if_neg h0]
    by_cases h2 : t.val % 4 = 3
    · rw [step_last V c t _ _ h0 h2]
      dsimp only
      rw [accLastU_eq]
    · rw [step_mid V c t _ _ h0 h2]
      dsimp only
      rw [accMidU_eq]

/-- At a last chunk the output block is silu(gate) * up of the two accumulators as the point leaves them. -/
theorem stateAt_out (c : Dev nD) (t : Fin cfg0.N) (h2 : t.val % 4 = 3) :
    (stateAt V c t.val t.isLt).1 = k0_pay2 (stateAt V c t.val t.isLt).2.1 (stateAt V c t.val t.isLt).2.2 := by
  have h0 : ¬t.val % 4 = 0 := by omega
  have hz : t.val ≠ 0 := fun e => h0 (by rw [e])
  rw [stateAt_pos V c t hz, step_last V c t _ _ h0 h2]
  dsimp only
  rw [outLast_eq, accLastG_eq, accLastU_eq]

end Cert.KernelIdeal.R0V

end
-- ==== Proof.KI.R0Final.lean ====
/-
  The value of the first kernel's output array, over the extended reals.

  Within one output tile the four grid points k = 0..3 add one chunk of 1024 input features each to the two
  accumulators, so after chunk k each accumulator is a running total of k+1 chunk products and after the last
  chunk it is the whole sum over the 4096 input features.  At the last chunk the output block receives
  g * logistic g * u of the two totals.  The output tiles written back at the last chunks cover the output array,
  which is therefore, at (n, f), that expression of the two full sums for token n and hidden feature f.
-/
import proofs.«158660_j59433757442706_2_alg».proof.Proof.KI.R0Value
import proofs.«158660_j59433757442706_2_alg».proof.Proof.KI.PayloadIdeal
import proofs.«158660_j59433757442706_2_alg».proof.Proof.LibChunkSum
import Idealize.ShloMosaic.Lib.Pipeline.Value
import Idealize.ShloMosaic.Lib.ValueIdx

set_option maxRecDepth 16384

noncomputable section

open scoped BigOperators

namespace Cert.KernelIdeal.R0F

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The index maps, decided over the grid -/

/-- Point t is (i, j, k) = (t / 172, t / 4 % 43, t % 4); each window's block indices and the body's column offset
    in those terms. -/
theorem idx_facts : ∀ t : Fin cfg0.N,
    win0_0.index t (0 : Fin 2) = t.val / 172 ∧ win0_0.index t (1 : Fin 2) = 0
    ∧ win0_1.index t (0 : Fin 2) = t.val / 4 % 43 ∧ win0_1.index t (1 : Fin 2) = t.val % 4
    ∧ win0_2.index t (0 : Fin 2) = t.val / 4 % 43 ∧ win0_2.index t (1 : Fin 2) = 0
    ∧ win0_3.index t (0 : Fin 2) = t.val / 4 % 43 ∧ win0_3.index t (1 : Fin 2) = t.val % 4
    ∧ win0_4.index t (0 : Fin 2) = t.val / 4 % 43 ∧ win0_4.index t (1 : Fin 2) = 0
    ∧ win0_5.index t (0 : Fin 2) = t.val / 172 ∧ win0_5.index t (1 : Fin 2) = t.val / 4 % 43
    ∧ k0_off1 (grid0.coords t) (0 : Fin 2) = 0 ∧ k0_off1 (grid0.coords t) (1 : Fin 2) = 1024 * (t.val % 4) :=
  (by decide +kernel : ∀ t : Fin grid0.N, _)

/-! ## The blocks, read off the arrays

The arrays the kernel is entered with are named X (tokens), Wg, sg (gate weights and scales), Wu, su (up weights and
scales); each lemma takes the equation that ties its array to the contents `V`. -/

theorem blk1_apply (c : Dev nD) (Wg : S11008x4096.Idx → EReal) (hWg : V c main_v2 = Wg) (t : Fin cfg0.N) (a : Fin 256) (b : Fin 1024) (k : S11008x4096.Idx)
    (hk0 : (k 0).val = 256 * (t.val / 4 % 43) + a.val) (hk1 : (k 1).val = 1024 * (t.val % 4) + b.val) :
    (R0.blk V c 1 t : Vec Ideal S256x1024 .bf16) (ix2 a b) = Wg k := by
  have hi := idx_facts t
  refine Eq.trans ?_ (congrFun hWg k)
  unfold R0.blk
  rw [View.read_apply]
  show V c main_v2 _ = V c main_v2 _
  congr 1
  funext x
  apply Fin.ext
  match x with
  | ⟨0, _⟩ => show win0_1.index t (0 : Fin 2) * 256 + 1 * a.val = (k 0).val; rw [hk0]; omega
  | ⟨1, _⟩ => show win0_1.index t (1 : Fin 2) * 1024 + 1 * b.val = (k 1).val; rw [hk1]; omega
theorem blk2_apply (c : Dev nD) (sg : S11008x1.Idx → EReal) (hsg : V c main_arg2 = sg) (t : Fin cfg0.N) (a : Fin 256) (b : Fin 1) (k : S11008x1.Idx)
    (hk0 : (k 0).val = 256 * (t.val / 4 % 43) + a.val) (hk1 : (k 1).val = b.val) :
    (R0.blk V c 2 t : Vec Ideal S256x1 .f32) (ix2 a b) = sg k := by
  have hi := idx_facts t
  refine Eq.trans ?_ (congrFun hsg k)
  unfold R0.blk
  rw [View.read_apply]
  show V c main_arg2 _ = V c main_arg2 _
  congr 1
  funext x
  apply Fin.ext
  match x with
  | ⟨0, _⟩ => show win0_2.index t (0 : Fin 2) * 256 + 1 * a.val = (k 0).val; rw [hk0]; omega
  | ⟨1, _⟩ => show win0_2.index t (1 : Fin 2) * 1 + 1 * b.val = (k 1).val; rw [hk1]; omega
theorem blk3_apply (c : Dev nD) (Wu : S11008x4096.Idx → EReal) (hWu : V c main_v3 = Wu) (t : Fin cfg0.N) (a : Fin 256) (b : Fin 1024) (k : S11008x4096.Idx)
    (hk0 : (k 0).val = 256 * (t.val / 4 % 43) + a.val) (hk1 : (k 1).val = 1024 * (t.val % 4) + b.val) :
    (R0.blk V c 3 t : Vec Ideal S256x1024 .bf16) (ix2 a b) = Wu k := by
  have hi := idx_facts t
  refine Eq.trans ?_ (congrFun hWu k)
  unfold R0.blk
  rw [View.read_apply]
  show V c main_v3 _ = V c main_v3 _
  congr 1
  funext x
  apply Fin.ext
  match x with
  | ⟨0, _⟩ => show win0_3.index t (0 : Fin 2) * 256 + 1 * a.val = (k 0).val; rw [hk0]; omega
  | ⟨1, _⟩ => show win0_3.index t (1 : Fin 2) * 1024 + 1 * b.val = (k 1).val; rw [hk1]; omega
theorem blk4_apply (c : Dev nD) (su : S11008x1.Idx → EReal) (hsu : V c main_arg4 = su) (t : Fin cfg0.N) (a : Fin 256) (b : Fin 1) (k : S11008x1.Idx)
    (hk0 : (k 0).val = 256 * (t.val / 4 % 43) + a.val) (hk1 : (k 1).val = b.val) :
    (R0.blk V c 4 t : Vec Ideal S256x1 .f32) (ix2 a b) = su k := by
  have hi := idx_facts t
  refine Eq.trans ?_ (congrFun hsu k)
  unfold R0.blk
  rw [View.read_apply]
  show V c main_arg4 _ = V c main_arg4 _
  congr 1
  funext x
  apply Fin.ext
  match x with
  | ⟨0, _⟩ => show win0_4.index t (0 : Fin 2) * 256 + 1 * a.val = (k 0).val; rw [hk0]; omega
  | ⟨1, _⟩ => show win0_4.index t (1 : Fin 2) * 1 + 1 * b.val = (k 1).val; rw [hk1]; omega

/-- A token block's element, off the token array. -/
theorem blk0_apply (c : Dev nD) (X : S8192x4096.Idx → EReal) (hX : V c main_v1 = X) (t : Fin cfg0.N) (y : S1024x4096.Idx) (k : S8192x4096.Idx)
    (hk0 : (k 0).val = 1024 * (t.val / 172) + (y 0).val) (hk1 : (k 1).val = (y 1).val) :
    (R0.blk V c 0 t : Vec Ideal S1024x4096 .bf16) y = X k := by
  have hi := idx_facts t
  refine Eq.trans ?_ (congrFun hX k)
  unfold R0.blk
  rw [View.read_apply]
  show V c main_v1 _ = V c main_v1 _
  congr 1
  funext x
  apply Fin.ext
  match x with
  | ⟨0, _⟩ => show win0_0.index t (0 : Fin 2) * 1024 + 1 * (y 0).val = (k 0).val; rw [hk0]; omega
  | ⟨1, _⟩ => show win0_0.index t (1 : Fin 2) * 4096 + 1 * (y 1).val = (k 1).val; rw [hk1]; omega

/-- The columns chunk k multiplies, off the token array: row 1024 i + p, column 1024 k + r. -/
theorem xslice_apply (c : Dev nD) (X : S8192x4096.Idx → EReal) (hX : V c main_v1 = X) (t : Fin cfg0.N) (p : Fin 1024) (r : Fin 1024) (k : S8192x4096.Idx)
    (hk0 : (k 0).val = 1024 * (t.val / 172) + p.val) (hk1 : (k 1).val = 1024 * (t.val % 4) + r.val) :
    R0V.xslice (grid0.coords t) (R0.blk V c 0 t) (ix2 p r) = X k := by
  have hi := idx_facts t
  unfold R0V.xslice
  show (R0.blk V c 0 t : Vec Ideal S1024x4096 .bf16) ((Rect.unit (s := S1024x4096) (k0_off1 (grid0.coords t)) S1024x1024.size (k0_off1_inb (grid0.coords t))).emb (ix2 p r)) = _
  refine blk0_apply V c X hX t _ k ?_ ?_
  · rw [hk0, Rect.emb_apply, Rect.off_unit, Rect.stride_unit]
    show 1024 * (t.val / 172) + p.val = 1024 * (t.val / 172) + (k0_off1 (grid0.coords t) (0 : Fin 2) + 1 * p.val)
    omega
  · rw [hk1, Rect.emb_apply, Rect.off_unit, Rect.stride_unit]
    show 1024 * (t.val % 4) + r.val = k0_off1 (grid0.coords t) (1 : Fin 2) + 1 * r.val
    omega

/-! ## The accumulators as running totals -/

/-- One summand of the projection of token n onto hidden feature f with weights W and scales s: input feature k. -/
def term (X : S8192x4096.Idx → EReal) (W : S11008x4096.Idx → EReal) (s : S11008x1.Idx → EReal) (n : Fin 8192) (f : Fin 11008) (k : Fin 4096) : EReal :=
  X (ix2 n k) * (W (ix2 f k) * s (ix2 f 0))

/-- Chunk k' of those summands: input features 1024 k' … 1024 k' + 1023. -/
def chunk (X : S8192x4096.Idx → EReal) (W : S11008x4096.Idx → EReal) (s : S11008x1.Idx → EReal) (n : Fin 8192) (f : Fin 11008) (k' : ℕ) : EReal :=
  if h : k' < 4 then ∑ r : Fin 1024, term X W s n f ⟨1024 * k' + r.val, by omega⟩ else 0

variable (c : Dev nD) (X : S8192x4096.Idx → EReal) (Wg : S11008x4096.Idx → EReal) (sg : S11008x1.Idx → EReal) (Wu : S11008x4096.Idx → EReal) (su : S11008x1.Idx → EReal)

/-- One point's update of the gate accumulator at (p, q): what was there (zero at a first chunk) plus the point's chunk. -/
theorem accG_step (hX : V c main_v1 = X) (hWg : V c main_v2 = Wg) (hsg : V c main_arg2 = sg)
    (t : Fin cfg0.N) (p : Fin 1024) (q : Fin 256) (n : Fin 8192) (f : Fin 11008)
    (hn : n.val = 1024 * (t.val / 172) + p.val) (hf : f.val = 256 * (t.val / 4 % 43) + q.val) :
    (R0.stateAt V c t.val t.isLt).2.1 (ix2 p q)
      = (if t.val % 4 = 0 then (0 : EReal) else (R0.stateAt V c (t.val - 1) (Nat.lt_of_le_of_lt (Nat.sub_le _ _) t.isLt)).2.1 (ix2 p q))
        + chunk X Wg sg n f (t.val % 4) := by
  rw [R0V.stateAt_accG V c t]
  unfold R0V.updG
  refine (PayloadIdeal.k0_pay6_apply _ _ _ _ p q).trans ?_
  congr 1
  · by_cases h0 : t.val % 4 = 0
    · rw [if_pos h0, if_pos h0]; exact PayloadIdeal.k0_pay3_apply _
    · rw [if_neg h0, if_neg h0]
  · unfold chunk
    rw [dif_pos (Nat.mod_lt _ (by decide))]
    refine Finset.sum_congr rfl fun r _ => ?_
    unfold term
    rw [xslice_apply V c X hX t p r (ix2 n ⟨1024 * (t.val % 4) + r.val, by omega⟩) hn rfl,
      blk1_apply V c Wg hWg t q r (ix2 f ⟨1024 * (t.val % 4) + r.val, by omega⟩) hf rfl,
      blk2_apply V c sg hsg t q 0 (ix2 f 0) hf rfl]

/-- One point's update of the up accumulator at (p, q). -/
theorem accU_step (hX : V c main_v1 = X) (hWu : V c main_v3 = Wu) (hsu : V c main_arg4 = su)
    (t : Fin cfg0.N) (p : Fin 1024) (q : Fin 256) (n : Fin 8192) (f : Fin 11008)
    (hn : n.val = 1024 * (t.val / 172) + p.val) (hf : f.val = 256 * (t.val / 4 % 43) + q.val) :
    (R0.stateAt V c t.val t.isLt).2.2 (ix2 p q)
      = (if t.val % 4 = 0 then (0 : EReal) else (R0.stateAt V c (t.val - 1) (Nat.lt_of_le_of_lt (Nat.sub_le _ _) t.isLt)).2.2 (ix2 p q))
        + chunk X Wu su n f (t.val % 4) := by
  rw [R0V.stateAt_accU V c t]
  unfold R0V.updU
  refine (PayloadIdeal.k0_pay1_apply _ _).trans ?_
  refine (PayloadIdeal.k0_pay7_apply _ _ _ _ p q).trans ?_
  congr 1
  · by_cases h0 : t.val % 4 = 0
    · rw [if_pos h0, if_pos h0]; exact PayloadIdeal.k0_pay4_apply _
    · rw [if_neg h0, if_neg h0]
  · unfold chunk
    rw [dif_pos (Nat.mod_lt _ (by decide))]
    refine Finset.sum_congr rfl fun r _ => ?_
    unfold term
    rw [xslice_apply V c X hX t p r (ix2 n ⟨1024 * (t.val % 4) + r.val, by omega⟩) hn rfl,
      blk3_apply V c Wu hWu t q r (ix2 f ⟨1024 * (t.val % 4) + r.val, by omega⟩) hf rfl,
      blk4_apply V c su hsu t q 0 (ix2 f 0) hf rfl]

/-- Within a tile the gate accumulator after chunk k is the running total of the chunks 0..k. -/
theorem accG_running (hX : V c main_v1 = X) (hWg : V c main_v2 = Wg) (hsg : V c main_arg2 = sg) :
    ∀ (m : ℕ) (hm : m < cfg0.N) (p : Fin 1024) (q : Fin 256) (n : Fin 8192) (f : Fin 11008),
      n.val = 1024 * (m / 172) + p.val → f.val = 256 * (m / 4 % 43) + q.val →
      (R0.stateAt V c m hm).2.1 (ix2 p q) = Cert.LibChunkSum.running (chunk X Wg sg n f) (m % 4) := by
  intro m
  induction m with
  | zero =>
    intro hm p q n f hn hf
    refine (accG_step V c X Wg sg hX hWg hsg ⟨0, hm⟩ p q n f hn hf).trans ?_
    show (if 0 % 4 = 0 then (0 : EReal) else _) + chunk X Wg sg n f (0 % 4) = Cert.LibChunkSum.running (chunk X Wg sg n f) (0 % 4)
    rw [if_pos rfl]; rfl
  | succ m ih =>
    intro hm p q n f hn hf
    refine (accG_step V c X Wg sg hX hWg hsg ⟨m + 1, hm⟩ p q n f hn hf).trans ?_
    show (if (m + 1) % 4 = 0 then (0 : EReal) else (R0.stateAt V c m (Nat.lt_of_succ_lt hm)).2.1 (ix2 p q)) + chunk X Wg sg n f ((m + 1) % 4)
      = Cert.LibChunkSum.running (chunk X Wg sg n f) ((m + 1) % 4)
    by_cases h0 : (m + 1) % 4 = 0
    · rw [if_pos h0, h0]; rfl
    · rw [if_neg h0]
      have hk : (m + 1) % 4 = m % 4 + 1 := by omega
      rw [hk, ih (Nat.lt_of_succ_lt hm) p q n f (by omega) (by omega)]
      rfl

/-- Within a tile the up accumulator after chunk k is the running total of the chunks 0..k. -/
theorem accU_running (hX : V c main_v1 = X) (hWu : V c main_v3 = Wu) (hsu : V c main_arg4 = su) :
    ∀ (m : ℕ) (hm : m < cfg0.N) (p : Fin 1024) (q : Fin 256) (n : Fin 8192) (f : Fin 11008),
      n.val = 1024 * (m / 172) + p.val → f.val = 256 * (m / 4 % 43) + q.val →
      (R0.stateAt V c m hm).2.2 (ix2 p q) = Cert.LibChunkSum.running (chunk X Wu su n f) (m % 4) := by
  intro m
  induction m with
  | zero =>
    intro hm p q n f hn hf
    refine (accU_step V c X Wu su hX hWu hsu ⟨0, hm⟩ p q n f hn hf).trans ?_
    show (if 0 % 4 = 0 then (0 : EReal) else _) + chunk X Wu su n f (0 % 4) = Cert.LibChunkSum.running (chunk X Wu su n f) (0 % 4)
    rw [if_pos rfl]; rfl
  | succ m ih =>
    intro hm p q n f hn hf
    refine (accU_step V c X Wu su hX hWu hsu ⟨m + 1, hm⟩ p q n f hn hf).trans ?_
    show (if (m + 1) % 4 = 0 then (0 : EReal) else (R0.stateAt V c m (Nat.lt_of_succ_lt hm)).2.2 (ix2 p q)) + chunk X Wu su n f ((m + 1) % 4)
      = Cert.LibChunkSum.running (chunk X Wu su n f) ((m + 1) % 4)
    by_cases h0 : (m + 1) % 4 = 0
    · rw [if_pos h0, h0]; rfl
    · rw [if_neg h0]
      have hk : (m + 1) % 4 = m % 4 + 1 := by omega
      rw [hk, ih (Nat.lt_of_succ_lt hm) p q n f (by omega) (by omega)]
      rfl

/-- After the last chunk a running total of the four chunks is the sum over all 4096 input features. -/
theorem running_last (W : S11008x4096.Idx → EReal) (s : S11008x1.Idx → EReal) (n : Fin 8192) (f : Fin 11008) :
    Cert.LibChunkSum.running (chunk X W s n f) 3 = ∑ k : Fin 4096, term X W s n f k :=
  Cert.LibChunkSum.running_chunks_4_1024 (term X W s n f) (chunk X W s n f) fun t => by
    unfold chunk; rw [dif_pos t.isLt]

/-! ## The output block at a last chunk, and the output array -/

/-- The hidden activations: silu of the gate projection times the up projection. -/
def hid (X : S8192x4096.Idx → EReal) (Wg : S11008x4096.Idx → EReal) (sg : S11008x1.Idx → EReal) (Wu : S11008x4096.Idx → EReal) (su : S11008x1.Idx → EReal) :
    S8192x11008.Idx → EReal := fun (j : S8192x11008.Idx) =>
  ((∑ k : Fin 4096, X (ix2 (j 0) k) * (Wg (ix2 (j 1) k) * sg (ix2 (j 1) 0)))
    * Ideal.logistic (∑ k : Fin 4096, X (ix2 (j 0) k) * (Wg (ix2 (j 1) k) * sg (ix2 (j 1) 0))))
   * (∑ k : Fin 4096, X (ix2 (j 0) k) * (Wu (ix2 (j 1) k) * su (ix2 (j 1) 0)))

/-- At a last chunk the output block at (p, q) is the hidden activation of its token and feature. -/
theorem out_apply (hX : V c main_v1 = X) (hWg : V c main_v2 = Wg) (hsg : V c main_arg2 = sg) (hWu : V c main_v3 = Wu) (hsu : V c main_arg4 = su)
    (t : Fin cfg0.N) (h3 : t.val % 4 = 3) (p : Fin 1024) (q : Fin 256) (k : S8192x11008.Idx)
    (hk0 : (k 0).val = 1024 * (t.val / 172) + p.val) (hk1 : (k 1).val = 256 * (t.val / 4 % 43) + q.val) :
    (R0.stateAt V c t.val t.isLt).1 (ix2 p q) = hid X Wg sg Wu su k := by
  rw [R0V.stateAt_out V c t h3]
  refine (PayloadIdeal.k0_pay2_apply _ _ _).trans ?_
  rw [accG_running V c X Wg sg hX hWg hsg t.val t.isLt p q (k 0) (k 1) hk0 hk1,
    accU_running V c X Wu su hX hWu hsu t.val t.isLt p q (k 0) (k 1) hk0 hk1, h3,
    running_last X Wg sg (k 0) (k 1), running_last X Wu su (k 0) (k 1)]
  rfl

/-- What a last chunk writes back is its block of the hidden activations. -/
theorem flushed_eq (hX : V c main_v1 = X) (hWg : V c main_v2 = Wg) (hsg : V c main_arg2 = sg) (hWu : V c main_v3 = Wu) (hsu : V c main_arg4 = su)
    (t : Fin cfg0.N) (hfl : (cfg0.win 5).flush t = true) :
    (R0.dat V c).flushed 5 t = ((cfg0.win 5).blk t).view.read (Elt Ideal) (hid X Wg sg Wu su) := by
  have h3 : t.val % 4 = 3 := (flush0_5 t).mp hfl
  have hi := idx_facts t
  show (cfg0.win 5).cut (grid0.coords t) ((R0.dat V c).after 5 t) = _
  rw [R0.after5]
  funext j
  show (R0.stateAt V c t.val t.isLt).1 j = hid X Wg sg Wu su (((cfg0.win 5).blk t).view.emb j)
  obtain ⟨p, q, rfl⟩ : ∃ (p : Fin 1024) (q : Fin 256), j = ix2 p q := ⟨j 0, j 1, eq_ix2 j⟩
  refine out_apply V c X Wg sg Wu su hX hWg hsg hWu hsu t h3 p q _ ?_ ?_
  · show win0_5.index t (0 : Fin 2) * 1024 + 1 * p.val = _; omega
  · show win0_5.index t (1 : Fin 2) * 256 + 1 * q.val = _; omega

/-- An index of the output array is in point t's block iff each coordinate is in the block's range on its axis. -/
theorem mem_blk (t : Fin cfg0.N) (i : S8192x11008.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v5).slice (win0_5.rect t)).set ↔ _
  rw [View.set_slice_whole, Rect.mem_set_unit]
  exact Iff.rfl

/-- Every index of the output array lies in the block written back at the last chunk of its tile: row n, column f
    in the block of the point 172 (n / 1024) + 4 (f / 256) + 3. -/
theorem cover (i : S8192x11008.Idx) : ∃ t : Fin cfg0.N, (cfg0.win 5).flush t = true ∧ i ∈ ((cfg0.win 5).blk t).view.set := by
  have h0 : (i 0).val < 8192 := (i 0).isLt
  have h1 : (i 1).val < 11008 := (i 1).isLt
  have hN : cfg0.N = 1376 := N_0
  have hlt : 172 * ((i 0).val / 1024) + 4 * ((i 1).val / 256) + 3 < cfg0.N := by rw [hN]; omega
  have hi := idx_facts ⟨172 * ((i 0).val / 1024) + 4 * ((i 1).val / 256) + 3, hlt⟩
  refine ⟨⟨172 * ((i 0).val / 1024) + 4 * ((i 1).val / 256) + 3, hlt⟩, (flush0_5 _).mpr ?_, ?_⟩
  · show (172 * ((i 0).val / 1024) + 4 * ((i 1).val / 256) + 3) % 4 = 3; omega
  · rw [mem_blk]
    intro a
    match a with
    | ⟨0, _⟩ =>
      show win0_5.index ⟨172 * ((i 0).val / 1024) + 4 * ((i 1).val / 256) + 3, hlt⟩ (0 : Fin 2) * 1024 ≤ (i 0).val
        ∧ (i 0).val < win0_5.index ⟨172 * ((i 0).val / 1024) + 4 * ((i 1).val / 256) + 3, hlt⟩ (0 : Fin 2) * 1024 + 1024
      have e : win0_5.index ⟨172 * ((i 0).val / 1024) + 4 * ((i 1).val / 256) + 3, hlt⟩ (0 : Fin 2) = (172 * ((i 0).val / 1024) + 4 * ((i 1).val / 256) + 3) / 172 := hi.2.2.2.2.2.2.2.2.2.2.1
      rw [e]; omega
    | ⟨1, _⟩ =>
      show win0_5.index ⟨172 * ((i 0).val / 1024) + 4 * ((i 1).val / 256) + 3, hlt⟩ (1 : Fin 2) * 256 ≤ (i 1).val
        ∧ (i 1).val < win0_5.index ⟨172 * ((i 0).val / 1024) + 4 * ((i 1).val / 256) + 3, hlt⟩ (1 : Fin 2) * 256 + 256
      have e : win0_5.index ⟨172 * ((i 0).val / 1024) + 4 * ((i 1).val / 256) + 3, hlt⟩ (1 : Fin 2) = (172 * ((i 0).val / 1024) + 4 * ((i 1).val / 256) + 3) / 4 % 43 := hi.2.2.2.2.2.2.2.2.2.2.2.1
      rw [e]; omega

/-- THE OUTPUT ARRAY after the whole grid: the hidden activations, index by index. -/
theorem hid_final (hX : V c main_v1 = X) (hWg : V c main_v2 = Wg) (hsg : V c main_arg2 = sg) (hWu : V c main_v3 = Wu) (hsu : V c main_arg4 = su) :
    (R0.dat V c).arrAt 5 cfg0.N = fun (j : S8192x11008.Idx) =>
      ((∑ k : Fin 4096, X (ix2 (j 0) k) * (Wg (ix2 (j 1) k) * sg (ix2 (j 1) 0)))
        * Ideal.logistic (∑ k : Fin 4096, X (ix2 (j 0) k) * (Wg (ix2 (j 1) k) * sg (ix2 (j 1) 0))))
       * (∑ k : Fin 4096, X (ix2 (j 0) k) * (Wu (ix2 (j 1) k) * su (ix2 (j 1) 0))) :=
  (R0.dat V c).arrAt_eq_of_cover 5 (hid X Wg sg Wu su) (fun t hf => flushed_eq V c X Wg sg Wu su hX hWg hsg hWu hsu t hf) cover

end Cert.KernelIdeal.R0F

end
-- ==== Proof.lean ====
/-
  The certificate of the layer: a SwiGLU feed-forward block with integer weights dequantized row by row, computed
  by two tiled kernels (gate and up projections with silu(gate) * up, then the down projection), against its plain
  reference.

  Frames.  Each kernel walks a three-axis grid whose last axis runs over chunks of the contracted dimension; it
  clears its accumulators at the first chunk, adds one chunk's product at every chunk, and writes its output block
  at the last.  What the accumulators hold after each grid point is a recursion on the point, carried between points
  by the kernel's invariant; with it every point's body runs to the end without a fault, the pipeline writes the
  output blocks back, and the argument arrays are never written.  This is proved once for any float instance and
  read at the word-level instance for the printed kernel and at the extended reals for its idealization.  The
  reference is a straight line of host operations, whose run is read off operation by operation.

  Values, over the extended reals.  A chunked accumulation started from zero is the whole sum (sums may be
  regrouped in any additive commutative monoid; no finiteness is used), so the first kernel's output array is
  silu(gate) * up of the two full projections and the second kernel's is the full down projection of it: the
  specification's result.  The reference is the same function: its transposes swap a dequantized weight's two
  coordinates, and its spelling of the logistic function, 1 / (1 + exp (-g)), is the logistic function.  The
  idealization rewrote no operation, so that conjunct is trivial.
-/
import proofs.«158660_j59433757442706_2_alg».proof.Defs
import proofs.«158660_j59433757442706_2_alg».proof.Proof.Gen.Kernel
import proofs.«158660_j59433757442706_2_alg».proof.Proof.Gen.KernelIdeal
import proofs.«158660_j59433757442706_2_alg».proof.Proof.Gen.ReferenceIdeal
import proofs.«158660_j59433757442706_2_alg».proof.Proof.Gen.Pre_finite_inputs
import proofs.«158660_j59433757442706_2_alg».proof.Proof.Gen.ReferenceIdeal.Run
import proofs.«158660_j59433757442706_2_alg».proof.Proof.Gen.ReferenceIdeal.Read
import proofs.«158660_j59433757442706_2_alg».proof.Proof.K.Whole
import proofs.«158660_j59433757442706_2_alg».proof.Proof.KI.Whole
import proofs.«158660_j59433757442706_2_alg».proof.Proof.KI.Bridge
import proofs.«158660_j59433757442706_2_alg».proof.Proof.RefIsSpec
import proofs.«158660_j59433757442706_2_alg».proof.Proof.KI.R1Value
import proofs.«158660_j59433757442706_2_alg».proof.Proof.KI.R0Final

noncomputable section

namespace Cert.Proof

open Idealize.ShloMosaic Idealize.ShloMosaic.TcCoe Idealize.ShloMosaic.ValueIdx Idealize.SL.Sem
open scoped BigOperators

/-- The printed kernel runs, faults nowhere and leaves its arguments alone. -/
theorem frame_k : Cert.frame_Kernel := fun m ρ _ => Cert.Kernel.Whole.frame m ρ
/-- So does its idealization. -/
theorem frame_ki : Cert.frame_KernelIdeal := fun m ρ _ => Cert.KernelIdeal.Whole.frame m ρ
/-- The reference's run, with the result dropped. -/
theorem frame_ri : Cert.frame_ReferenceIdeal := fun m ρ _ =>
  (θ_run Cert.ReferenceIdeal.defs _ _).mono (fun _ h c => (h c).2) (Cert.ReferenceIdeal.Value.run (F := Ideal) m ρ)

section
open Cert.KernelIdeal Cert.KernelIdeal.Gen in
/-- Over the extended reals both programs end with the specification's result of the (agreeing) arguments, reshaped. -/
theorem algebraic : Cert.algebraic_KernelIdeal_ReferenceIdeal := by
  intro m ρ m' ρ' _ hagree
  refine ⟨fun c => shapeCast Cert.KernelIdeal.S4x2048x4096 (Cert.Mlp.outArr (shapeCast Cert.KernelIdeal.S8192x4096 ((m ((c.tc : Thread Cert.KernelIdeal.nD Cert.KernelIdeal.τ).loc Cert.KernelIdeal.main_arg0)) : (⟨Cert.KernelIdeal.S4x2048x4096, .f32⟩ : BufTy).Contents (Elt Ideal)) shapeCasts_S4x2048x4096_S8192x4096) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) shapeCasts_S8192x4096_S4x2048x4096, ?_, ?_⟩
  · exact (θ_run Cert.KernelIdeal.defs _ _).mono (fun r h c =>
      ⟨(h c _ (Cert.KernelIdeal.Whole.mem_uc Cert.KernelIdeal.main_v7 (by decide))).trans (Cert.KernelIdeal.Bridge.result_eq (fun V => Cert.KernelIdeal.R1V.out_final V) (fun V => Cert.KernelIdeal.R0F.hid_final V) m ρ c),
       (h c _ (Cert.KernelIdeal.Whole.mem_uc Cert.KernelIdeal.main_arg0 (by decide))).trans (Cert.KernelIdeal.Whole.W4_main_arg0 m ρ c),
       (h c _ (Cert.KernelIdeal.Whole.mem_uc Cert.KernelIdeal.main_arg1 (by decide))).trans (Cert.KernelIdeal.Whole.W4_main_arg1 m ρ c),
       (h c _ (Cert.KernelIdeal.Whole.mem_uc Cert.KernelIdeal.main_arg2 (by decide))).trans (Cert.KernelIdeal.Whole.W4_main_arg2 m ρ c),
       (h c _ (Cert.KernelIdeal.Whole.mem_uc Cert.KernelIdeal.main_arg3 (by decide))).trans (Cert.KernelIdeal.Whole.W4_main_arg3 m ρ c),
       (h c _ (Cert.KernelIdeal.Whole.mem_uc Cert.KernelIdeal.main_arg4 (by decide))).trans (Cert.KernelIdeal.Whole.W4_main_arg4 m ρ c),
       (h c _ (Cert.KernelIdeal.Whole.mem_uc Cert.KernelIdeal.main_arg5 (by decide))).trans (Cert.KernelIdeal.Whole.W4_main_arg5 m ρ c),
       (h c _ (Cert.KernelIdeal.Whole.mem_uc Cert.KernelIdeal.main_arg6 (by decide))).trans (Cert.KernelIdeal.Whole.W4_main_arg6 m ρ c)⟩)
      (Cert.KernelIdeal.Whole.run_all (F := Ideal) m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v18_eq, Cert.Mlp.Ref.ref_result_eq, (hagree c).1, (hagree c).2.1, (hagree c).2.2.1, (hagree c).2.2.2.1, (hagree c).2.2.2.2.1, (hagree c).2.2.2.2.2.1, (hagree c).2.2.2.2.2.2]
    rfl

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
